-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S4x1x1024 : Shape := ⟨3, ![4, 1, 1024]⟩
abbrev S4x1024 : Shape := ⟨2, ![4, 1024]⟩
abbrev S1x1024 : Shape := ⟨2, ![1, 1024]⟩
abbrev S1x256x1024 : Shape := ⟨3, ![1, 256, 1024]⟩
abbrev S1x1x1024 : Shape := ⟨3, ![1, 1, 1024]⟩
abbrev S1x16 : Shape := ⟨2, ![1, 16]⟩
abbrev S256x1024 : Shape := ⟨2, ![256, 1024]⟩
abbrev S256x64 : Shape := ⟨2, ![256, 64]⟩
abbrev S1x64 : Shape := ⟨2, ![1, 64]⟩
abbrev S256x1 : Shape := ⟨2, ![256, 1]⟩
abbrev S1x1 : Shape := ⟨2, ![1, 1]⟩
abbrev S1 : Shape := ⟨1, ![1]⟩
abbrev S64 : Shape := ⟨1, ![64]⟩

abbrev nBuf : Space → Nat
  | .hbm => 25
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x1x1024, .f32⟩
  | .hbm, ⟨10, _⟩ => ⟨S4x1024, .f32⟩
  | .hbm, ⟨11, _⟩ => ⟨S1024x1024, .f32⟩
  | .hbm, ⟨12, _⟩ => ⟨S4x1024, .f32⟩
  | .hbm, ⟨13, _⟩ => ⟨S1x1024, .f32⟩
  | .hbm, ⟨14, _⟩ => ⟨S4x1024, .f32⟩
  | .hbm, ⟨15, _⟩ => ⟨S4x1024, .f32⟩
  | .hbm, ⟨16, _⟩ => ⟨S4x1x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S4x1x1024, .f32⟩
  | .hbm, ⟨24, _⟩ => ⟨S4x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1024, .f32⟩
  | .local _ .vmem, ⟨10, _⟩ => ⟨S1x1x1024, .f32⟩
  | .local _ .vmem, ⟨11, _⟩ => ⟨S1x1x1024, .f32⟩
  | .local _ .vmem, ⟨12, _⟩ => ⟨S1x16, .f32⟩
  | .local _ .vmem, ⟨13, _⟩ => ⟨S1x16, .f32⟩
  | .local _ .vmem, ⟨14, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v614 : BitVec 1 := Scalar.cmpi .eq arg1 c7_i32
  let v615 : BitVec 32 := Scalar.extui v614
  let c0_i32_255 : BitVec 32 := 0#32
  let v616 : BitVec 1 := Scalar.cmpi .ne v615 c0_i32_255
  v616

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  slices_S4x2048x1024_S4x1x1024_0_2047_0 : S4x2048x1024.Slices ![0, 2047, 0] S4x1x1024
  shapeCasts_S4x1x1024_S4x1024 : S4x1x1024.ShapeCasts S4x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S4x1024_0_1 : S1x1024.BroadcastsInDim S4x1024 (![0, 1] : Fin 2 → Fin S4x1024.rank)
  shapeCasts_S4x1024_S4x1x1024 : S4x1024.ShapeCasts S4x1x1024
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  slices_S256x1024_o0_0_S256x64 : S256x1024.Slices ![0, 0] S256x64
  slices_S1x1024_o0_0_S1x64 : S1x1024.Slices ![0, 0] S1x64
  inb_S1x16_S1x1_0_0 : ∀ a, (![0, 0] : Fin 2 → Nat) a + S1x1.size a ≤ S1x16.size a
  h_S1x1 : 0 < S1x1.numel
  reduces_S256x1_S1 : S256x1.Reduces [0] S1
  shapeCasts_S1_S1x1 : S1.ShapeCasts S1x1
  broadcasts_S1x1_S256x1 : S1x1.Broadcasts S256x1
  broadcasts_S256x1_S256x64 : S256x1.Broadcasts S256x64
  reduces_S256x64_S64 : S256x64.Reduces [0] S64
  shapeCasts_S64_S1x64 : S64.ShapeCasts S1x64
  inb_S1x1024_S1x64_0_0 : ∀ a, (![0, 0] : Fin 2 → Nat) a + S1x64.size a ≤ S1x1024.size a
  h_S1x64 : 0 < S1x64.numel
  broadcasts_S1x1_S1x64 : S1x1.Broadcasts S1x64
  shapeCasts_S1x1_S1x1 : S1x1.ShapeCasts S1x1
  shapeCasts_S1x64_S1x64 : S1x64.ShapeCasts S1x64
  slices_S256x1024_o0_64_S256x64 : S256x1024.Slices ![0, 64] S256x64
  slices_S1x1024_o0_64_S1x64 : S1x1024.Slices ![0, 64] S1x64
  inb_S1x16_S1x1_0_1 : ∀ a, (![0, 1] : Fin 2 → Nat) a + S1x1.size a ≤ S1x16.size a
  inb_S1x1024_S1x64_0_64 : ∀ a, (![0, 64] : Fin 2 → Nat) a + S1x64.size a ≤ S1x1024.size a
  slices_S256x1024_o0_128_S256x64 : S256x1024.Slices ![0, 128] S256x64
  slices_S1x1024_o0_128_S1x64 : S1x1024.Slices ![0, 128] S1x64
  inb_S1x16_S1x1_0_2 : ∀ a, (![0, 2] : Fin 2 → Nat) a + S1x1.size a ≤ S1x16.size a
  inb_S1x1024_S1x64_0_128 : ∀ a, (![0, 128] : Fin 2 → Nat) a + S1x64.size a ≤ S1x1024.size a
  slices_S256x1024_o0_192_S256x64 : S256x1024.Slices ![0, 192] S256x64
  slices_S1x1024_o0_192_S1x64 : S1x1024.Slices ![0, 192] S1x64
  inb_S1x16_S1x1_0_3 : ∀ a, (![0, 3] : Fin 2 → Nat) a + S1x1.size a ≤ S1x16.size a
  inb_S1x1024_S1x64_0_192 : ∀ a, (![0, 192] : Fin 2 → Nat) a + S1x64.size a ≤ S1x1024.size a
  slices_S256x1024_o0_256_S256x64 : S256x1024.Slices ![0, 256] S256x64
  slices_S1x1024_o0_256_S1x64 : S1x1024.Slices ![0, 256] S1x64
  inb_S1x16_S1x1_0_4 : ∀ a, (![0, 4] : Fin 2 → Nat) a + S1x1.size a ≤ S1x16.size a
  inb_S1x1024_S1x64_0_256 : ∀ a, (![0, 256] : Fin 2 → Nat) a + S1x64.size a ≤ S1x1024.size a
  slices_S256x1024_o0_320_S256x64 : S256x1024.Slices ![0, 320] S256x64
  slices_S1x1024_o0_320_S1x64 : S1x1024.Slices ![0, 320] S1x64
  inb_S1x16_S1x1_0_5 : ∀ a, (![0, 5] : Fin 2 → Nat) a + S1x1.size a ≤ S1x16.size a
  inb_S1x1024_S1x64_0_320 : ∀ a, (![0, 320] : Fin 2 → Nat) a + S1x64.size a ≤ S1x1024.size a
  slices_S256x1024_o0_384_S256x64 : S256x1024.Slices ![0, 384] S256x64
  slices_S1x1024_o0_384_S1x64 : S1x1024.Slices ![0, 384] S1x64
  inb_S1x16_S1x1_0_6 : ∀ a, (![0, 6] : Fin 2 → Nat) a + S1x1.size a ≤ S1x16.size a
  inb_S1x1024_S1x64_0_384 : ∀ a, (![0, 384] : Fin 2 → Nat) a + S1x64.size a ≤ S1x1024.size a
  slices_S256x1024_o0_448_S256x64 : S256x1024.Slices ![0, 448] S256x64
  slices_S1x1024_o0_448_S1x64 : S1x1024.Slices ![0, 448] S1x64
  inb_S1x16_S1x1_0_7 : ∀ a, (![0, 7] : Fin 2 → Nat) a + S1x1.size a ≤ S1x16.size a
  inb_S1x1024_S1x64_0_448 : ∀ a, (![0, 448] : Fin 2 → Nat) a + S1x64.size a ≤ S1x1024.size a
  slices_S256x1024_o0_512_S256x64 : S256x1024.Slices ![0, 512] S256x64
  slices_S1x1024_o0_512_S1x64 : S1x1024.Slices ![0, 512] S1x64
  inb_S1x16_S1x1_0_8 : ∀ a, (![0, 8] : Fin 2 → Nat) a + S1x1.size a ≤ S1x16.size a
  inb_S1x1024_S1x64_0_512 : ∀ a, (![0, 512] : Fin 2 → Nat) a + S1x64.size a ≤ S1x1024.size a
  slices_S256x1024_o0_576_S256x64 : S256x1024.Slices ![0, 576] S256x64
  slices_S1x1024_o0_576_S1x64 : S1x1024.Slices ![0, 576] S1x64
  inb_S1x16_S1x1_0_9 : ∀ a, (![0, 9] : Fin 2 → Nat) a + S1x1.size a ≤ S1x16.size a
  inb_S1x1024_S1x64_0_576 : ∀ a, (![0, 576] : Fin 2 → Nat) a + S1x64.size a ≤ S1x1024.size a
  slices_S256x1024_o0_640_S256x64 : S256x1024.Slices ![0, 640] S256x64
  slices_S1x1024_o0_640_S1x64 : S1x1024.Slices ![0, 640] S1x64
  inb_S1x16_S1x1_0_10 : ∀ a, (![0, 10] : Fin 2 → Nat) a + S1x1.size a ≤ S1x16.size a
  inb_S1x1024_S1x64_0_640 : ∀ a, (![0, 640] : Fin 2 → Nat) a + S1x64.size a ≤ S1x1024.size a
  slices_S256x1024_o0_704_S256x64 : S256x1024.Slices ![0, 704] S256x64
  slices_S1x1024_o0_704_S1x64 : S1x1024.Slices ![0, 704] S1x64
  inb_S1x16_S1x1_0_11 : ∀ a, (![0, 11] : Fin 2 → Nat) a + S1x1.size a ≤ S1x16.size a
  inb_S1x1024_S1x64_0_704 : ∀ a, (![0, 704] : Fin 2 → Nat) a + S1x64.size a ≤ S1x1024.size a
  slices_S256x1024_o0_768_S256x64 : S256x1024.Slices ![0, 768] S256x64
  slices_S1x1024_o0_768_S1x64 : S1x1024.Slices ![0, 768] S1x64
  inb_S1x16_S1x1_0_12 : ∀ a, (![0, 12] : Fin 2 → Nat) a + S1x1.size a ≤ S1x16.size a
  inb_S1x1024_S1x64_0_768 : ∀ a, (![0, 768] : Fin 2 → Nat) a + S1x64.size a ≤ S1x1024.size a
  slices_S256x1024_o0_832_S256x64 : S256x1024.Slices ![0, 832] S256x64
  slices_S1x1024_o0_832_S1x64 : S1x1024.Slices ![0, 832] S1x64
  inb_S1x16_S1x1_0_13 : ∀ a, (![0, 13] : Fin 2 → Nat) a + S1x1.size a ≤ S1x16.size a
  inb_S1x1024_S1x64_0_832 : ∀ a, (![0, 832] : Fin 2 → Nat) a + S1x64.size a ≤ S1x1024.size a
  slices_S256x1024_o0_896_S256x64 : S256x1024.Slices ![0, 896] S256x64
  slices_S1x1024_o0_896_S1x64 : S1x1024.Slices ![0, 896] S1x64
  inb_S1x16_S1x1_0_14 : ∀ a, (![0, 14] : Fin 2 → Nat) a + S1x1.size a ≤ S1x16.size a
  inb_S1x1024_S1x64_0_896 : ∀ a, (![0, 896] : Fin 2 → Nat) a + S1x64.size a ≤ S1x1024.size a
  slices_S256x1024_o0_960_S256x64 : S256x1024.Slices ![0, 960] S256x64
  slices_S1x1024_o0_960_S1x64 : S1x1024.Slices ![0, 960] S1x64
  inb_S1x16_S1x1_0_15 : ∀ a, (![0, 15] : Fin 2 → Nat) a + S1x1.size a ≤ S1x16.size a
  inb_S1x1024_S1x64_0_960 : ∀ a, (![0, 960] : Fin 2 → Nat) a + S1x64.size a ≤ S1x1024.size a
  shapeCasts_S1x1024_S1x1x1024 : S1x1024.ShapeCasts S1x1x1024
  dot_S4x1024_S1024x1024_S4x1024_1_0_0_1_n_n_wf : DotDims.WF S4x1024 S1024x1024 S4x1024 [1] [0] [0] [1] [] []
  dot_S256x1024_S1024x1024_S256x1024_1_0_0_1_n_n_wf : DotDims.WF S256x1024 S1024x1024 S256x1024 [1] [0] [0] [1] [] []
  dot_S256x64_S1x64_S256x1_1_1_0_0_n_n_wf : DotDims.WF S256x64 S1x64 S256x1 [1] [1] [0] [0] [] []
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S4x1x1024.size a
  hwx0_5 : ∀ i : grid0.Coords, EltTy.bits .f32 = 32 ∨ (Rect.block (s := S4x1x1024) S1x1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S4x1x1024.size a
  hwx0_8 : ∀ i : grid0.Coords, EltTy.bits .f32 = 32 ∨ (Rect.block (s := S4x1x1024) S1x1x1024.size (cc0_transform_8 i) (hinb0_8 i)).WholeWords (EltTy.packing .f32)

variable [Facts₀]

def dot_S4x1024_S1024x1024_S4x1024_1_0_0_1_n_n : DotDims S4x1024 S1024x1024 S4x1024 where
  lhsContracting := [1]
  rhsContracting := [0]
  lhsNonContracting := [0]
  rhsNonContracting := [1]
  lhsBatch := []
  rhsBatch := []
  wf := dot_S4x1024_S1024x1024_S4x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x64_S1x64_S256x1_1_1_0_0_n_n : DotDims S256x64 S1x64 S256x1 where
  lhsContracting := [1]
  rhsContracting := [1]
  lhsNonContracting := [0]
  rhsNonContracting := [0]
  lhsBatch := []
  rhsBatch := []
  wf := dot_S256x64_S1x64_S256x1_1_1_0_0_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x1x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x1x1024 : Shape := ⟨3, ![4, 1, 1024]⟩
abbrev S4x1024 : Shape := ⟨2, ![4, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S_, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x2048x64, .f32⟩
  | .hbm, ⟨47, _⟩ => ⟨S4x2048x16x64, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | .hbm, ⟨53, _⟩ => ⟨S4x1x1024, .f32⟩
  | .hbm, ⟨54, _⟩ => ⟨S4x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  slices_S4x2048x1024_S4x1x1024_0_2047_0 : S4x2048x1024.Slices ![0, 2047, 0] S4x1x1024
  shapeCasts_S4x1x1024_S4x1024 : S4x1x1024.ShapeCasts S4x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Frames.lean ====
/-
  The three frame claims and the idealization claim.

  Both kernel programs carry three small scratch arrays from one tile of the sequence to the next (a running
  maximum, a running sum and a running weighted sum per head); their frames — every weakly fair execution ends, nothing
  faults, the nine argument arrays end as they began — are the generated ones.  The reference is a straight line of
  host operations: its frame is its generated run with the result forgotten.  The idealized kernel is the kernel's own
  text read over the extended reals (no operation was rewritten), so the idealization claim has nothing to say.
-/
import proofs.«176754_j53403623358619_2_alg».proof.Defs
import proofs.«176754_j53403623358619_2_alg».proof.Proof.Gen.Kernel.Frame
import proofs.«176754_j53403623358619_2_alg».proof.Proof.Gen.KernelIdeal.Frame
import proofs.«176754_j53403623358619_2_alg».proof.Proof.Gen.ReferenceIdeal.Run
import proofs.«176754_j53403623358619_2_alg».proof.Proof.Gen.Pre_finite_inputs

noncomputable section

namespace Cert.Proof.Frames

open Idealize.ShloMosaic Idealize.SL.Sem

theorem frame_kernel : Cert.frame_Kernel (hKernel := Cert.Kernel.Gen.facts)
    (hPre_finite_inputs := Cert.Pre_finite_inputs.Gen.facts) :=
  fun m ρ _ => Cert.Kernel.Gen.frame m ρ

theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

theorem preserves : Cert.preserves_Kernel_KernelIdeal := trivial

end Cert.Proof.Frames

end
-- ==== Proof.LibUnitReads.lean ====
/-
  Reading a buffer back through the pieces written into it, for pieces that are unit-stride rectangles, any shape,
  any element type: a load of the whole shape reads the contents; the newest piece, when it is the whole shape, is what
  the buffer then reads; a load of a unit-stride rectangle reads the newest piece's payload when that piece is the same
  rectangle, and looks past the newest piece when the two rectangles are disjoint along some axis.
-/
import Idealize.ShloMosaic.Lib.WritesUnit
import Idealize.ShloMosaic.Lib.Pipeline.Value
import Idealize.ShloMosaic.Lib.WholeRead

namespace Idealize.ShloMosaic.LibUnitReads

open Idealize.ShloMosaic View

variable {sig : RefSig} {κ : Kind} {sp : Space} {S : Shape} {e : EltTy} {Val : EltTy → Type}

/-- A load through the whole-shape rectangle at zero offsets reads what the view reads. -/
theorem readAt_whole (v : View sig κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- After a newest piece that is the whole shape, the view reads that piece's payload. -/
theorem read_writes_cons_whole (v : View sig κ sp S e) (f : v.ty.Contents Val) {off : Fin S.rank → ℕ} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  subst h
  funext y
  exact View.read_writes_cons_unit_of_mem v f inb w L y y rfl (fun a => by simp)

/-- A load of a unit-stride rectangle after a newest piece that is the same rectangle reads that piece's payload. -/
theorem readAt_unit_cons_hit (v : View sig κ sp S e) (f : v.ty.Contents Val) {off off' size : Fin S.rank → ℕ}
    (inb : ∀ a, off a + size a ≤ S.size a) (inb' : ∀ a, off' a + size a ≤ S.size a)
    (w : (Rect.unit off size inb).shape.Idx → Val e) (L : List (Piece Val S e)) (heq : off = off') :
    v.readAt Val (Rect.unit off' size inb').toLoadRect (v.writes Val f ((⟨Rect.unit off size inb, w⟩ : Piece Val S e) :: L)) = w := by
  funext x
  rw [View.readAt_apply]
  exact View.read_writes_cons_unit_of_mem v f inb w L _ x heq (fun a => by
    show off' a + 1 * (x a).val = off' a + (x a).val
    rw [Nat.one_mul])

/-- A load of a unit-stride rectangle looks past a newest piece whose rectangle is disjoint from it along axis a. -/
theorem readAt_unit_cons_miss (v : View sig κ sp S e) (f : v.ty.Contents Val) {off off' off'' size size'' : Fin S.rank → ℕ}
    (inb : ∀ a, off a + size a ≤ S.size a) (inb'' : ∀ a, off'' a + size'' a ≤ S.size a)
    (w : (Rect.unit off size inb).shape.Idx → Val e) (L : List (Piece Val S e)) (heq : off = off') (a : Fin S.rank)
    (ha : off'' a + size'' a ≤ off' a ∨ off' a + size a ≤ off'' a) :
    v.readAt Val (Rect.unit off'' size'' inb'').toLoadRect (v.writes Val f ((⟨Rect.unit off size inb, w⟩ : Piece Val S e) :: L))
      = v.readAt Val (Rect.unit off'' size'' inb'').toLoadRect (v.writes Val f L) := by
  funext x
  rw [View.readAt_apply, View.readAt_apply]
  refine View.read_writes_cons_unit_of_not_mem v f inb w L _ heq a ?_
  have hx : (((Rect.unit off'' size'' inb'').toLoadRect.idx x) a).val = off'' a + 1 * (x a).val := rfl
  have hlt : (x a).val < size'' a := (x a).isLt
  rw [hx, Nat.one_mul]
  rcases ha with ha | ha
  · left; omega
  · right; omega

end Idealize.ShloMosaic.LibUnitReads
-- ==== Proof.HeadStep.lean ====
/-
  One head's step of the tile-by-tile softmax, spelled with the kernel's own vector operations, for any column
  offset `o` (head h has o = 64 h).

  From a tile's key rows K and value rows V ([256, 1024]) and the query row q ([1, 1024]):
    scores   s_r = (Σ_d K[r, o+d] · q[0, o+d]) · 0.125                        ([256, 1])
    new max  m' = max m (max_r s_r)                                            ([1, 1])
    rescale  a = exp (m − m')                                                  ([1, 1])
    weights  p_r = exp (s_r − m')                                              ([256, 1])
    new sum  l' = a · l + Σ_r p_r                                              ([1, 1])
    new acc  acc'[d] = a · acc[d] + Σ_r p_r · V[r, o+d]                        ([1, 64])
  and, after the last tile, the normalised row acc[d] / l ([1, 64]).  Each is followed by the same-shape cast the
  store of its value goes through.
-/
import proofs.«176754_j53403623358619_2_alg».proof.Proof.Gen.KernelIdeal

noncomputable section

namespace Cert.KernelIdeal.HeadStep

open Idealize.ShloMosaic Idealize.SL.Sem Cert.KernelIdeal Cert.KernelIdeal.Gen

variable {F : FTy → Type} [FloatOps F]

/-- The scaled scores of a tile's 256 positions against the query, in the head at column offset `o`. -/
def scores (o : ℕ) (K : FVec F S256x1024 .f32) (q : FVec F S1x1024 .f32)
    (hK : S256x1024.Slices ![0, o] S256x64) (hq : S1x1024.Slices ![0, o] S1x64) : FVec F S256x1 .f32 :=
  mulf (matmul dot_S256x64_S1x64_S256x1_1_1_0_0_n_n none (extractStridedSlice S256x64 ![0, o] K hK)
      (extractStridedSlice S1x64 ![0, o] q hq) (constant S256x1 .f32 0x00000000#32))
    (broadcast S256x1 (Scalar.ofBits .f32 0x3E000000#32))

/-- The running maximum after the tile: the old one against the tile's largest score. -/
def newMax (sc : FVec F S256x1 .f32) (mOld : FVec F S1x1 .f32) : FVec F S1x1 .f32 :=
  maximumf mOld (shapeCast S1x1 (multiReduction .maximumf [0] S1 sc 0xFF800000#32 reduces_S256x1_S1 (.inl rfl) rfl)
    shapeCasts_S1_S1x1)

/-- The factor that re-bases the old sum and accumulator on the new maximum. -/
def rescale (mOld mNew : FVec F S1x1 .f32) : FVec F S1x1 .f32 := exp (subf mOld mNew)

/-- The tile's weights relative to the new maximum. -/
def weights (sc : FVec F S256x1 .f32) (mNew : FVec F S1x1 .f32) : FVec F S256x1 .f32 :=
  exp (subf sc (broadcastTo S256x1 mNew broadcasts_S1x1_S256x1))

/-- The running sum of weights after the tile. -/
def newSum (a : FVec F S1x1 .f32) (p : FVec F S256x1 .f32) (lOld : FVec F S1x1 .f32) : FVec F S1x1 .f32 :=
  addf (mulf a lOld) (shapeCast S1x1 (multiReduction .add [0] S1 p 0x00000000#32 reduces_S256x1_S1 (.inl rfl) rfl)
    shapeCasts_S1_S1x1)

/-- The running weighted sum of the value rows after the tile, in the head's 64 columns. -/
def newAcc (o : ℕ) (V : FVec F S256x1024 .f32) (hV : S256x1024.Slices ![0, o] S256x64)
    (a : FVec F S1x1 .f32) (p : FVec F S256x1 .f32) (accOld : FVec F S1x64 .f32) : FVec F S1x64 .f32 :=
  addf (mulf (broadcastTo S1x64 a broadcasts_S1x1_S1x64) accOld)
    (shapeCast S1x64 (multiReduction .add [0] S64
      (mulf (broadcastTo S256x64 p broadcasts_S256x1_S256x64) (extractStridedSlice S256x64 ![0, o] V hV))
      0x00000000#32 reduces_S256x64_S64 (.inl rfl) rfl) shapeCasts_S64_S1x64)

/-- The head's accumulator divided by its sum of weights. -/
def normalised (acc : FVec F S1x64 .f32) (l : FVec F S1x1 .f32) : FVec F S1x64 .f32 :=
  divf acc (broadcastTo S1x64 l broadcasts_S1x1_S1x64)

/-- The same-shape casts a stored value goes through. -/
def cast11 (v : FVec F S1x1 .f32) : FVec F S1x1 .f32 := shapeCast S1x1 v shapeCasts_S1x1_S1x1
def cast164 (v : FVec F S1x64 .f32) : FVec F S1x64 .f32 := shapeCast S1x64 v shapeCasts_S1x64_S1x64

end Cert.KernelIdeal.HeadStep

end
-- ==== Proof.BodyLoads.lean ====
/-
  Side conditions of a head's column slices and scratch cells, for any head, and two facts about loads: a load of a whole
  staging buffer reads its contents, and a load of a scratch buffer whose contents are known reads them through the
  load's rectangle.
-/
import proofs.«176754_j53403623358619_2_alg».proof.Proof.Gen.KernelIdeal.Frame
import proofs.«176754_j53403623358619_2_alg».proof.Proof.LibUnitReads
import proofs.«176754_j53403623358619_2_alg».proof.Proof.HeadStep
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.SL Idealize.SL.Sem
open Idealize.ShloMosaic.ValueIdx Idealize.ShloMosaic.LibUnitReads Cert.KernelIdeal Cert.KernelIdeal.Gen

variable {F : FTy → Type} [FloatOps F]

/-- The 64 columns from `o` fit in a [256, 1024] tile. -/
theorem slK (o : ℕ) (ho : o + 64 ≤ 1024) : S256x1024.Slices ![0, o] S256x64 :=
  ⟨rfl, fun a => match a with
    | ⟨0, _⟩ => by show 0 + 256 ≤ 256; omega
    | ⟨1, _⟩ => by show o + 64 ≤ 1024; exact ho⟩

/-- The 64 columns from `o` fit in the [1, 1024] query row. -/
theorem slq (o : ℕ) (ho : o + 64 ≤ 1024) : S1x1024.Slices ![0, o] S1x64 :=
  ⟨rfl, fun a => match a with
    | ⟨0, _⟩ => by show 0 + 1 ≤ 1; omega
    | ⟨1, _⟩ => by show o + 64 ≤ 1024; exact ho⟩

/-- Cell `k` of a [1, 16] scratch row. -/
theorem inb11 (k : ℕ) (hk : k < 16) : ∀ a, (![0, k] : Fin S1x16.rank → ℕ) a + S1x1.size a ≤ S1x16.size a :=
  fun a => match a with
    | ⟨0, _⟩ => by show 0 + 1 ≤ 1; omega
    | ⟨1, _⟩ => by show k + 1 ≤ 16; omega

/-- The 64 cells from `o` of a [1, 1024] scratch row. -/
theorem inb164 (o : ℕ) (ho : o + 64 ≤ 1024) : ∀ a, (![0, o] : Fin S1x1024.rank → ℕ) a + S1x64.size a ≤ S1x1024.size a :=
  fun a => match a with
    | ⟨0, _⟩ => by show 0 + 1 ≤ 1; omega
    | ⟨1, _⟩ => by show o + 64 ≤ 1024; exact ho

/-- A load of a whole staging buffer reads its contents. -/
theorem load_whole {S : Shape} {e : EltTy} (mr : Memref sig .tc .vmem S e) (hmr : mr.IsWhole) (x : Vec F S e)
    {off : Fin S.rank → ℕ} (hz : off = fun _ => 0) (inb : ∀ a, off a + S.size a ≤ S.size a) :
    View.readAt (Elt F) mr.view (Rect.unit off S.size inb).toLoadRect (hmr.unread x) = x :=
  (readAt_whole _ _ hz inb).trans (hmr.read_unread x)

/-- A load through a rectangle of a buffer with known contents reads the contents at the rectangle's indices. -/
theorem load_rect {S : Shape} {e : EltTy} (mr : Memref sig .tc .vmem S e) (hmr : mr.IsWhole) (x : Vec F S e) (r : Rect S) :
    View.readAt (Elt F) mr.view r.toLoadRect (hmr.unread x) = View.ld x r := by
  rw [View.readAt_eq_ld, hmr.read_unread]

end Cert.KernelIdeal.Body

end
-- ==== Proof.BodyMid.lean ====
import proofs.«176754_j53403623358619_2_alg».proof.Proof.BodyLoads

set_option maxRecDepth 16384

noncomputable section

namespace Cert.KernelIdeal.Body

open Idealize.ShloMosaic Idealize.ShloMosaic.TcCoe Idealize.ShloMosaic.Tactic Idealize.SL Idealize.SL.Sem
open Idealize.ShloMosaic.ValueIdx Idealize.ShloMosaic.LibUnitReads Cert.KernelIdeal Cert.KernelIdeal.Gen Cert.KernelIdeal.HeadStep

variable {F : FTy → Type} [FloatOps F]

/-! ## A middle tile: what the three scratch rows hold afterwards, head by head

Each scratch row is written in sixteen pieces, one per head, the later heads' pieces on top.  An index of head `h` lies
under none of the later pieces and under head `h`'s own; that piece's value is the head's step of the running softmax on
what the rows held before the tile. -/

/-- The running maximum of head `h` after a middle tile. -/
theorem mid_max (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : ¬cond0_0 i) (hc1 : ¬cond0_1 i)
    (x0 : Vec F S1x256x1024 .f32) (x1 : Vec F S1024x1024 .bf16) (x2 : Vec F S1024 .f32) (x3 : Vec F S1024x1024 .bf16) (x4 : Vec F S1024 .f32) (x5 : Vec F S1x1x1024 .f32) (x6 : Vec F S1024x1024 .bf16) (x7 : Vec F S1024 .f32) (xs0 : Vec F S1x16 .f32) (xs1 : Vec F S1x16 .f32) (xs2 : Vec F S1x1024 .f32) (h : Fin 16) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 (ix2 0 h)
      = cast11 (newMax (scores (64 * h.val) (k0_pay27 x0 x1 x2) (k0_pay29 x5) (slK _ (by have := h.isLt; omega)) (slq _ (by have := h.isLt; omega))) (View.ld xs0 (Rect.unit ![0, h.val] S1x1.size (inb11 _ h.isLt)))) (ix2 0 0) := by
  unfold sout0_B_0 kernelRun0_B
  dsimp only
  fin_cases h <;>
  · repeat rw [View.read_writes_cons_unit_of_not_mem _ _ _ _ _ _ rfl 1 (Or.inl (by decide))]
    rw [View.read_writes_cons_unit_of_mem _ _ _ _ _ _ (ix2 0 0) rfl (by decide)]
    sl_unfold_words
    rw [load_whole arg2 harg2 x0 (by funext a; fin_cases a <;> rfl), load_whole arg3 harg3 x1 (by funext a; fin_cases a <;> rfl),
      load_whole arg4 harg4 x2 (by funext a; fin_cases a <;> rfl), load_whole arg7 harg7 x5 (by funext a; fin_cases a <;> rfl)]
    rw [load_rect arg11 harg11 xs0]
    rfl

/-- The running sum of weights of head `h` after a middle tile. -/
theorem mid_sum (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : ¬cond0_0 i) (hc1 : ¬cond0_1 i)
    (x0 : Vec F S1x256x1024 .f32) (x1 : Vec F S1024x1024 .bf16) (x2 : Vec F S1024 .f32) (x3 : Vec F S1024x1024 .bf16) (x4 : Vec F S1024 .f32) (x5 : Vec F S1x1x1024 .f32) (x6 : Vec F S1024x1024 .bf16) (x7 : Vec F S1024 .f32) (xs0 : Vec F S1x16 .f32) (xs1 : Vec F S1x16 .f32) (xs2 : Vec F S1x1024 .f32) (h : Fin 16) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 (ix2 0 h)
      = cast11 (newSum (rescale (View.ld xs0 (Rect.unit ![0, h.val] S1x1.size (inb11 _ h.isLt))) (newMax (scores (64 * h.val) (k0_pay27 x0 x1 x2) (k0_pay29 x5) (slK _ (by have := h.isLt; omega)) (slq _ (by have := h.isLt; omega))) (View.ld xs0 (Rect.unit ![0, h.val] S1x1.size (inb11 _ h.isLt))))) (weights (scores (64 * h.val) (k0_pay27 x0 x1 x2) (k0_pay29 x5) (slK _ (by have := h.isLt; omega)) (slq _ (by have := h.isLt; omega))) (newMax (scores (64 * h.val) (k0_pay27 x0 x1 x2) (k0_pay29 x5) (slK _ (by have := h.isLt; omega)) (slq _ (by have := h.isLt; omega))) (View.ld xs0 (Rect.unit ![0, h.val] S1x1.size (inb11 _ h.isLt))))) (View.ld xs1 (Rect.unit ![0, h.val] S1x1.size (inb11 _ h.isLt)))) (ix2 0 0) := by
  unfold sout0_B_1 kernelRun0_B
  dsimp only
  fin_cases h <;>
  · repeat rw [View.read_writes_cons_unit_of_not_mem _ _ _ _ _ _ rfl 1 (Or.inl (by decide))]
    rw [View.read_writes_cons_unit_of_mem _ _ _ _ _ _ (ix2 0 0) rfl (by decide)]
    sl_unfold_words
    rw [load_whole arg2 harg2 x0 (by funext a; fin_cases a <;> rfl), load_whole arg3 harg3 x1 (by funext a; fin_cases a <;> rfl),
      load_whole arg4 harg4 x2 (by funext a; fin_cases a <;> rfl), load_whole arg7 harg7 x5 (by funext a; fin_cases a <;> rfl)]
    rw [load_rect arg11 harg11 xs0, load_rect arg12 harg12 xs1]
    rfl

/-- Column `64 h + d` of a row of width 1024. -/
def colOf (h : Fin 16) (d : Fin 64) : Fin 1024 := ⟨64 * h.val + d.val, by have := h.isLt; have := d.isLt; omega⟩

/-- A column of head `h` lies before every cell from `k` on when head `h`'s 64 columns end by `k`. -/
theorem col_lt (h : Fin 16) (d : Fin 64) (k : ℕ) (hk : 64 * h.val + 64 ≤ k) :
    ((ix2 (0 : Fin 1) (colOf h d)) 1).val < k := by
  have := d.isLt
  show 64 * h.val + d.val < k
  omega

/-- A column of head `h` is lane `d` of the 64 cells from `o = 64 h`. -/
theorem col_hit (h : Fin 16) (d : Fin 64) (o : ℕ) (ho : o = 64 * h.val) :
    ∀ a, ((ix2 (0 : Fin 1) (colOf h d)) a).val = (![0, o] : Fin 2 → ℕ) a + ((ix2 (0 : Fin 1) d) a).val := by
  subst ho
  intro a
  match a with
  | ⟨0, _⟩ => rfl
  | ⟨1, _⟩ => rfl

set_option maxHeartbeats 16000000 in
/-- The running weighted sum of values of head `h`, lane `d`, after a middle tile. -/
theorem mid_acc (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : ¬cond0_0 i) (hc1 : ¬cond0_1 i)
    (x0 : Vec F S1x256x1024 .f32) (x1 : Vec F S1024x1024 .bf16) (x2 : Vec F S1024 .f32) (x3 : Vec F S1024x1024 .bf16) (x4 : Vec F S1024 .f32) (x5 : Vec F S1x1x1024 .f32) (x6 : Vec F S1024x1024 .bf16) (x7 : Vec F S1024 .f32) (xs0 : Vec F S1x16 .f32) (xs1 : Vec F S1x16 .f32) (xs2 : Vec F S1x1024 .f32) (h : Fin 16) (d : Fin 64) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 (ix2 0 (colOf h d))
      = cast164 (newAcc (64 * h.val) (k0_pay28 x0 x3 x4) (slK _ (by have := h.isLt; omega)) (rescale (View.ld xs0 (Rect.unit ![0, h.val] S1x1.size (inb11 _ h.isLt))) (newMax (scores (64 * h.val) (k0_pay27 x0 x1 x2) (k0_pay29 x5) (slK _ (by have := h.isLt; omega)) (slq _ (by have := h.isLt; omega))) (View.ld xs0 (Rect.unit ![0, h.val] S1x1.size (inb11 _ h.isLt))))) (weights (scores (64 * h.val) (k0_pay27 x0 x1 x2) (k0_pay29 x5) (slK _ (by have := h.isLt; omega)) (slq _ (by have := h.isLt; omega))) (newMax (scores (64 * h.val) (k0_pay27 x0 x1 x2) (k0_pay29 x5) (slK _ (by have := h.isLt; omega)) (slq _ (by have := h.isLt; omega))) (View.ld xs0 (Rect.unit ![0, h.val] S1x1.size (inb11 _ h.isLt))))) (View.ld xs2 (Rect.unit ![0, 64 * h.val] S1x64.size (inb164 _ (by have := h.isLt; omega))))) (ix2 0 d) := by
  unfold sout0_B_2 kernelRun0_B
  dsimp only
  fin_cases h <;>
  · repeat rw [View.read_writes_cons_unit_of_not_mem _ _ _ _ _ _ rfl 1 (Or.inl (col_lt _ d _ (by decide)))]
    rw [View.read_writes_cons_unit_of_mem _ _ _ _ _ _ (ix2 0 d) rfl (col_hit _ d _ (by decide))]
    sl_unfold_words
    rw [load_whole arg2 harg2 x0 (by funext a; fin_cases a <;> rfl), load_whole arg3 harg3 x1 (by funext a; fin_cases a <;> rfl),
      load_whole arg4 harg4 x2 (by funext a; fin_cases a <;> rfl), load_whole arg5 harg5 x3 (by funext a; fin_cases a <;> rfl),
      load_whole arg6 harg6 x4 (by funext a; fin_cases a <;> rfl), load_whole arg7 harg7 x5 (by funext a; fin_cases a <;> rfl)]
    rw [load_rect arg11 harg11 xs0, load_rect arg13 harg13 xs2]
    rfl

end Cert.KernelIdeal.Body

end
-- ==== Proof.BodyCells.lean ====
/-
  Reading one cell, or one head's 64 cells, of a scratch row through the rectangle of the load.
-/
import proofs.«176754_j53403623358619_2_alg».proof.Proof.BodyLoads

set_option maxRecDepth 16384

noncomputable section

namespace Cert.KernelIdeal.Body

open Idealize.ShloMosaic Idealize.ShloMosaic.TcCoe Idealize.ShloMosaic.Tactic Idealize.SL Idealize.SL.Sem
open Idealize.ShloMosaic.ValueIdx Idealize.ShloMosaic.LibUnitReads Cert.KernelIdeal Cert.KernelIdeal.Gen Cert.KernelIdeal.HeadStep

variable {F : FTy → Type} [FloatOps F]

/-- A load of cell `k` of a [1, 16] row reads that cell. -/
theorem ld_cell11 {Val : EltTy → Type} {e : EltTy} (xs : S1x16.Idx → Val e) (k : ℕ) (hk : k < 16)
    (inb : ∀ a, (![0, k] : Fin S1x16.rank → ℕ) a + S1x1.size a ≤ S1x16.size a) :
    View.ld xs (Rect.unit ![0, k] S1x1.size inb) (ix2 (0 : Fin 1) (0 : Fin 1)) = xs (ix2 (0 : Fin 1) (⟨k, hk⟩ : Fin 16)) :=
  congrArg xs (funext fun a => Fin.ext (by
    match a with
    | ⟨0, _⟩ => rfl
    | ⟨1, _⟩ => show k + 1 * 0 = k; omega))

/-- A load of the 64 cells from `o` of a [1, 1024] row reads, at lane `d`, cell `o + d`. -/
theorem ld_cell164 {Val : EltTy → Type} {e : EltTy} (xs : S1x1024.Idx → Val e) (o : ℕ) (ho : o + 64 ≤ 1024)
    (inb : ∀ a, (![0, o] : Fin S1x1024.rank → ℕ) a + S1x64.size a ≤ S1x1024.size a) (d : Fin 64) :
    View.ld xs (Rect.unit ![0, o] S1x64.size inb) (ix2 (0 : Fin 1) d)
      = xs (ix2 (0 : Fin 1) (⟨o + d.val, by have := d.isLt; omega⟩ : Fin 1024)) :=
  congrArg xs (funext fun a => Fin.ext (by
    match a with
    | ⟨0, _⟩ => rfl
    | ⟨1, _⟩ => show o + 1 * d.val = o + d.val; omega))

end Cert.KernelIdeal.Body

end
-- ==== Proof.StepForm.lean ====
/-
  One head's step of the tile-by-tile softmax, entry by entry on the extended reals: the forms the kernel's
  operations take when read at an index, before anything is known to be finite.
-/
import Idealize.ShloMosaic.PureOps.Ideal

noncomputable section

namespace Cert.StepForm

open Idealize.ShloMosaic Finset

/-- The scale the kernel multiplies a score by: the float word of one eighth. -/
def eighth : EReal := Ideal.ofBits .f32 0x3E000000#32

/-- The float word of minus infinity, from which a maximum is folded. -/
def negInf : EReal := Ideal.ofBits .f32 0xFF800000#32

/-- Column `o + d` of a row of width 1024. -/
def at64 (o : ℕ) (ho : o + 64 ≤ 1024) (d : Fin 64) : Fin 1024 := ⟨o + d.val, by omega⟩

/-- Scaled score of tile position `r`: the head's 64 columns of the key row against the query row, times one eighth. -/
def score (K : Fin 256 → Fin 1024 → EReal) (q : Fin 1024 → EReal) (o : ℕ) (ho : o + 64 ≤ 1024) (r : Fin 256) : EReal :=
  (∑ d : Fin 64, K r (at64 o ho d) * q (at64 o ho d)) * eighth

/-- New running maximum: the old one against the fold of `max` over the tile's scores from minus infinity. -/
def newMax (m : EReal) (s : Fin 256 → EReal) : EReal := max m ((univ : Finset (Fin 256)).fold max negInf s)

/-- The factor re-basing the old sum and accumulator. -/
def rescale (m m' : EReal) : EReal := Ideal.exp (m - m')

/-- A tile position's weight relative to the new maximum. -/
def weight (s : Fin 256 → EReal) (m' : EReal) (r : Fin 256) : EReal := Ideal.exp (s r - m')

/-- New running sum of weights. -/
def newSum (a l : EReal) (p : Fin 256 → EReal) : EReal := a * l + ∑ r, p r

/-- New running weighted sum of one value column. -/
def newAcc (a acc : EReal) (p v : Fin 256 → EReal) : EReal := a * acc + ∑ r, p r * v r

/-- The accumulator divided by the sum of weights. -/
def normalised (acc l : EReal) : EReal := Ideal.div acc l

/-- A row against a [1024, 1024] matrix's column `o`, plus a bias: the form of a tile's key and value rows
    (`W` here is already the transposed weight, indexed [d, o]) and of the output projection. -/
def affine (row : Fin 1024 → EReal) (W : Fin 1024 → Fin 1024 → EReal) (b : Fin 1024 → EReal) (o : Fin 1024) : EReal :=
  (∑ d, row d * W d o) + b o

end Cert.StepForm

end
-- ==== Proof.HeadApply.lean ====
/-
  One head's step of the running softmax, read entry by entry over the extended reals.

  Each vector-level definition of the step (scores, new maximum, rescaling factor, weights, new sum, new accumulator,
  normalised row) is evaluated at an index and found to be the corresponding scalar form: a contraction over the head's
  64 columns becomes a finite sum over d : Fin 64 of products at column o + d, a reduction over the tile's 256 rows a
  finite sum or a fold of max over r : Fin 256, a broadcast a constant, and a same-shape cast the identity.
-/
import proofs.«176754_j53403623358619_2_alg».proof.Proof.HeadStep
import proofs.«176754_j53403623358619_2_alg».proof.Proof.StepForm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadApply

open Idealize.ShloMosaic Idealize.SL.Sem Cert.KernelIdeal Cert.KernelIdeal.Gen Idealize.ShloMosaic.ValueIdx

/-! ## Broadcasts of a single entry or a single column -/

/-- A [1, 1] array broadcast to [1, 64] reads its one entry everywhere. -/
theorem bcast_11_164 {α : Type} (v : S1x1.Idx → α) (h : S1x1.Broadcasts S1x64) (d : Fin 64) :
    broadcastTo S1x64 v h (ix2 (0 : Fin 1) d) = v (ix2 (0 : Fin 1) (0 : Fin 1)) := by
  refine broadcastTo_apply v h _ _ fun ax => ?_
  match ax with
  | ⟨0, _⟩ => rfl
  | ⟨1, _⟩ => rfl

/-- A [1, 1] array broadcast to [256, 1] reads its one entry everywhere. -/
theorem bcast_11_2561 {α : Type} (v : S1x1.Idx → α) (h : S1x1.Broadcasts S256x1) (r : Fin 256) :
    broadcastTo S256x1 v h (ix2 r (0 : Fin 1)) = v (ix2 (0 : Fin 1) (0 : Fin 1)) := by
  refine broadcastTo_apply v h _ _ fun ax => ?_
  match ax with
  | ⟨0, _⟩ => rfl
  | ⟨1, _⟩ => rfl

/-- A [256, 1] column broadcast to [256, 64] reads, at (r, d), the column's entry r. -/
theorem bcast_2561_25664 {α : Type} (v : S256x1.Idx → α) (h : S256x1.Broadcasts S256x64) (r : Fin 256) (d : Fin 64) :
    broadcastTo S256x64 v h (ix2 r d) = v (ix2 r (0 : Fin 1)) := by
  refine broadcastTo_apply v h _ _ fun ax => ?_
  match ax with
  | ⟨0, _⟩ => rfl
  | ⟨1, _⟩ => rfl

/-! ## The score contraction's operand indices -/

/-- The left operand is read in the output's row … -/
theorem sc_lhs0 (i : S256x1.Idx) (q : dot_S256x64_S1x64_S256x1_1_1_0_0_n_n.contr.Idx) :
    (dot_S256x64_S1x64_S256x1_1_1_0_0_n_n.lhsIdx i q 0).val = (i 0).val := by
  unfold DotDims.lhsIdx
  rw [dif_neg (show ¬(0 : Fin S256x64.rank) ∈ dot_S256x64_S1x64_S256x1_1_1_0_0_n_n.lhsBatch by decide),
    dif_pos (show (0 : Fin S256x64.rank) ∈ dot_S256x64_S1x64_S256x1_1_1_0_0_n_n.lhsNonContracting by decide)]
  rfl
/-- … and at the contraction's coordinate along its columns; … -/
theorem sc_lhs1 (i : S256x1.Idx) (q : dot_S256x64_S1x64_S256x1_1_1_0_0_n_n.contr.Idx) :
    (dot_S256x64_S1x64_S256x1_1_1_0_0_n_n.lhsIdx i q 1).val = (q ⟨0, by decide⟩).val :=
  dot_S256x64_S1x64_S256x1_1_1_0_0_n_n.lhsIdx_val_of_single rfl i q
/-- … the right operand in the output's (unit) column … -/
theorem sc_rhs0 (i : S256x1.Idx) (q : dot_S256x64_S1x64_S256x1_1_1_0_0_n_n.contr.Idx) :
    (dot_S256x64_S1x64_S256x1_1_1_0_0_n_n.rhsIdx i q 0).val = (i 1).val := by
  unfold DotDims.rhsIdx
  rw [dif_neg (show ¬(0 : Fin S1x64.rank) ∈ dot_S256x64_S1x64_S256x1_1_1_0_0_n_n.rhsBatch by decide),
    dif_pos (show (0 : Fin S1x64.rank) ∈ dot_S256x64_S1x64_S256x1_1_1_0_0_n_n.rhsNonContracting by decide)]
  rfl
/-- … and at the contraction's coordinate along its columns. -/
theorem sc_rhs1 (i : S256x1.Idx) (q : dot_S256x64_S1x64_S256x1_1_1_0_0_n_n.contr.Idx) :
    (dot_S256x64_S1x64_S256x1_1_1_0_0_n_n.rhsIdx i q 1).val = (q ⟨0, by decide⟩).val :=
  dot_S256x64_S1x64_S256x1_1_1_0_0_n_n.rhsIdx_val_of_single rfl i q

/-! ## The step's definitions at an index -/

/-- The scaled score of tile position r: the sum over the head's 64 columns of key times query, times one eighth. -/
theorem scores_apply (o : ℕ) (ho : o + 64 ≤ 1024) (K : FVec Ideal S256x1024 .f32) (q : FVec Ideal S1x1024 .f32)
    (hK : S256x1024.Slices ![0, o] S256x64) (hq : S1x1024.Slices ![0, o] S1x64) (r : Fin 256) :
    HeadStep.scores (F := Ideal) o K q hK hq (ix2 r (0 : Fin 1))
      = StepForm.score (fun r c => K (ix2 r c)) (fun c => q (ix2 (0 : Fin 1) c)) o ho r := by
  unfold HeadStep.scores StepForm.score
  rw [mulf_apply, broadcast_apply]
  refine congrArg₂ (· * ·) ?_ rfl
  refine (Ideal.matmul_constant_zero_apply dot_S256x64_S1x64_S256x1_1_1_0_0_n_n none _ _ (ix2 r (0 : Fin 1))).trans ?_
  rw [← Equiv.sum_comp (contrEquiv1 dot_S256x64_S1x64_S256x1_1_1_0_0_n_n 64 rfl rfl).symm]
  refine Finset.sum_congr rfl fun k _ => ?_
  have hk := contrEquiv1_symm_val dot_S256x64_S1x64_S256x1_1_1_0_0_n_n 64 rfl rfl k
  have el : dot_S256x64_S1x64_S256x1_1_1_0_0_n_n.lhsIdx (ix2 r (0 : Fin 1))
      ((contrEquiv1 dot_S256x64_S1x64_S256x1_1_1_0_0_n_n 64 rfl rfl).symm k) = ix2 r k := funext fun a => Fin.ext (by
    match a with
    | ⟨0, _⟩ => exact sc_lhs0 _ _
    | ⟨1, _⟩ => exact (sc_lhs1 _ _).trans hk)
  have er : dot_S256x64_S1x64_S256x1_1_1_0_0_n_n.rhsIdx (ix2 r (0 : Fin 1))
      ((contrEquiv1 dot_S256x64_S1x64_S256x1_1_1_0_0_n_n 64 rfl rfl).symm k) = ix2 (0 : Fin 1) k := funext fun a => Fin.ext (by
    match a with
    | ⟨0, _⟩ => exact sc_rhs0 _ _
    | ⟨1, _⟩ => exact (sc_rhs1 _ _).trans hk)
  rw [el, er, slice2_axis1_eq, slice2_axis1_eq]
  rfl

/-- The new running maximum: the old one against the fold of max over the tile's scores from minus infinity. -/
theorem newMax_apply (sc : FVec Ideal S256x1 .f32) (mOld : FVec Ideal S1x1 .f32) :
    HeadStep.newMax (F := Ideal) sc mOld (ix2 (0 : Fin 1) (0 : Fin 1))
      = StepForm.newMax (mOld (ix2 (0 : Fin 1) (0 : Fin 1))) (fun r => sc (ix2 r (0 : Fin 1))) := by
  unfold HeadStep.newMax StepForm.newMax
  rw [maximumf_apply, shapeCast_a_1a_apply]
  refine congrArg (max (mOld (ix2 (0 : Fin 1) (0 : Fin 1)))) ?_
  refine (Ideal.multiReduction_maximumf_single sc _ reduces_S256x1_S1 _ _ (ix1 (0 : Fin 1))).trans ?_
  have hl : (sc ∘ reduces_S256x1_S1.lift (ix1 (0 : Fin 1))) = fun r : Fin 256 => sc (ix2 r (0 : Fin 1)) :=
    funext fun k => congrArg sc (funext fun a => Fin.ext (by
      match a with
      | ⟨0, _⟩ => rfl
      | ⟨1, _⟩ => rfl))
  rw [hl]
  rfl

/-- The rescaling factor: the exponential of the old maximum minus the new. -/
theorem rescale_apply (mOld mNew : FVec Ideal S1x1 .f32) :
    HeadStep.rescale (F := Ideal) mOld mNew (ix2 (0 : Fin 1) (0 : Fin 1))
      = StepForm.rescale (mOld (ix2 (0 : Fin 1) (0 : Fin 1))) (mNew (ix2 (0 : Fin 1) (0 : Fin 1))) := rfl

/-- A tile position's weight: the exponential of its score minus the new maximum. -/
theorem weights_apply (sc : FVec Ideal S256x1 .f32) (mNew : FVec Ideal S1x1 .f32) (r : Fin 256) :
    HeadStep.weights (F := Ideal) sc mNew (ix2 r (0 : Fin 1))
      = StepForm.weight (fun r => sc (ix2 r (0 : Fin 1))) (mNew (ix2 (0 : Fin 1) (0 : Fin 1))) r := by
  unfold HeadStep.weights StepForm.weight
  show Ideal.exp (sc (ix2 r (0 : Fin 1)) - broadcastTo S256x1 mNew broadcasts_S1x1_S256x1 (ix2 r (0 : Fin 1))) = _
  rw [bcast_11_2561]

/-- The new running sum: the rescaled old sum plus the sum of the tile's weights. -/
theorem newSum_apply (a : FVec Ideal S1x1 .f32) (p : FVec Ideal S256x1 .f32) (lOld : FVec Ideal S1x1 .f32) :
    HeadStep.newSum (F := Ideal) a p lOld (ix2 (0 : Fin 1) (0 : Fin 1))
      = StepForm.newSum (a (ix2 (0 : Fin 1) (0 : Fin 1))) (lOld (ix2 (0 : Fin 1) (0 : Fin 1))) (fun r => p (ix2 r (0 : Fin 1))) := by
  unfold HeadStep.newSum StepForm.newSum
  rw [addf_apply, mulf_apply, shapeCast_a_1a_apply]
  refine congrArg (a (ix2 (0 : Fin 1) (0 : Fin 1)) * lOld (ix2 (0 : Fin 1) (0 : Fin 1)) + ·) ?_
  refine (Ideal.multiReduction_add_single p _ reduces_S256x1_S1 _ _ (ix1 (0 : Fin 1))).trans ?_
  refine Finset.sum_congr rfl fun k _ => congrArg p (funext fun ax => Fin.ext ?_)
  match ax with
  | ⟨0, _⟩ => rfl
  | ⟨1, _⟩ => rfl

/-- The new accumulator in column d of the head: the rescaled old entry plus the weighted sum of the value column. -/
theorem newAcc_apply (o : ℕ) (ho : o + 64 ≤ 1024) (V : FVec Ideal S256x1024 .f32) (hV : S256x1024.Slices ![0, o] S256x64)
    (a : FVec Ideal S1x1 .f32) (p : FVec Ideal S256x1 .f32) (accOld : FVec Ideal S1x64 .f32) (d : Fin 64) :
    HeadStep.newAcc (F := Ideal) o V hV a p accOld (ix2 (0 : Fin 1) d)
      = StepForm.newAcc (a (ix2 (0 : Fin 1) (0 : Fin 1))) (accOld (ix2 (0 : Fin 1) d)) (fun r => p (ix2 r (0 : Fin 1)))
          (fun r => V (ix2 r (StepForm.at64 o ho d))) := by
  unfold HeadStep.newAcc StepForm.newAcc
  rw [addf_apply, mulf_apply, bcast_11_164, shapeCast_a_1a_apply]
  refine congrArg (a (ix2 (0 : Fin 1) (0 : Fin 1)) * accOld (ix2 (0 : Fin 1) d) + ·) ?_
  refine (Ideal.multiReduction_add_single _ _ reduces_S256x64_S64 _ _ (ix1 d)).trans ?_
  refine Finset.sum_congr rfl fun (k : Fin 256) _ => ?_
  have hl : reduces_S256x64_S64.lift (ix1 d) k = ix2 k d := funext fun ax => Fin.ext (by
    match ax with
    | ⟨0, _⟩ => rfl
    | ⟨1, _⟩ => rfl)
  rw [hl, mulf_apply, bcast_2561_25664, slice2_axis1_eq]
  rfl

/-- The normalised entry: the accumulator's entry divided by the sum of weights. -/
theorem normalised_apply (acc : FVec Ideal S1x64 .f32) (l : FVec Ideal S1x1 .f32) (d : Fin 64) :
    HeadStep.normalised (F := Ideal) acc l (ix2 (0 : Fin 1) d)
      = StepForm.normalised (acc (ix2 (0 : Fin 1) d)) (l (ix2 (0 : Fin 1) (0 : Fin 1))) := by
  unfold HeadStep.normalised StepForm.normalised
  rw [divf_apply, bcast_11_164]

/-- A cast to the same shape changes nothing. -/
theorem cast11_apply (v : FVec Ideal S1x1 .f32) : HeadStep.cast11 (F := Ideal) v = v := shapeCast_self v _
theorem cast164_apply (v : FVec Ideal S1x64 .f32) : HeadStep.cast164 (F := Ideal) v = v := shapeCast_self v _

end Cert.KernelIdeal.HeadApply

end
-- ==== Proof.LibCoeOps.lean ====
/-
  The extended-real operations on real values (any index types; no program involved).

  On the image of the reals in the extended reals every operation used here is the real operation: a finite sum
  of reals, a maximum folded from the bottom element over a nonempty family, a quotient by a nonzero real, the
  exponential and the square root. The bottom element is the identity of the maximum, and exp (⊥ − a) = 0.
-/
import Idealize.ShloMosaic.PureOps.Ideal
import Mathlib.Tactic

namespace Cert.CoeOps

open Idealize.ShloMosaic

/-- A finite sum of reals, summed in the extended reals. -/
theorem coe_sum {ι : Type*} (s : Finset ι) (f : ι → ℝ) :
    (∑ i ∈ s, ((f i : ℝ) : EReal)) = ((∑ i ∈ s, f i : ℝ) : EReal) := by
  classical
  refine Finset.induction_on s ?_ ?_
  · simp only [Finset.sum_empty, EReal.coe_zero]
  · intro a t ha ih
    rw [Finset.sum_insert ha, Finset.sum_insert ha, ih, EReal.coe_add]

/-- A finite sum of products of reals, computed in the extended reals. -/
theorem coe_sum_mul {ι : Type*} (s : Finset ι) (f g : ι → ℝ) :
    (∑ i ∈ s, ((f i : ℝ) : EReal) * ((g i : ℝ) : EReal)) = ((∑ i ∈ s, f i * g i : ℝ) : EReal) := by
  rw [← coe_sum]
  apply Finset.sum_congr rfl
  intro i _
  rw [EReal.coe_mul]

/-- The maximum of two reals, taken in the extended reals. -/
theorem coe_max (a b : ℝ) : ((max a b : ℝ) : EReal) = max ((a : ℝ) : EReal) ((b : ℝ) : EReal) :=
  EReal.coe_strictMono.monotone.map_max

theorem max_coe_coe (a b : ℝ) : max ((a : ℝ) : EReal) ((b : ℝ) : EReal) = ((max a b : ℝ) : EReal) :=
  (coe_max a b).symm

/-- The maximum of a nonempty finite family of reals, folded from the bottom element. -/
theorem fold_max_bot_coe {ι : Type*} [Fintype ι] [Nonempty ι] (f : ι → ℝ) :
    Finset.fold max (⊥ : EReal) (fun i => ((f i : ℝ) : EReal)) Finset.univ
      = ((Finset.univ.sup' Finset.univ_nonempty f : ℝ) : EReal) := by
  rw [Finset.apply_sup'_eq_sup'_comp Finset.univ_nonempty (fun a : ℝ => (a : EReal))
    (fun x y => coe_max x y), Finset.sup'_eq_sup]
  rfl

/-- A quotient of reals by a nonzero real. -/
theorem div_coe_coe (a b : ℝ) (hb : b ≠ 0) :
    Idealize.ShloMosaic.Ideal.div ((a : ℝ) : EReal) ((b : ℝ) : EReal) = ((a / b : ℝ) : EReal) := by
  rw [Ideal.div_coe hb, ← EReal.coe_mul, mul_one_div]

/-- The exponential of a real. -/
theorem exp_coe (a : ℝ) : Idealize.ShloMosaic.Ideal.exp ((a : ℝ) : EReal) = ((Real.exp a : ℝ) : EReal) := rfl

/-- The exponential of a difference of reals. -/
theorem exp_sub_coe_coe (a b : ℝ) :
    Idealize.ShloMosaic.Ideal.exp (((a : ℝ) : EReal) - ((b : ℝ) : EReal)) = ((Real.exp (a - b) : ℝ) : EReal) := by
  rw [← EReal.coe_sub]
  rfl

/-- Below every real the exponential vanishes. -/
theorem exp_bot_sub_coe (a : ℝ) :
    Idealize.ShloMosaic.Ideal.exp ((⊥ : EReal) - ((a : ℝ) : EReal)) = 0 := by
  rw [EReal.bot_sub]
  rfl

/-- The bottom element is the identity of the maximum. -/
theorem max_bot_coe (a : ℝ) : max (⊥ : EReal) ((a : ℝ) : EReal) = ((a : ℝ) : EReal) :=
  max_bot_left _

theorem max_coe_bot (a : ℝ) : max ((a : ℝ) : EReal) (⊥ : EReal) = ((a : ℝ) : EReal) :=
  max_bot_right _

/-- A real weight times zero, and zero plus a real, in the extended reals. -/
theorem coe_mul_zero (a : ℝ) : ((a : ℝ) : EReal) * 0 = 0 := mul_zero _

theorem zero_add_coe (a : ℝ) : (0 : EReal) + ((a : ℝ) : EReal) = ((a : ℝ) : EReal) := zero_add _

/-- The square root of 64. -/
theorem sqrt_64 : Idealize.ShloMosaic.Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

end Cert.CoeOps
-- ==== Proof.AttnSpec.lean ====
/-
  Last-token multi-head attention over the reals: the one function both programs compute.

  Sizes: batch 4, sequence 2048, model width 1024 = 16 heads × 64 lanes; the sequence is read in 8 tiles of 256.
  With  q = x[b, 2047, :]·Wqᵀ + bq,  k_s = x[b, s, :]·Wkᵀ + bk,  v_s = x[b, s, :]·Wvᵀ + bv  (rows of width 1024),
  head h owns columns 64h … 64h+63, and

      score_h(s) = (Σ_d q[64h+d] · k_s[64h+d]) / 8,
      weight_h(s) = exp (score_h(s) − max_s' score_h(s')),
      ctx[64h+d] = Σ_s (weight_h(s) / Σ_s' weight_h(s')) · v_s[64h+d],
      out[b, p] = Σ_o ctx[o] · Wo[p, o] + bo[p].

  The running quantities after the first j+1 tiles (the same maximum, sum of weights and weighted sum of values,
  restricted to the positions s < 256 (j+1)) are what a tile-by-tile evaluation carries from one tile to the next.
-/
import Mathlib.Analysis.SpecialFunctions.Exp
import Mathlib.Algebra.BigOperators.Fin
import Mathlib.Order.Interval.Finset.Fin
import Mathlib.Tactic

noncomputable section

namespace Cert.Attn

open Finset

/-- The nine input arrays, as real numbers. -/
structure Params where
  x : Fin 4 → Fin 2048 → Fin 1024 → ℝ
  Wq : Fin 1024 → Fin 1024 → ℝ
  bq : Fin 1024 → ℝ
  Wk : Fin 1024 → Fin 1024 → ℝ
  bk : Fin 1024 → ℝ
  Wv : Fin 1024 → Fin 1024 → ℝ
  bv : Fin 1024 → ℝ
  Wo : Fin 1024 → Fin 1024 → ℝ
  bo : Fin 1024 → ℝ

/-- Column of head `h`, lane `d`. -/
def col (h : Fin 16) (d : Fin 64) : Fin 1024 := ⟨64 * h.val + d.val, by omega⟩

/-- The head that owns column `o`. -/
def hd (o : Fin 1024) : Fin 16 := ⟨o.val / 64, by omega⟩

/-- Position `r` of tile `j` of the sequence. -/
def pos (j : Fin 8) (r : Fin 256) : Fin 2048 := ⟨256 * j.val + r.val, by omega⟩

/-- The last position of the sequence. -/
def lastPos : Fin 2048 := ⟨2047, by omega⟩

theorem hd_col (h : Fin 16) (d : Fin 64) : hd (col h d) = h := by
  apply Fin.ext; simp only [hd, col]; omega

/-- A row against the rows of a weight matrix, plus a bias: `(row · Wᵀ + b)[o]`. -/
def lin (W : Fin 1024 → Fin 1024 → ℝ) (b : Fin 1024 → ℝ) (row : Fin 1024 → ℝ) (o : Fin 1024) : ℝ :=
  (∑ d, row d * W o d) + b o

variable (P : Params)

/-- The last token's query row. -/
def qv (bb : Fin 4) (o : Fin 1024) : ℝ := lin P.Wq P.bq (P.x bb lastPos) o

/-- The key row of position `s`. -/
def kv (bb : Fin 4) (s : Fin 2048) (o : Fin 1024) : ℝ := lin P.Wk P.bk (P.x bb s) o

/-- The value row of position `s`. -/
def vv (bb : Fin 4) (s : Fin 2048) (o : Fin 1024) : ℝ := lin P.Wv P.bv (P.x bb s) o

/-- The scaled score of position `s` in head `h`. -/
def score (bb : Fin 4) (h : Fin 16) (s : Fin 2048) : ℝ :=
  (∑ d : Fin 64, qv P bb (col h d) * kv P bb s (col h d)) / 8

/-- The positions of the first `j + 1` tiles. -/
def upto (j : Fin 8) : Finset (Fin 2048) := univ.filter fun s => s.val < 256 * (j.val + 1)

theorem upto_nonempty (j : Fin 8) : (upto j).Nonempty :=
  ⟨⟨0, by omega⟩, by simp only [upto, mem_filter, mem_univ, true_and]; omega⟩

/-- Running maximum of the scores over the first `j + 1` tiles. -/
def mAt (bb : Fin 4) (h : Fin 16) (j : Fin 8) : ℝ := (upto j).sup' (upto_nonempty j) (score P bb h)

/-- Running sum of the weights, relative to the running maximum. -/
def lAt (bb : Fin 4) (h : Fin 16) (j : Fin 8) : ℝ := ∑ s ∈ upto j, Real.exp (score P bb h s - mAt P bb h j)

/-- Running weighted sum of the value rows, column `o`, relative to the running maximum of `o`'s head. -/
def aAt (bb : Fin 4) (j : Fin 8) (o : Fin 1024) : ℝ :=
  ∑ s ∈ upto j, Real.exp (score P bb (hd o) s - mAt P bb (hd o) j) * vv P bb s o

/-- The scores' maximum over the whole sequence. -/
def smax (bb : Fin 4) (h : Fin 16) : ℝ := univ.sup' univ_nonempty (score P bb h)

/-- The unnormalised weight of position `s`. -/
def wt (bb : Fin 4) (h : Fin 16) (s : Fin 2048) : ℝ := Real.exp (score P bb h s - smax P bb h)

/-- The sum of the weights. -/
def den (bb : Fin 4) (h : Fin 16) : ℝ := ∑ s, wt P bb h s

/-- The attended row: the softmax-weighted sum of the value rows, column by column. -/
def ctx (bb : Fin 4) (o : Fin 1024) : ℝ := ∑ s, (wt P bb (hd o) s / den P bb (hd o)) * vv P bb s o

/-- The output projection of the attended row. -/
def out (bb : Fin 4) (p : Fin 1024) : ℝ := (∑ o, ctx P bb o * P.Wo p o) + P.bo p

end Cert.Attn

end
-- ==== Proof.OnlineLaw.lean ====
/-
  The tile-by-tile law of the running softmax, over the reals.

  The positions of the first j+2 tiles are the positions of the first j+1 tiles together with the 256 positions
  of tile j+1, and the two sets are disjoint. Hence the running maximum is the maximum of the previous one and the
  new tile's; and a sum of exponentials relative to the new maximum m' splits into the old sum, rescaled by
  exp (m − m') because exp (m − m') · exp (s − m) = exp (s − m'), plus the new tile's sum. After the last tile
  the running quantities are the whole sequence's, and the quotient of the weighted sum by the sum of the
  weights is the softmax-weighted sum.
-/
import proofs.«176754_j53403623358619_2_alg».proof.Proof.AttnSpec

noncomputable section

namespace Cert.Attn

open Finset

/-- Distinct offsets of a tile are distinct positions. -/
theorem pos_injective (j : Fin 8) : Function.Injective (pos j) := by
  intro a b hab
  have h := congrArg Fin.val hab
  simp only [pos] at h
  exact Fin.ext (by omega)

/-- The 256 positions of tile `j`. -/
def tile (j : Fin 8) : Finset (Fin 2048) := univ.image (pos j)

theorem mem_tile (j : Fin 8) (s : Fin 2048) :
    s ∈ tile j ↔ 256 * j.val ≤ s.val ∧ s.val < 256 * (j.val + 1) := by
  simp only [tile, mem_image, mem_univ, true_and]
  constructor
  · rintro ⟨r, rfl⟩
    simp only [pos]
    omega
  · rintro ⟨h1, h2⟩
    refine ⟨⟨s.val - 256 * j.val, by omega⟩, ?_⟩
    apply Fin.ext
    simp only [pos]
    omega

theorem tile_nonempty (j : Fin 8) : (tile j).Nonempty :=
  ⟨pos j 0, by simp only [tile, mem_image, mem_univ, true_and]; exact ⟨0, rfl⟩⟩

theorem mem_upto (j : Fin 8) (s : Fin 2048) : s ∈ upto j ↔ s.val < 256 * (j.val + 1) := by
  simp only [upto, mem_filter, mem_univ, true_and]

/-- The first tile's positions are the positions of tile 0. -/
theorem upto_zero : upto 0 = tile 0 := by
  ext s
  rw [mem_upto, mem_tile]
  have h0 : ((0 : Fin 8).val) = 0 := rfl
  rw [h0]
  omega

/-- One more tile: the earlier positions together with the new tile's. -/
theorem upto_succ (j : Fin 8) (hj : j.val + 1 < 8) :
    upto ⟨j.val + 1, hj⟩ = upto j ∪ tile ⟨j.val + 1, hj⟩ := by
  ext s
  rw [mem_union, mem_upto, mem_upto, mem_tile]
  show s.val < 256 * (j.val + 1 + 1) ↔ s.val < 256 * (j.val + 1) ∨ (256 * (j.val + 1) ≤ s.val ∧ s.val < 256 * (j.val + 1 + 1))
  omega

theorem disjoint_upto_tile (j : Fin 8) (hj : j.val + 1 < 8) :
    Disjoint (upto j) (tile ⟨j.val + 1, hj⟩) := by
  rw [Finset.disjoint_left]
  intro s hs ht
  rw [mem_upto] at hs
  rw [mem_tile] at ht
  have h1 : 256 * (j.val + 1) ≤ s.val := ht.1
  omega

/-- After the last tile every position has been read. -/
theorem upto_last : upto 7 = univ := by
  ext s
  rw [mem_upto]
  have h7 : ((7 : Fin 8).val) = 7 := rfl
  rw [h7]
  simp only [mem_univ, iff_true]
  omega

/-- A maximum over a tile's positions, as a maximum over the tile's offsets. -/
theorem sup'_tile (j : Fin 8) (f : Fin 2048 → ℝ) :
    (tile j).sup' (tile_nonempty j) f = univ.sup' univ_nonempty (fun r : Fin 256 => f (pos j r)) :=
  Finset.sup'_image (tile_nonempty j) f

/-- A sum over a tile's positions, as a sum over the tile's offsets. -/
theorem sum_tile (j : Fin 8) (f : Fin 2048 → ℝ) :
    ∑ s ∈ tile j, f s = ∑ r : Fin 256, f (pos j r) := by
  unfold tile
  rw [Finset.sum_image]
  intro a _ b _ hab
  exact pos_injective j hab

/-- A maximum over the first tile. -/
theorem sup'_upto_zero (f : Fin 2048 → ℝ) :
    (upto 0).sup' (upto_nonempty 0) f = univ.sup' univ_nonempty (fun r : Fin 256 => f (pos 0 r)) := by
  rw [← sup'_tile 0 f]
  exact Finset.sup'_congr _ upto_zero (fun _ _ => rfl)

/-- A maximum over one more tile. -/
theorem sup'_upto_succ (j : Fin 8) (hj : j.val + 1 < 8) (f : Fin 2048 → ℝ) :
    (upto ⟨j.val + 1, hj⟩).sup' (upto_nonempty _) f
      = max ((upto j).sup' (upto_nonempty j) f)
          (univ.sup' univ_nonempty (fun r : Fin 256 => f (pos ⟨j.val + 1, hj⟩ r))) := by
  rw [← sup'_tile ⟨j.val + 1, hj⟩ f, ← Finset.sup'_union (upto_nonempty j) (tile_nonempty _) f]
  exact Finset.sup'_congr _ (upto_succ j hj) (fun _ _ => rfl)

/-- A sum over one more tile. -/
theorem sum_upto_succ (j : Fin 8) (hj : j.val + 1 < 8) (f : Fin 2048 → ℝ) :
    ∑ s ∈ upto ⟨j.val + 1, hj⟩, f s = ∑ s ∈ upto j, f s + ∑ r : Fin 256, f (pos ⟨j.val + 1, hj⟩ r) := by
  rw [upto_succ j hj, Finset.sum_union (disjoint_upto_tile j hj), sum_tile]

/-- Changing the reference point of an exponential weight. -/
theorem exp_rebase (m m' s : ℝ) : Real.exp (s - m') = Real.exp (m - m') * Real.exp (s - m) := by
  rw [← Real.exp_add]
  congr 1
  ring

/-- A sum of exponential weights over one more tile, relative to a new reference point. -/
theorem sum_exp_succ (j : Fin 8) (hj : j.val + 1 < 8) (sc : Fin 2048 → ℝ) (m m' : ℝ) :
    ∑ s ∈ upto ⟨j.val + 1, hj⟩, Real.exp (sc s - m')
      = Real.exp (m - m') * ∑ s ∈ upto j, Real.exp (sc s - m)
        + ∑ r : Fin 256, Real.exp (sc (pos ⟨j.val + 1, hj⟩ r) - m') := by
  rw [sum_upto_succ j hj, Finset.mul_sum]
  refine congrArg₂ (· + ·) (Finset.sum_congr rfl ?_) rfl
  intro s _
  exact exp_rebase m m' (sc s)

/-- A weighted sum with exponential weights over one more tile, relative to a new reference point. -/
theorem sum_exp_mul_succ (j : Fin 8) (hj : j.val + 1 < 8) (sc w : Fin 2048 → ℝ) (m m' : ℝ) :
    ∑ s ∈ upto ⟨j.val + 1, hj⟩, Real.exp (sc s - m') * w s
      = Real.exp (m - m') * ∑ s ∈ upto j, Real.exp (sc s - m) * w s
        + ∑ r : Fin 256, Real.exp (sc (pos ⟨j.val + 1, hj⟩ r) - m') * w (pos ⟨j.val + 1, hj⟩ r) := by
  rw [sum_upto_succ j hj, Finset.mul_sum]
  refine congrArg₂ (· + ·) (Finset.sum_congr rfl ?_) rfl
  intro s _
  rw [exp_rebase m m' (sc s), mul_assoc]

variable (P : Params)

theorem mAt_zero (bb : Fin 4) (h : Fin 16) :
    mAt P bb h 0 = Finset.univ.sup' Finset.univ_nonempty (fun r : Fin 256 => score P bb h (pos 0 r)) :=
  sup'_upto_zero (score P bb h)

theorem lAt_zero (bb : Fin 4) (h : Fin 16) :
    lAt P bb h 0 = ∑ r : Fin 256, Real.exp (score P bb h (pos 0 r) - mAt P bb h 0) := by
  unfold lAt
  rw [upto_zero, sum_tile]

theorem aAt_zero (bb : Fin 4) (o : Fin 1024) :
    aAt P bb 0 o
      = ∑ r : Fin 256, Real.exp (score P bb (hd o) (pos 0 r) - mAt P bb (hd o) 0) * vv P bb (pos 0 r) o := by
  unfold aAt
  rw [upto_zero, sum_tile]

theorem mAt_succ (bb : Fin 4) (h : Fin 16) (j : Fin 8) (hj : j.val + 1 < 8) :
    mAt P bb h ⟨j.val + 1, hj⟩
      = max (mAt P bb h j)
          (Finset.univ.sup' Finset.univ_nonempty
            (fun r : Fin 256 => score P bb h (pos ⟨j.val + 1, hj⟩ r))) :=
  sup'_upto_succ j hj (score P bb h)

theorem lAt_succ (bb : Fin 4) (h : Fin 16) (j : Fin 8) (hj : j.val + 1 < 8) :
    lAt P bb h ⟨j.val + 1, hj⟩
      = Real.exp (mAt P bb h j - mAt P bb h ⟨j.val + 1, hj⟩) * lAt P bb h j
        + ∑ r : Fin 256, Real.exp (score P bb h (pos ⟨j.val + 1, hj⟩ r) - mAt P bb h ⟨j.val + 1, hj⟩) := by
  unfold lAt
  exact sum_exp_succ j hj (score P bb h) _ _

theorem aAt_succ (bb : Fin 4) (o : Fin 1024) (j : Fin 8) (hj : j.val + 1 < 8) :
    aAt P bb ⟨j.val + 1, hj⟩ o
      = Real.exp (mAt P bb (hd o) j - mAt P bb (hd o) ⟨j.val + 1, hj⟩) * aAt P bb j o
        + ∑ r : Fin 256, Real.exp (score P bb (hd o) (pos ⟨j.val + 1, hj⟩ r) - mAt P bb (hd o) ⟨j.val + 1, hj⟩)
            * vv P bb (pos ⟨j.val + 1, hj⟩ r) o := by
  unfold aAt
  exact sum_exp_mul_succ j hj (score P bb (hd o)) (fun s => vv P bb s o) _ _

theorem lAt_pos (bb : Fin 4) (h : Fin 16) (j : Fin 8) : 0 < lAt P bb h j := by
  unfold lAt
  exact Finset.sum_pos (fun s _ => Real.exp_pos _) (upto_nonempty j)

/-- After the last tile the running maximum is the whole sequence's. -/
theorem mAt_last (bb : Fin 4) (h : Fin 16) : mAt P bb h 7 = smax P bb h := by
  unfold mAt smax
  exact Finset.sup'_congr _ upto_last (fun _ _ => rfl)

/-- After the last tile the running sum of weights is the whole sequence's. -/
theorem lAt_last (bb : Fin 4) (h : Fin 16) : lAt P bb h 7 = den P bb h := by
  unfold lAt den wt
  rw [mAt_last, upto_last]

/-- After the last tile the running weighted sum is the whole sequence's. -/
theorem aAt_last (bb : Fin 4) (o : Fin 1024) :
    aAt P bb 7 o = ∑ s, wt P bb (hd o) s * vv P bb s o := by
  unfold aAt wt
  rw [mAt_last, upto_last]

theorem final_eq (bb : Fin 4) (o : Fin 1024) : aAt P bb 7 o / lAt P bb (hd o) 7 = ctx P bb o := by
  rw [aAt_last, lAt_last]
  unfold ctx
  rw [Finset.sum_div]
  apply Finset.sum_congr rfl
  intro s _
  rw [div_mul_eq_mul_div]

end Cert.Attn

end
-- ==== Proof.StepReal.lean ====
/-
  One head's step on real inputs: the entry-by-entry forms on the extended reals, evaluated at coercions of real
  numbers, are the coercions of the running quantities of the real-valued specification.

  The scale word is one eighth and the fold's seed is the bottom element. A sum of products of reals, a maximum of
  reals, the exponential of a difference of reals and a quotient by a positive real stay among the reals, so each
  form is the coercion of the corresponding real expression; the tile-by-tile law of the running softmax then
  identifies that expression with the next running quantity. At the first tile the old maximum is the bottom
  element: the re-basing factor is exp (⊥ − m) = 0 and the old sum and accumulator contribute nothing.
-/
import proofs.«176754_j53403623358619_2_alg».proof.Proof.StepForm
import proofs.«176754_j53403623358619_2_alg».proof.Proof.LibCoeOps
import proofs.«176754_j53403623358619_2_alg».proof.Proof.OnlineLaw

namespace Cert.StepReal

open Idealize.ShloMosaic Cert.Attn Cert.CoeOps

/-! ### The two constants -/

/-- The scale word denotes one eighth: sign 0, exponent 124, significand 0, that is 2 ^ (124 − 127). -/
theorem eighth_eq : StepForm.eighth = (((1 / 8 : ℝ)) : EReal) := by
  simp [StepForm.eighth, Ideal.ofBits, Ideal.ieee]
  rw [← EReal.coe_mul]
  congr 1
  norm_num

/-- The seed of the maximum denotes the bottom element. -/
theorem negInf_eq : StepForm.negInf = ⊥ := by
  simp [StepForm.negInf, Ideal.ofBits, Ideal.ieee]

/-! ### Rows against a weight matrix -/

/-- A real row against a real matrix plus a real bias. The form reads the matrix as [d, o], the specification's
    `lin` as [o, d]. -/
theorem affine_eq (W : Fin 1024 → Fin 1024 → ℝ) (b : Fin 1024 → ℝ) (row : Fin 1024 → ℝ)
    (rowE : Fin 1024 → EReal) (WE : Fin 1024 → Fin 1024 → EReal) (bE : Fin 1024 → EReal)
    (hrow : ∀ d, rowE d = ((row d : ℝ) : EReal)) (hW : ∀ d o, WE d o = ((W o d : ℝ) : EReal))
    (hb : ∀ o, bE o = ((b o : ℝ) : EReal)) (o : Fin 1024) :
    StepForm.affine rowE WE bE o = ((lin W b row o : ℝ) : EReal) := by
  simp only [StepForm.affine, lin, hrow, hW, hb]
  rw [coe_sum_mul, ← EReal.coe_add]

theorem affine_coe (W : Fin 1024 → Fin 1024 → ℝ) (b : Fin 1024 → ℝ) (row : Fin 1024 → ℝ) (o : Fin 1024) :
    StepForm.affine (fun d => ((row d : ℝ) : EReal)) (fun d o => ((W o d : ℝ) : EReal))
      (fun o => ((b o : ℝ) : EReal)) o = ((lin W b row o : ℝ) : EReal) :=
  affine_eq W b row _ _ _ (fun _ => rfl) (fun _ _ => rfl) (fun _ => rfl) o

variable (P : Params)

/-- The query row of the last position. -/
theorem qv_coe (bb : Fin 4) (o : Fin 1024) :
    StepForm.affine (fun d => ((P.x bb lastPos d : ℝ) : EReal)) (fun d o => ((P.Wq o d : ℝ) : EReal))
      (fun o => ((P.bq o : ℝ) : EReal)) o = ((qv P bb o : ℝ) : EReal) :=
  affine_coe P.Wq P.bq (P.x bb lastPos) o

/-- The key row of position `s`. -/
theorem kv_coe (bb : Fin 4) (s : Fin 2048) (o : Fin 1024) :
    StepForm.affine (fun d => ((P.x bb s d : ℝ) : EReal)) (fun d o => ((P.Wk o d : ℝ) : EReal))
      (fun o => ((P.bk o : ℝ) : EReal)) o = ((kv P bb s o : ℝ) : EReal) :=
  affine_coe P.Wk P.bk (P.x bb s) o

/-- The value row of position `s`. -/
theorem vv_coe (bb : Fin 4) (s : Fin 2048) (o : Fin 1024) :
    StepForm.affine (fun d => ((P.x bb s d : ℝ) : EReal)) (fun d o => ((P.Wv o d : ℝ) : EReal))
      (fun o => ((P.bv o : ℝ) : EReal)) o = ((vv P bb s o : ℝ) : EReal) :=
  affine_coe P.Wv P.bv (P.x bb s) o

/-- The output projection of the attended row. -/
theorem out_eq (bb : Fin 4) (rowE : Fin 1024 → EReal) (WE : Fin 1024 → Fin 1024 → EReal) (bE : Fin 1024 → EReal)
    (hrow : ∀ o, rowE o = ((ctx P bb o : ℝ) : EReal)) (hW : ∀ o p, WE o p = ((P.Wo p o : ℝ) : EReal))
    (hb : ∀ p, bE p = ((P.bo p : ℝ) : EReal)) (p : Fin 1024) :
    StepForm.affine rowE WE bE p = ((out P bb p : ℝ) : EReal) :=
  affine_eq P.Wo P.bo (ctx P bb) rowE WE bE hrow hW hb p

theorem out_coe (bb : Fin 4) (p : Fin 1024) :
    StepForm.affine (fun o => ((ctx P bb o : ℝ) : EReal)) (fun o p => ((P.Wo p o : ℝ) : EReal))
      (fun p => ((P.bo p : ℝ) : EReal)) p = ((out P bb p : ℝ) : EReal) :=
  affine_coe P.Wo P.bo (ctx P bb) p

/-! ### The scaled score -/

/-- Columns 64 h … 64 h + 63 are head `h`'s. -/
theorem at64_eq_col (h : Fin 16) (ho : 64 * h.val + 64 ≤ 1024) (d : Fin 64) :
    StepForm.at64 (64 * h.val) ho d = col h d := rfl

/-- Key times query times one eighth is the specification's query times key divided by 8. -/
theorem score_coe (bb : Fin 4) (h : Fin 16) (j : Fin 8) (ho : 64 * h.val + 64 ≤ 1024)
    (K : Fin 256 → Fin 1024 → EReal) (q : Fin 1024 → EReal)
    (hK : ∀ r c, K r c = ((kv P bb (pos j r) c : ℝ) : EReal)) (hq : ∀ c, q c = ((qv P bb c : ℝ) : EReal))
    (r : Fin 256) :
    StepForm.score K q (64 * h.val) ho r = ((Attn.score P bb h (pos j r) : ℝ) : EReal) := by
  simp only [StepForm.score, Attn.score, hK, hq, at64_eq_col]
  rw [coe_sum_mul, eighth_eq, ← EReal.coe_mul]
  congr 1
  rw [mul_one_div]
  congr 1
  apply Finset.sum_congr rfl
  intro d _
  rw [mul_comm]

/-! ### The first tile -/

theorem first_max (bb : Fin 4) (h : Fin 16) (s : Fin 256 → EReal)
    (hs : ∀ r, s r = ((Attn.score P bb h (pos 0 r) : ℝ) : EReal)) :
    StepForm.newMax StepForm.negInf s = ((mAt P bb h 0 : ℝ) : EReal) := by
  have hs' : s = fun r => ((Attn.score P bb h (pos 0 r) : ℝ) : EReal) := funext hs
  rw [StepForm.newMax, negInf_eq, hs', fold_max_bot_coe, max_bot_coe, ← mAt_zero]

theorem first_sum (bb : Fin 4) (h : Fin 16) (s : Fin 256 → EReal)
    (hs : ∀ r, s r = ((Attn.score P bb h (pos 0 r) : ℝ) : EReal))
    (m' : EReal) (hm' : m' = ((mAt P bb h 0 : ℝ) : EReal)) :
    StepForm.newSum (StepForm.rescale StepForm.negInf m') 0 (StepForm.weight s m')
      = ((lAt P bb h 0 : ℝ) : EReal) := by
  subst hm'
  simp only [StepForm.newSum, StepForm.rescale, StepForm.weight, negInf_eq, exp_bot_sub_coe, mul_zero, zero_add,
    hs, exp_sub_coe_coe]
  rw [coe_sum, ← lAt_zero]

theorem first_acc (bb : Fin 4) (h : Fin 16) (o' : Fin 1024) (ho' : hd o' = h) (s v : Fin 256 → EReal)
    (hs : ∀ r, s r = ((Attn.score P bb h (pos 0 r) : ℝ) : EReal))
    (hv : ∀ r, v r = ((vv P bb (pos 0 r) o' : ℝ) : EReal))
    (m' : EReal) (hm' : m' = ((mAt P bb h 0 : ℝ) : EReal)) :
    StepForm.newAcc (StepForm.rescale StepForm.negInf m') 0 (StepForm.weight s m') v
      = ((aAt P bb 0 o' : ℝ) : EReal) := by
  subst hm'
  subst ho'
  simp only [StepForm.newAcc, StepForm.rescale, StepForm.weight, negInf_eq, exp_bot_sub_coe, mul_zero, zero_add,
    hs, hv, exp_sub_coe_coe]
  rw [coe_sum_mul, ← aAt_zero]

/-! ### A later tile -/

theorem next_max (bb : Fin 4) (h : Fin 16) (j : Fin 8) (hj : j.val + 1 < 8) (s : Fin 256 → EReal)
    (hs : ∀ r, s r = ((Attn.score P bb h (pos ⟨j.val + 1, hj⟩ r) : ℝ) : EReal))
    (m : EReal) (hm : m = ((mAt P bb h j : ℝ) : EReal)) :
    StepForm.newMax m s = ((mAt P bb h ⟨j.val + 1, hj⟩ : ℝ) : EReal) := by
  have hs' : s = fun r => ((Attn.score P bb h (pos ⟨j.val + 1, hj⟩ r) : ℝ) : EReal) := funext hs
  rw [StepForm.newMax, negInf_eq, hm, hs', fold_max_bot_coe, max_coe_coe, ← mAt_succ]

theorem next_sum (bb : Fin 4) (h : Fin 16) (j : Fin 8) (hj : j.val + 1 < 8) (s : Fin 256 → EReal)
    (hs : ∀ r, s r = ((Attn.score P bb h (pos ⟨j.val + 1, hj⟩ r) : ℝ) : EReal))
    (m m' l : EReal) (hm : m = ((mAt P bb h j : ℝ) : EReal))
    (hm' : m' = ((mAt P bb h ⟨j.val + 1, hj⟩ : ℝ) : EReal)) (hl : l = ((lAt P bb h j : ℝ) : EReal)) :
    StepForm.newSum (StepForm.rescale m m') l (StepForm.weight s m')
      = ((lAt P bb h ⟨j.val + 1, hj⟩ : ℝ) : EReal) := by
  subst hm hm' hl
  simp only [StepForm.newSum, StepForm.rescale, StepForm.weight, hs, exp_sub_coe_coe]
  rw [coe_sum, ← EReal.coe_mul, ← EReal.coe_add, ← lAt_succ]

theorem next_acc (bb : Fin 4) (h : Fin 16) (o' : Fin 1024) (ho' : hd o' = h) (j : Fin 8) (hj : j.val + 1 < 8)
    (s v : Fin 256 → EReal)
    (hs : ∀ r, s r = ((Attn.score P bb h (pos ⟨j.val + 1, hj⟩ r) : ℝ) : EReal))
    (hv : ∀ r, v r = ((vv P bb (pos ⟨j.val + 1, hj⟩ r) o' : ℝ) : EReal))
    (m m' acc : EReal) (hm : m = ((mAt P bb h j : ℝ) : EReal))
    (hm' : m' = ((mAt P bb h ⟨j.val + 1, hj⟩ : ℝ) : EReal)) (hacc : acc = ((aAt P bb j o' : ℝ) : EReal)) :
    StepForm.newAcc (StepForm.rescale m m') acc (StepForm.weight s m') v
      = ((aAt P bb ⟨j.val + 1, hj⟩ o' : ℝ) : EReal) := by
  subst hm hm' hacc
  subst ho'
  simp only [StepForm.newAcc, StepForm.rescale, StepForm.weight, hs, hv, exp_sub_coe_coe]
  rw [coe_sum_mul, ← EReal.coe_mul, ← EReal.coe_add, ← aAt_succ]

/-! ### The end -/

/-- The accumulator over the sum of the weights, after the last tile, is the attended row's entry. -/
theorem final_norm (bb : Fin 4) (o' : Fin 1024) (acc l : EReal)
    (hacc : acc = ((aAt P bb 7 o' : ℝ) : EReal)) (hl : l = ((lAt P bb (hd o') 7 : ℝ) : EReal)) :
    StepForm.normalised acc l = ((ctx P bb o' : ℝ) : EReal) := by
  subst hacc hl
  rw [StepForm.normalised, div_coe_coe _ _ (lAt_pos P bb (hd o') 7).ne', final_eq]

end Cert.StepReal
-- ==== Proof.HeadReal.lean ====
/-
  One head's step of the running softmax on real inputs, with the kernel's own vector operations.

  When a tile's key and value rows and the query row are coercions of the real rows of the specification, and the three
  running quantities a head carries (maximum, sum of weights, weighted sum of the value columns) are the coercions of the
  specification's running quantities after the tiles before, the step's results are the coercions of the running
  quantities after this tile. At the first tile the carried maximum is minus infinity and the carried sums are zero.
  After the last tile the accumulator over the sum of weights is the attended row.
-/
import proofs.«176754_j53403623358619_2_alg».proof.Proof.HeadApply
import proofs.«176754_j53403623358619_2_alg».proof.Proof.StepReal
import proofs.«176754_j53403623358619_2_alg».proof.Proof.BodyMid

noncomputable section

namespace Cert.KernelIdeal.HeadReal

open Idealize.ShloMosaic Idealize.SL.Sem Cert.KernelIdeal Cert.KernelIdeal.Gen Idealize.ShloMosaic.ValueIdx
open Cert.Attn Cert.KernelIdeal.HeadApply

/-- Head h's 64 columns lie inside the row of width 1024. -/
theorem head_le (h : Fin 16) : 64 * h.val + 64 ≤ 1024 := by have := h.isLt; omega

/-- Column 64 h + d, in either spelling. -/
theorem colOf_eq_col (h : Fin 16) (d : Fin 64) : Body.colOf h d = Attn.col h d := rfl

/-- The tile's weights, as a function of the tile position. -/
theorem weights_fun (sc : FVec Ideal S256x1 .f32) (mNew : FVec Ideal S1x1 .f32) :
    (fun r : Fin 256 => HeadStep.weights (F := Ideal) sc mNew (ix2 r (0 : Fin 1)))
      = StepForm.weight (fun r => sc (ix2 r (0 : Fin 1))) (mNew (ix2 (0 : Fin 1) (0 : Fin 1))) :=
  funext fun r => weights_apply sc mNew r

variable (P : Params) (bb : Fin 4) (h : Fin 16)
  (K V : FVec Ideal S256x1024 .f32) (q : FVec Ideal S1x1024 .f32)
  (hK : S256x1024.Slices ![0, 64 * h.val] S256x64) (hV : S256x1024.Slices ![0, 64 * h.val] S256x64)
  (hq : S1x1024.Slices ![0, 64 * h.val] S1x64)
  (mOld lOld : FVec Ideal S1x1 .f32) (accOld : FVec Ideal S1x64 .f32)

/-- The scaled scores of tile j's positions in head h. -/
theorem scores_real (j : Fin 8) (hKr : ∀ r c, K (ix2 r c) = ((kv P bb (pos j r) c : ℝ) : EReal)) (hqr : ∀ c, q (ix2 (0 : Fin 1) c) = ((qv P bb c : ℝ) : EReal)) (r : Fin 256) :
    (HeadStep.scores (F := Ideal) (64 * h.val) K q hK hq) (ix2 r (0 : Fin 1)) = ((Attn.score P bb h (pos j r) : ℝ) : EReal) := by
  rw [scores_apply _ (head_le h)]
  exact StepReal.score_coe P bb h j (head_le h) _ _ hKr hqr r

/-- The head's column d of the tile's value rows. -/
theorem values_real (j : Fin 8) (hVr : ∀ r c, V (ix2 r c) = ((vv P bb (pos j r) c : ℝ) : EReal)) (d : Fin 64) (r : Fin 256) :
    V (ix2 r (StepForm.at64 (64 * h.val) (head_le h) d)) = ((vv P bb (pos j r) (col h d) : ℝ) : EReal) :=
  hVr r _

/-! ### A later tile -/

/-- The new maximum, before the cast. -/
theorem next_max_raw (j : Fin 8) (hj : j.val + 1 < 8) (hKr : ∀ r c, K (ix2 r c) = ((kv P bb (pos ⟨j.val + 1, hj⟩ r) c : ℝ) : EReal)) (hqr : ∀ c, q (ix2 (0 : Fin 1) c) = ((qv P bb c : ℝ) : EReal)) (hm : mOld (ix2 (0 : Fin 1) (0 : Fin 1)) = ((mAt P bb h j : ℝ) : EReal)) :
    (HeadStep.newMax (F := Ideal) (HeadStep.scores (F := Ideal) (64 * h.val) K q hK hq) mOld) (ix2 (0 : Fin 1) (0 : Fin 1)) = ((mAt P bb h ⟨j.val + 1, hj⟩ : ℝ) : EReal) := by
  rw [newMax_apply]
  exact StepReal.next_max P bb h j hj _ (scores_real P bb h K q hK hq ⟨j.val + 1, hj⟩ hKr hqr) _ hm

/-- The running maximum after a later tile. -/
theorem next_max (j : Fin 8) (hj : j.val + 1 < 8) (hKr : ∀ r c, K (ix2 r c) = ((kv P bb (pos ⟨j.val + 1, hj⟩ r) c : ℝ) : EReal)) (hqr : ∀ c, q (ix2 (0 : Fin 1) c) = ((qv P bb c : ℝ) : EReal)) (hm : mOld (ix2 (0 : Fin 1) (0 : Fin 1)) = ((mAt P bb h j : ℝ) : EReal)) :
    HeadStep.cast11 (F := Ideal) (HeadStep.newMax (F := Ideal) (HeadStep.scores (F := Ideal) (64 * h.val) K q hK hq) mOld) (ix2 (0 : Fin 1) (0 : Fin 1)) = ((mAt P bb h ⟨j.val + 1, hj⟩ : ℝ) : EReal) := by
  rw [cast11_apply]
  exact next_max_raw P bb h K q hK hq mOld j hj hKr hqr hm

/-- The running sum of weights after a later tile. -/
theorem next_sum (j : Fin 8) (hj : j.val + 1 < 8) (hKr : ∀ r c, K (ix2 r c) = ((kv P bb (pos ⟨j.val + 1, hj⟩ r) c : ℝ) : EReal)) (hqr : ∀ c, q (ix2 (0 : Fin 1) c) = ((qv P bb c : ℝ) : EReal)) (hm : mOld (ix2 (0 : Fin 1) (0 : Fin 1)) = ((mAt P bb h j : ℝ) : EReal)) (hl : lOld (ix2 (0 : Fin 1) (0 : Fin 1)) = ((lAt P bb h j : ℝ) : EReal)) :
    HeadStep.cast11 (F := Ideal) (HeadStep.newSum (F := Ideal) (HeadStep.rescale (F := Ideal) mOld (HeadStep.newMax (F := Ideal) (HeadStep.scores (F := Ideal) (64 * h.val) K q hK hq) mOld)) (HeadStep.weights (F := Ideal) (HeadStep.scores (F := Ideal) (64 * h.val) K q hK hq) (HeadStep.newMax (F := Ideal) (HeadStep.scores (F := Ideal) (64 * h.val) K q hK hq) mOld)) lOld) (ix2 (0 : Fin 1) (0 : Fin 1)) = ((lAt P bb h ⟨j.val + 1, hj⟩ : ℝ) : EReal) := by
  rw [cast11_apply, newSum_apply, rescale_apply, weights_fun]
  exact StepReal.next_sum P bb h j hj _ (scores_real P bb h K q hK hq ⟨j.val + 1, hj⟩ hKr hqr) _ _ _ hm
    (next_max_raw P bb h K q hK hq mOld j hj hKr hqr hm) hl

/-- The running weighted sum of the head's value column d after a later tile. -/
theorem next_acc (j : Fin 8) (hj : j.val + 1 < 8) (hKr : ∀ r c, K (ix2 r c) = ((kv P bb (pos ⟨j.val + 1, hj⟩ r) c : ℝ) : EReal)) (hVr : ∀ r c, V (ix2 r c) = ((vv P bb (pos ⟨j.val + 1, hj⟩ r) c : ℝ) : EReal)) (hqr : ∀ c, q (ix2 (0 : Fin 1) c) = ((qv P bb c : ℝ) : EReal)) (hm : mOld (ix2 (0 : Fin 1) (0 : Fin 1)) = ((mAt P bb h j : ℝ) : EReal)) (hacc : ∀ d, accOld (ix2 (0 : Fin 1) d) = ((aAt P bb j (Body.colOf h d) : ℝ) : EReal)) (d : Fin 64) :
    HeadStep.cast164 (F := Ideal) (HeadStep.newAcc (F := Ideal) (64 * h.val) V hV (HeadStep.rescale (F := Ideal) mOld (HeadStep.newMax (F := Ideal) (HeadStep.scores (F := Ideal) (64 * h.val) K q hK hq) mOld)) (HeadStep.weights (F := Ideal) (HeadStep.scores (F := Ideal) (64 * h.val) K q hK hq) (HeadStep.newMax (F := Ideal) (HeadStep.scores (F := Ideal) (64 * h.val) K q hK hq) mOld)) accOld) (ix2 (0 : Fin 1) d) = ((aAt P bb ⟨j.val + 1, hj⟩ (Body.colOf h d) : ℝ) : EReal) := by
  rw [cast164_apply, newAcc_apply _ (head_le h), rescale_apply, weights_fun]
  exact StepReal.next_acc P bb h (col h d) (hd_col h d) j hj _ _
    (scores_real P bb h K q hK hq ⟨j.val + 1, hj⟩ hKr hqr) (values_real P bb h V ⟨j.val + 1, hj⟩ hVr d) _ _ _ hm
    (next_max_raw P bb h K q hK hq mOld j hj hKr hqr hm) (hacc d)

/-! ### The first tile -/

/-- The new maximum of the first tile, before the cast. -/
theorem first_max_raw (hKr : ∀ r c, K (ix2 r c) = ((kv P bb (pos 0 r) c : ℝ) : EReal)) (hqr : ∀ c, q (ix2 (0 : Fin 1) c) = ((qv P bb c : ℝ) : EReal)) (hm : mOld (ix2 (0 : Fin 1) (0 : Fin 1)) = StepForm.negInf) :
    (HeadStep.newMax (F := Ideal) (HeadStep.scores (F := Ideal) (64 * h.val) K q hK hq) mOld) (ix2 (0 : Fin 1) (0 : Fin 1)) = ((mAt P bb h 0 : ℝ) : EReal) := by
  rw [newMax_apply, hm]
  exact StepReal.first_max P bb h _ (scores_real P bb h K q hK hq 0 hKr hqr)

/-- The running maximum after the first tile. -/
theorem first_max (hKr : ∀ r c, K (ix2 r c) = ((kv P bb (pos 0 r) c : ℝ) : EReal)) (hqr : ∀ c, q (ix2 (0 : Fin 1) c) = ((qv P bb c : ℝ) : EReal)) (hm : mOld (ix2 (0 : Fin 1) (0 : Fin 1)) = StepForm.negInf) :
    HeadStep.cast11 (F := Ideal) (HeadStep.newMax (F := Ideal) (HeadStep.scores (F := Ideal) (64 * h.val) K q hK hq) mOld) (ix2 (0 : Fin 1) (0 : Fin 1)) = ((mAt P bb h 0 : ℝ) : EReal) := by
  rw [cast11_apply]
  exact first_max_raw P bb h K q hK hq mOld hKr hqr hm

/-- The running sum of weights after the first tile. -/
theorem first_sum (hKr : ∀ r c, K (ix2 r c) = ((kv P bb (pos 0 r) c : ℝ) : EReal)) (hqr : ∀ c, q (ix2 (0 : Fin 1) c) = ((qv P bb c : ℝ) : EReal)) (hm : mOld (ix2 (0 : Fin 1) (0 : Fin 1)) = StepForm.negInf) (hl : lOld (ix2 (0 : Fin 1) (0 : Fin 1)) = 0) :
    HeadStep.cast11 (F := Ideal) (HeadStep.newSum (F := Ideal) (HeadStep.rescale (F := Ideal) mOld (HeadStep.newMax (F := Ideal) (HeadStep.scores (F := Ideal) (64 * h.val) K q hK hq) mOld)) (HeadStep.weights (F := Ideal) (HeadStep.scores (F := Ideal) (64 * h.val) K q hK hq) (HeadStep.newMax (F := Ideal) (HeadStep.scores (F := Ideal) (64 * h.val) K q hK hq) mOld)) lOld) (ix2 (0 : Fin 1) (0 : Fin 1)) = ((lAt P bb h 0 : ℝ) : EReal) := by
  rw [cast11_apply, newSum_apply, rescale_apply, weights_fun, hm, hl]
  exact StepReal.first_sum P bb h _ (scores_real P bb h K q hK hq 0 hKr hqr) _
    (first_max_raw P bb h K q hK hq mOld hKr hqr hm)

/-- The running weighted sum of the head's value column d after the first tile. -/
theorem first_acc (hKr : ∀ r c, K (ix2 r c) = ((kv P bb (pos 0 r) c : ℝ) : EReal)) (hVr : ∀ r c, V (ix2 r c) = ((vv P bb (pos 0 r) c : ℝ) : EReal)) (hqr : ∀ c, q (ix2 (0 : Fin 1) c) = ((qv P bb c : ℝ) : EReal)) (hm : mOld (ix2 (0 : Fin 1) (0 : Fin 1)) = StepForm.negInf) (hacc : ∀ d, accOld (ix2 (0 : Fin 1) d) = 0) (d : Fin 64) :
    HeadStep.cast164 (F := Ideal) (HeadStep.newAcc (F := Ideal) (64 * h.val) V hV (HeadStep.rescale (F := Ideal) mOld (HeadStep.newMax (F := Ideal) (HeadStep.scores (F := Ideal) (64 * h.val) K q hK hq) mOld)) (HeadStep.weights (F := Ideal) (HeadStep.scores (F := Ideal) (64 * h.val) K q hK hq) (HeadStep.newMax (F := Ideal) (HeadStep.scores (F := Ideal) (64 * h.val) K q hK hq) mOld)) accOld) (ix2 (0 : Fin 1) d) = ((aAt P bb 0 (Body.colOf h d) : ℝ) : EReal) := by
  rw [cast164_apply, newAcc_apply _ (head_le h), rescale_apply, weights_fun, hm, hacc d]
  exact StepReal.first_acc P bb h (col h d) (hd_col h d) _ _
    (scores_real P bb h K q hK hq 0 hKr hqr) (values_real P bb h V 0 hVr d) _
    (first_max_raw P bb h K q hK hq mOld hKr hqr hm)

/-! ### After the last tile -/

/-- The accumulator over the sum of weights, after the last tile, is the attended row's entry in the head's column d.
    The hypotheses are stated through the casts the carried values went through. -/
theorem final_norm (accC : FVec Ideal S1x64 .f32) (lC : FVec Ideal S1x1 .f32) (d : Fin 64)
    (hacc : HeadStep.cast164 (F := Ideal) accC (ix2 (0 : Fin 1) d) = ((aAt P bb 7 (Body.colOf h d) : ℝ) : EReal))
    (hl : HeadStep.cast11 (F := Ideal) lC (ix2 (0 : Fin 1) (0 : Fin 1)) = ((lAt P bb h 7 : ℝ) : EReal)) :
    HeadStep.cast164 (F := Ideal) (HeadStep.normalised (F := Ideal) (HeadStep.cast164 (F := Ideal) accC) (HeadStep.cast11 (F := Ideal) lC))
        (ix2 (0 : Fin 1) d) = ((ctx P bb (Body.colOf h d) : ℝ) : EReal) := by
  rw [cast164_apply, normalised_apply]
  exact StepReal.final_norm P bb (col h d) _ _ hacc (by rw [hd_col]; exact hl)

/-- The same from the entries themselves. -/
theorem final_norm_of_entries (accC : FVec Ideal S1x64 .f32) (lC : FVec Ideal S1x1 .f32) (d : Fin 64)
    (hacc : accC (ix2 (0 : Fin 1) d) = ((aAt P bb 7 (Body.colOf h d) : ℝ) : EReal))
    (hl : lC (ix2 (0 : Fin 1) (0 : Fin 1)) = ((lAt P bb h 7 : ℝ) : EReal)) :
    HeadStep.cast164 (F := Ideal) (HeadStep.normalised (F := Ideal) (HeadStep.cast164 (F := Ideal) accC) (HeadStep.cast11 (F := Ideal) lC))
        (ix2 (0 : Fin 1) d) = ((ctx P bb (Body.colOf h d) : ℝ) : EReal) :=
  final_norm P bb h accC lC d (by rw [cast164_apply]; exact hacc) (by rw [cast11_apply]; exact hl)

end Cert.KernelIdeal.HeadReal

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«176754_j53403623358619_2_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.TileApply.lean ====
/-
  The tile-level values of the kernel, read entry by entry over the extended reals.

  A tile's key rows and value rows are the tile's 256 input rows against a [1024, 1024] matrix plus a bias row:
  entry (r, o) is the sum over d of x[r, d] · W[d, o], plus b[o].  The query row is the last token's input row,
  re-shaped.  The output row is the attended row against the output matrix plus its bias, re-shaped.  A narrowing of
  format is the identity here, a same-shape cast is the identity, and a product into a zero accumulator is the plain sum.
-/
import proofs.«176754_j53403623358619_2_alg».proof.Proof.Gen.KernelIdeal.Skeleton
import proofs.«176754_j53403623358619_2_alg».proof.Proof.StepForm
import proofs.«176754_j53403623358619_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileApply

open Idealize.ShloMosaic Idealize.SL.Sem Cert.KernelIdeal Cert.KernelIdeal.Gen Idealize.ShloMosaic.ValueIdx

/-- The tile's input rows, re-shaped and narrowed: entry (r, d) is the input's entry (0, r, d). -/
theorem rows_apply (x0 : Vec Ideal S1x256x1024 .f32) (r : Fin 256) (d : Fin 1024) :
    k0_pay26 (F := Ideal) x0 (ix2 r d) = x0 (ix3 (0 : Fin 1) r d) := by
  unfold k0_pay26
  rw [truncf_apply, shapeCast_1ab_ab_apply]

/-- The tile's key rows: entry (r, o) is the input row r against column o of the matrix, plus the bias at o. -/
theorem keys_apply (x0 : Vec Ideal S1x256x1024 .f32) (x1 : Vec Ideal S1024x1024 .bf16) (x2 : Vec Ideal S1024 .f32)
    (r : Fin 256) (o : Fin 1024) :
    k0_pay27 (F := Ideal) x0 x1 x2 (ix2 r o)
      = StepForm.affine (fun d => x0 (ix3 (0 : Fin 1) r d)) (fun d o => x1 (ix2 d o)) (fun o => x2 (ix1 o)) o := by
  unfold k0_pay27 StepForm.affine
  dsimp only
  rw [addf_apply]
  refine congrArg₂ (· + ·) ?_ ?_
  · refine (Cert.LibPlainDot.matmul_zero_apply dot_S256x1024_S1024x1024_S256x1024_1_0_0_1_n_n rfl none _ _ r o).trans ?_
    refine Finset.sum_congr rfl fun q _ => ?_
    rw [rows_apply, shapeCast_self]
  · rw [broadcastTo_1b_ab_apply, shapeCast_a_1a_apply]

/-- The tile's value rows: the same form with the value matrix and bias. -/
theorem values_apply (x0 : Vec Ideal S1x256x1024 .f32) (x3 : Vec Ideal S1024x1024 .bf16) (x4 : Vec Ideal S1024 .f32)
    (r : Fin 256) (o : Fin 1024) :
    k0_pay28 (F := Ideal) x0 x3 x4 (ix2 r o)
      = StepForm.affine (fun d => x0 (ix3 (0 : Fin 1) r d)) (fun d o => x3 (ix2 d o)) (fun o => x4 (ix1 o)) o := by
  unfold k0_pay28 StepForm.affine
  dsimp only
  rw [addf_apply]
  refine congrArg₂ (· + ·) ?_ ?_
  · refine (Cert.LibPlainDot.matmul_zero_apply dot_S256x1024_S1024x1024_S256x1024_1_0_0_1_n_n rfl none _ _ r o).trans ?_
    refine Finset.sum_congr rfl fun q _ => ?_
    rw [rows_apply, shapeCast_self]
  · rw [broadcastTo_1b_ab_apply, shapeCast_a_1a_apply]

/-- The query row: the [1, 1, 1024] block re-shaped to [1, 1024]. -/
theorem query_apply (x5 : Vec Ideal S1x1x1024 .f32) (o : Fin 1024) :
    k0_pay29 (F := Ideal) x5 (ix2 (0 : Fin 1) o) = x5 (ix3 (0 : Fin 1) (0 : Fin 1) o) := by
  unfold k0_pay29
  rw [shapeCast_1ab_ab_apply]

/-- The output row: the attended row against column p of the output matrix, plus the bias at p, re-shaped. -/
theorem output_apply (acc : Vec Ideal S1x1024 .f32) (x6 : Vec Ideal S1024x1024 .bf16) (x7 : Vec Ideal S1024 .f32)
    (p : Fin 1024) :
    k0_pay3 (F := Ideal) (k0_pay22 acc x6 x7) (ix3 (0 : Fin 1) (0 : Fin 1) p)
      = StepForm.affine (fun o => acc (ix2 (0 : Fin 1) o)) (fun o p => x6 (ix2 o p)) (fun p => x7 (ix1 p)) p := by
  unfold k0_pay3 k0_pay22 StepForm.affine
  dsimp only
  rw [shapeCast_ab_1ab_apply, addf_apply]
  refine congrArg₂ (· + ·) ?_ ?_
  · refine (Cert.LibPlainDot.matmul_zero_apply dot_S1x1024_S1024x1024_S1x1024_1_0_0_1_n_n rfl none _ _ (0 : Fin 1) p).trans ?_
    refine Finset.sum_congr rfl fun q _ => ?_
    rw [truncf_apply, shapeCast_self]
  · rw [shapeCast_a_1a_apply]

end Cert.KernelIdeal.TileApply

end
-- ==== Proof.BodyMidReal.lean ====
/-
  A tile's effect on the three scratch rows in terms of the real input arrays.

  At a grid point the body finds a tile of x, the transposed key and value weights with their biases, and the query row.
  The key and value rows of the tile's positions are then the real rows k_s, v_s, the query row the real q, and each
  head's step turns the running maximum, sum and weighted sum over the tiles before into those over the tiles up to this
  one (for the first tile: from minus infinity, zero and zero).
-/
import proofs.«176754_j53403623358619_2_alg».proof.Proof.BodyMid
import proofs.«176754_j53403623358619_2_alg».proof.Proof.BodyCells
import proofs.«176754_j53403623358619_2_alg».proof.Proof.HeadReal
import proofs.«176754_j53403623358619_2_alg».proof.Proof.TileApply

set_option maxRecDepth 16384

noncomputable section

namespace Cert.KernelIdeal.Body

open Idealize.ShloMosaic Idealize.ShloMosaic.TcCoe Idealize.SL Idealize.SL.Sem
open Idealize.ShloMosaic.ValueIdx Cert.KernelIdeal Cert.KernelIdeal.Gen Cert.KernelIdeal.HeadStep
open Cert.Attn Cert.KernelIdeal.TileApply

/-- The tile's key rows are the real key rows of its positions. -/
theorem keys_real (P : Params) (bb : Fin 4) (s : Fin 2048) (x0 : Vec Ideal S1x256x1024 .f32)
    (x1 : Vec Ideal S1024x1024 .bf16) (x2 : Vec Ideal S1024 .f32) (r : Fin 256)
    (hx0 : ∀ d : Fin 1024, x0 (ix3 (0 : Fin 1) r d) = ((P.x bb s d : ℝ) : EReal))
    (hx1 : ∀ d o : Fin 1024, x1 (ix2 d o) = ((P.Wk o d : ℝ) : EReal))
    (hx2 : ∀ o : Fin 1024, x2 (ix1 o) = ((P.bk o : ℝ) : EReal)) (c : Fin 1024) :
    k0_pay27 (F := Ideal) x0 x1 x2 (ix2 r c) = ((kv P bb s c : ℝ) : EReal) :=
  (keys_apply x0 x1 x2 r c).trans (Cert.StepReal.affine_eq P.Wk P.bk (P.x bb s) _ _ _ hx0 hx1 hx2 c)

/-- The tile's value rows are the real value rows of its positions. -/
theorem values_real (P : Params) (bb : Fin 4) (s : Fin 2048) (x0 : Vec Ideal S1x256x1024 .f32)
    (x3 : Vec Ideal S1024x1024 .bf16) (x4 : Vec Ideal S1024 .f32) (r : Fin 256)
    (hx0 : ∀ d : Fin 1024, x0 (ix3 (0 : Fin 1) r d) = ((P.x bb s d : ℝ) : EReal))
    (hx3 : ∀ d o : Fin 1024, x3 (ix2 d o) = ((P.Wv o d : ℝ) : EReal))
    (hx4 : ∀ o : Fin 1024, x4 (ix1 o) = ((P.bv o : ℝ) : EReal)) (c : Fin 1024) :
    k0_pay28 (F := Ideal) x0 x3 x4 (ix2 r c) = ((vv P bb s c : ℝ) : EReal) :=
  (values_apply x0 x3 x4 r c).trans (Cert.StepReal.affine_eq P.Wv P.bv (P.x bb s) _ _ _ hx0 hx3 hx4 c)

/-- After a middle tile the three scratch rows hold the running quantities over the tiles up to it. -/
theorem mid_real (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : ¬cond0_0 i) (hc1 : ¬cond0_1 i)
    (x0 : Vec Ideal S1x256x1024 .f32) (x1 : Vec Ideal S1024x1024 .bf16) (x2 : Vec Ideal S1024 .f32) (x3 : Vec Ideal S1024x1024 .bf16) (x4 : Vec Ideal S1024 .f32) (x5 : Vec Ideal S1x1x1024 .f32) (x6 : Vec Ideal S1024x1024 .bf16) (x7 : Vec Ideal S1024 .f32) (xs0 : Vec Ideal S1x16 .f32) (xs1 : Vec Ideal S1x16 .f32) (xs2 : Vec Ideal S1x1024 .f32)
    (P : Params) (bb : Fin 4) (j j' : Fin 8) (hjj : j'.val = j.val + 1)
    (hx0 : ∀ (r : Fin 256) (d : Fin 1024), x0 (ix3 (0 : Fin 1) r d) = ((P.x bb (pos j' r) d : ℝ) : EReal))
    (hx1 : ∀ d o : Fin 1024, x1 (ix2 d o) = ((P.Wk o d : ℝ) : EReal)) (hx2 : ∀ o : Fin 1024, x2 (ix1 o) = ((P.bk o : ℝ) : EReal))
    (hx3 : ∀ d o : Fin 1024, x3 (ix2 d o) = ((P.Wv o d : ℝ) : EReal)) (hx4 : ∀ o : Fin 1024, x4 (ix1 o) = ((P.bv o : ℝ) : EReal))
    (hx5 : ∀ o : Fin 1024, x5 (ix3 (0 : Fin 1) (0 : Fin 1) o) = ((qv P bb o : ℝ) : EReal))
    (hm : ∀ h : Fin 16, xs0 (ix2 (0 : Fin 1) h) = ((mAt P bb h j : ℝ) : EReal))
    (hl : ∀ h : Fin 16, xs1 (ix2 (0 : Fin 1) h) = ((lAt P bb h j : ℝ) : EReal))
    (ha : ∀ (h : Fin 16) (d : Fin 64), xs2 (ix2 (0 : Fin 1) (colOf h d)) = ((aAt P bb j (colOf h d) : ℝ) : EReal)) :
    (∀ h : Fin 16, sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 (ix2 (0 : Fin 1) h)
        = ((mAt P bb h j' : ℝ) : EReal))
    ∧ (∀ h : Fin 16, sout0_B_1 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 (ix2 (0 : Fin 1) h)
        = ((lAt P bb h j' : ℝ) : EReal))
    ∧ (∀ (h : Fin 16) (d : Fin 64), sout0_B_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 (ix2 (0 : Fin 1) (colOf h d))
        = ((aAt P bb j' (colOf h d) : ℝ) : EReal)) := by
  have hj : j.val + 1 < 8 := by have := j'.isLt; omega
  obtain rfl : j' = ⟨j.val + 1, hj⟩ := Fin.ext hjj
  have hK : ∀ r c, k0_pay27 (F := Ideal) x0 x1 x2 (ix2 r c) = ((kv P bb (pos ⟨j.val + 1, hj⟩ r) c : ℝ) : EReal) :=
    fun r c => keys_real P bb _ x0 x1 x2 r (hx0 r) hx1 hx2 c
  have hV : ∀ r c, k0_pay28 (F := Ideal) x0 x3 x4 (ix2 r c) = ((vv P bb (pos ⟨j.val + 1, hj⟩ r) c : ℝ) : EReal) :=
    fun r c => values_real P bb _ x0 x3 x4 r (hx0 r) hx3 hx4 c
  have hq : ∀ c, k0_pay29 (F := Ideal) x5 (ix2 (0 : Fin 1) c) = ((qv P bb c : ℝ) : EReal) :=
    fun c => (query_apply x5 c).trans (hx5 c)
  refine ⟨fun h => ?_, fun h => ?_, fun h d => ?_⟩
  · rw [mid_max]
    exact Cert.KernelIdeal.HeadReal.next_max (P := P) (bb := bb) (h := h) (hK := _) (hq := _) (j := j) (hj := hj) (hKr := hK) (hqr := hq)
      (hm := (ld_cell11 xs0 h.val h.isLt _).trans (hm h))
  · rw [mid_sum]
    exact Cert.KernelIdeal.HeadReal.next_sum (P := P) (bb := bb) (h := h) (hK := _) (hq := _) (j := j) (hj := hj) (hKr := hK) (hqr := hq)
      (hm := (ld_cell11 xs0 h.val h.isLt _).trans (hm h)) (hl := (ld_cell11 xs1 h.val h.isLt _).trans (hl h))
  · rw [mid_acc]
    exact Cert.KernelIdeal.HeadReal.next_acc (P := P) (bb := bb) (h := h) (hK := _) (hV := _) (hq := _) (j := j) (hj := hj) (hKr := hK) (hVr := hV) (hqr := hq)
      (hm := (ld_cell11 xs0 h.val h.isLt _).trans (hm h))
      (hacc := fun d => (ld_cell164 xs2 (64 * h.val) (by have := h.isLt; omega) _ d).trans (ha h d)) (d := d)

end Cert.KernelIdeal.Body

end
-- ==== Proof.LibCovReads.lean ====
/-
  Loads that go through pieces already written: for unit-stride rectangles of any shape and element type, a covered load
  (what a load of a box reads after a list of writes over it) looks past a newest piece whose rectangle is disjoint from
  the load's along some axis, reads the newest piece's value when that piece is the load's own rectangle, and under a
  newest piece that fills the whole buffer reads that piece's value through the load's rectangle.
-/
import proofs.«176754_j53403623358619_2_alg».proof.Proof.LibUnitReads

noncomputable section

namespace Idealize.ShloMosaic.LibCovReads

open Idealize.ShloMosaic Idealize.ShloMosaic.LibUnitReads View

variable {sig : RefSig} {κ : Kind} {sp : Space} {S : Shape} {e : EltTy} {Val : EltTy → Type} [∀ e, Nonempty (Val e)]
/-- A covered load looks past a newest piece whose rectangle is disjoint from the load's along axis `a`. -/
theorem readCov_cons_miss (v : View sig κ sp S e) {off off'' size size'' : Fin S.rank → ℕ}
    (inb : ∀ a, off a + size a ≤ S.size a) (inb'' : ∀ a, off'' a + size'' a ≤ S.size a)
    (w : (Rect.unit off size inb).shape.Idx → Val e) (L : List (Piece Val S e)) (a : Fin S.rank)
    (ha : off'' a + size'' a ≤ off a ∨ off a + size a ≤ off'' a) :
    v.readCov ((⟨Rect.unit off size inb, w⟩ : Piece Val S e) :: L) (Rect.unit off'' size'' inb'').toLoadRect
      = v.readCov L (Rect.unit off'' size'' inb'').toLoadRect :=
  readAt_unit_cons_miss v v.junk inb inb'' w L rfl a ha

/-- A covered load of the newest piece's own rectangle reads that piece's value. -/
theorem readCov_cons_hit (v : View sig κ sp S e) {off size : Fin S.rank → ℕ}
    (inb inb' : ∀ a, off a + size a ≤ S.size a)
    (w : (Rect.unit off size inb).shape.Idx → Val e) (L : List (Piece Val S e)) :
    v.readCov ((⟨Rect.unit off size inb, w⟩ : Piece Val S e) :: L) (Rect.unit off size inb').toLoadRect = w :=
  readAt_unit_cons_hit v v.junk inb inb' w L rfl

/-- Under a newest piece that fills the whole buffer, a covered load reads that piece's value through its rectangle. -/
theorem readCov_cons_whole (v : View sig κ sp S e) {off : Fin S.rank → ℕ} (hz : off = fun _ => 0)
    (inb : ∀ a, off a + S.size a ≤ S.size a) (w : S.Idx → Val e) (L : List (Piece Val S e)) (r : Rect S) :
    v.readCov ((⟨Rect.unit off S.size inb, w⟩ : Piece Val S e) :: L) r.toLoadRect = View.ld w r := by
  unfold View.readCov
  rw [View.readAt_eq_ld, read_writes_cons_whole v v.junk hz inb w L]

end Idealize.ShloMosaic.LibCovReads

end
-- ==== Proof.BodyFirst.lean ====
/-
  The first tile of a batch row: what the three scratch rows hold afterwards, head by head.

  The tile starts by filling the rows (minus infinity for the running maximum, zero for the running sum and for the
  accumulator) and then makes the sixteen heads' steps, each storing its piece on top.  A head's load of its old cell goes
  through the pieces the earlier heads stored in the same tile: it meets none of them and reads the fill.  So an index of
  head `h` holds the head's step of the running softmax started from the fills.
-/
import proofs.«176754_j53403623358619_2_alg».proof.Proof.LibCovReads
import proofs.«176754_j53403623358619_2_alg».proof.Proof.BodyMid

set_option maxRecDepth 16384

noncomputable section

namespace Cert.KernelIdeal.Body

open Idealize.ShloMosaic Idealize.ShloMosaic.TcCoe Idealize.ShloMosaic.Tactic Idealize.SL Idealize.SL.Sem
open Idealize.ShloMosaic.ValueIdx Idealize.ShloMosaic.LibUnitReads Idealize.ShloMosaic.LibCovReads Cert.KernelIdeal Cert.KernelIdeal.Gen Cert.KernelIdeal.HeadStep

variable {F : FTy → Type} [FloatOps F]

/-! ## Reading the rows one level at a time

What a scratch row holds after head `k` is head `k`'s piece laid over what it held after head `k - 1`, and a piece's
value is computed from loads of the rows as the earlier heads left them; each of these lists and values is a definition
over the earlier ones.  For an index of head `h` only head `h`'s piece matters: the later heads' pieces do not cover it,
and the loads in its value pass under every earlier head's piece down to the fill.  So the definitions are opened one
level at a time, and a piece that is not met is dropped before its value is opened (opening all levels at once would
repeat every earlier head's value inside every later one). -/

open Lean Elab Tactic Meta in
/-- Open, once, every named intermediate (a constant whose name has the component `sl` before its last) that occurs in
    the goal; the intermediates inside an opened body stay closed.  Fails when the goal has none. -/
elab "unfold_words_once" : tactic => do
  let g ← getMainGoal
  let isRunName (n : Name) : Bool := n.components.dropLast.any (· == `sl)
  let t ← instantiateMVars (← g.getType)
  let t' ← Core.transform t (pre := fun e => do
    match (← Meta.delta? e isRunName) with
    | some e' => return .done e'
    | none => return .continue)
  if t' == t then throwError "unfold_words_once: no named intermediate in the goal"
  replaceMainGoal [← g.replaceTargetDefEq t']

/-! ## The three scratch rows after the first tile -/

set_option maxHeartbeats 16000000 in
/-- The running maximum of head `h` after the first tile. -/
theorem first_max (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : cond0_0 i) (hc1 : ¬cond0_1 i)
    (x0 : Vec F S1x256x1024 .f32) (x1 : Vec F S1024x1024 .bf16) (x2 : Vec F S1024 .f32) (x3 : Vec F S1024x1024 .bf16) (x4 : Vec F S1024 .f32) (x5 : Vec F S1x1x1024 .f32) (x6 : Vec F S1024x1024 .bf16) (x7 : Vec F S1024 .f32) (h : Fin 16) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 0 h)
      = cast11 (newMax (scores (64 * h.val) (k0_pay27 x0 x1 x2) (k0_pay29 x5) (slK _ (by have := h.isLt; omega)) (slq _ (by have := h.isLt; omega))) (View.ld (Val := Elt F) (e' := .f32) (k0_pay23 (F := F)) (Rect.unit ![0, h.val] S1x1.size (inb11 _ h.isLt)))) (ix2 0 0) := by
  unfold sout0_A_0 kernelRun0_A
  dsimp only
  fin_cases h <;>
  · repeat (first
      | rw [View.read_writes_cons_unit_of_not_mem _ _ _ _ _ _ rfl 1 (Or.inl (by decide))]
      | (unfold_words_once; rw [View.read_writes_cons_unit_of_not_mem _ _ _ _ _ _ rfl 1 (Or.inl (by decide))]))
    first
      | rw [View.read_writes_cons_unit_of_mem _ _ _ _ _ _ (ix2 0 0) rfl (by decide)]
      | (unfold_words_once; rw [View.read_writes_cons_unit_of_mem _ _ _ _ _ _ (ix2 0 0) rfl (by decide)])
    repeat (first
      | rw [readCov_cons_miss _ _ _ _ _ 1 (Or.inr (by decide))]
      | rw [readCov_cons_whole _ (by funext a; fin_cases a <;> rfl)]
      | unfold_words_once)
    rw [load_whole arg2 harg2 x0 (by funext a; fin_cases a <;> rfl), load_whole arg3 harg3 x1 (by funext a; fin_cases a <;> rfl),
      load_whole arg4 harg4 x2 (by funext a; fin_cases a <;> rfl), load_whole arg7 harg7 x5 (by funext a; fin_cases a <;> rfl)]
    rfl

set_option maxHeartbeats 16000000 in
/-- The running sum of weights of head `h` after the first tile. -/
theorem first_sum (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : cond0_0 i) (hc1 : ¬cond0_1 i)
    (x0 : Vec F S1x256x1024 .f32) (x1 : Vec F S1024x1024 .bf16) (x2 : Vec F S1024 .f32) (x3 : Vec F S1024x1024 .bf16) (x4 : Vec F S1024 .f32) (x5 : Vec F S1x1x1024 .f32) (x6 : Vec F S1024x1024 .bf16) (x7 : Vec F S1024 .f32) (h : Fin 16) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 0 h)
      = cast11 (newSum (rescale (View.ld (Val := Elt F) (e' := .f32) (k0_pay23 (F := F)) (Rect.unit ![0, h.val] S1x1.size (inb11 _ h.isLt))) (newMax (scores (64 * h.val) (k0_pay27 x0 x1 x2) (k0_pay29 x5) (slK _ (by have := h.isLt; omega)) (slq _ (by have := h.isLt; omega))) (View.ld (Val := Elt F) (e' := .f32) (k0_pay23 (F := F)) (Rect.unit ![0, h.val] S1x1.size (inb11 _ h.isLt))))) (weights (scores (64 * h.val) (k0_pay27 x0 x1 x2) (k0_pay29 x5) (slK _ (by have := h.isLt; omega)) (slq _ (by have := h.isLt; omega))) (newMax (scores (64 * h.val) (k0_pay27 x0 x1 x2) (k0_pay29 x5) (slK _ (by have := h.isLt; omega)) (slq _ (by have := h.isLt; omega))) (View.ld (Val := Elt F) (e' := .f32) (k0_pay23 (F := F)) (Rect.unit ![0, h.val] S1x1.size (inb11 _ h.isLt))))) (View.ld (Val := Elt F) (e' := .f32) (k0_pay24 (F := F)) (Rect.unit ![0, h.val] S1x1.size (inb11 _ h.isLt)))) (ix2 0 0) := by
  unfold sout0_A_1 kernelRun0_A
  dsimp only
  fin_cases h <;>
  · repeat (first
      | rw [View.read_writes_cons_unit_of_not_mem _ _ _ _ _ _ rfl 1 (Or.inl (by decide))]
      | (unfold_words_once; rw [View.read_writes_cons_unit_of_not_mem _ _ _ _ _ _ rfl 1 (Or.inl (by decide))]))
    first
      | rw [View.read_writes_cons_unit_of_mem _ _ _ _ _ _ (ix2 0 0) rfl (by decide)]
      | (unfold_words_once; rw [View.read_writes_cons_unit_of_mem _ _ _ _ _ _ (ix2 0 0) rfl (by decide)])
    repeat (first
      | rw [readCov_cons_miss _ _ _ _ _ 1 (Or.inr (by decide))]
      | rw [readCov_cons_whole _ (by funext a; fin_cases a <;> rfl)]
      | unfold_words_once)
    rw [load_whole arg2 harg2 x0 (by funext a; fin_cases a <;> rfl), load_whole arg3 harg3 x1 (by funext a; fin_cases a <;> rfl),
      load_whole arg4 harg4 x2 (by funext a; fin_cases a <;> rfl), load_whole arg7 harg7 x5 (by funext a; fin_cases a <;> rfl)]
    rfl

set_option maxHeartbeats 16000000 in
/-- The running weighted sum of values of head `h`, lane `d`, after the first tile. -/
theorem first_acc (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : cond0_0 i) (hc1 : ¬cond0_1 i)
    (x0 : Vec F S1x256x1024 .f32) (x1 : Vec F S1024x1024 .bf16) (x2 : Vec F S1024 .f32) (x3 : Vec F S1024x1024 .bf16) (x4 : Vec F S1024 .f32) (x5 : Vec F S1x1x1024 .f32) (x6 : Vec F S1024x1024 .bf16) (x7 : Vec F S1024 .f32) (h : Fin 16) (d : Fin 64) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 0 (colOf h d))
      = cast164 (newAcc (64 * h.val) (k0_pay28 x0 x3 x4) (slK _ (by have := h.isLt; omega)) (rescale (View.ld (Val := Elt F) (e' := .f32) (k0_pay23 (F := F)) (Rect.unit ![0, h.val] S1x1.size (inb11 _ h.isLt))) (newMax (scores (64 * h.val) (k0_pay27 x0 x1 x2) (k0_pay29 x5) (slK _ (by have := h.isLt; omega)) (slq _ (by have := h.isLt; omega))) (View.ld (Val := Elt F) (e' := .f32) (k0_pay23 (F := F)) (Rect.unit ![0, h.val] S1x1.size (inb11 _ h.isLt))))) (weights (scores (64 * h.val) (k0_pay27 x0 x1 x2) (k0_pay29 x5) (slK _ (by have := h.isLt; omega)) (slq _ (by have := h.isLt; omega))) (newMax (scores (64 * h.val) (k0_pay27 x0 x1 x2) (k0_pay29 x5) (slK _ (by have := h.isLt; omega)) (slq _ (by have := h.isLt; omega))) (View.ld (Val := Elt F) (e' := .f32) (k0_pay23 (F := F)) (Rect.unit ![0, h.val] S1x1.size (inb11 _ h.isLt))))) (View.ld (Val := Elt F) (e' := .f32) (k0_pay25 (F := F)) (Rect.unit ![0, 64 * h.val] S1x64.size (inb164 _ (by have := h.isLt; omega))))) (ix2 0 d) := by
  unfold sout0_A_2 kernelRun0_A
  dsimp only
  have hd := d.isLt
  fin_cases h <;>
  · repeat (first
      | rw [View.read_writes_cons_unit_of_not_mem _ _ _ _ _ _ rfl 1 (Or.inl (col_lt _ d _ (by decide)))]
      | (unfold_words_once; rw [View.read_writes_cons_unit_of_not_mem _ _ _ _ _ _ rfl 1 (Or.inl (col_lt _ d _ (by decide)))]))
    first
      | rw [View.read_writes_cons_unit_of_mem _ _ _ _ _ _ (ix2 0 d) rfl (col_hit _ d _ (by decide))]
      | (unfold_words_once; rw [View.read_writes_cons_unit_of_mem _ _ _ _ _ _ (ix2 0 d) rfl (col_hit _ d _ (by decide))])
    repeat (first
      | rw [readCov_cons_miss _ _ _ _ _ 1 (Or.inr (by decide))]
      | rw [readCov_cons_whole _ (by funext a; fin_cases a <;> rfl)]
      | unfold_words_once)
    rw [load_whole arg2 harg2 x0 (by funext a; fin_cases a <;> rfl), load_whole arg3 harg3 x1 (by funext a; fin_cases a <;> rfl),
      load_whole arg4 harg4 x2 (by funext a; fin_cases a <;> rfl), load_whole arg5 harg5 x3 (by funext a; fin_cases a <;> rfl),
      load_whole arg6 harg6 x4 (by funext a; fin_cases a <;> rfl), load_whole arg7 harg7 x5 (by funext a; fin_cases a <;> rfl)]
    rfl

end Cert.KernelIdeal.Body

end
-- ==== Proof.BodyFirstReal.lean ====
/-
  The first tile of a batch row in terms of the real input arrays: the scratch rows start from minus infinity, zero
  and zero, and after the tile hold the running quantities over that tile alone.
-/
import proofs.«176754_j53403623358619_2_alg».proof.Proof.BodyFirst
import proofs.«176754_j53403623358619_2_alg».proof.Proof.BodyMidReal

set_option maxRecDepth 16384

noncomputable section

namespace Cert.KernelIdeal.Body

open Idealize.ShloMosaic Idealize.ShloMosaic.TcCoe Idealize.SL Idealize.SL.Sem
open Idealize.ShloMosaic.ValueIdx Cert.KernelIdeal Cert.KernelIdeal.Gen Cert.KernelIdeal.HeadStep
open Cert.Attn Cert.KernelIdeal.TileApply

/-- The fills the first tile starts from, read at a cell: minus infinity and zero. -/
theorem fill_max (y : S1x16.Idx) : k0_pay23 (F := Ideal) y = Cert.StepForm.negInf := rfl
theorem fill_sum (y : S1x16.Idx) : k0_pay24 (F := Ideal) y = 0 := by
  show Ideal.ofBits .f32 0x00000000#32 = 0
  exact Ideal.ofBits_zero_f32
theorem fill_acc (y : S1x1024.Idx) : k0_pay25 (F := Ideal) y = 0 := by
  show Ideal.ofBits .f32 0x00000000#32 = 0
  exact Ideal.ofBits_zero_f32

/-- After the first tile of a batch row the three scratch rows hold the running quantities over that tile. -/
theorem first_real (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : cond0_0 i) (hc1 : ¬cond0_1 i)
    (x0 : Vec Ideal S1x256x1024 .f32) (x1 : Vec Ideal S1024x1024 .bf16) (x2 : Vec Ideal S1024 .f32) (x3 : Vec Ideal S1024x1024 .bf16) (x4 : Vec Ideal S1024 .f32) (x5 : Vec Ideal S1x1x1024 .f32) (x6 : Vec Ideal S1024x1024 .bf16) (x7 : Vec Ideal S1024 .f32)
    (P : Params) (bb : Fin 4) (j' : Fin 8) (hj0 : j'.val = 0)
    (hx0 : ∀ (r : Fin 256) (d : Fin 1024), x0 (ix3 (0 : Fin 1) r d) = ((P.x bb (pos j' r) d : ℝ) : EReal))
    (hx1 : ∀ d o : Fin 1024, x1 (ix2 d o) = ((P.Wk o d : ℝ) : EReal)) (hx2 : ∀ o : Fin 1024, x2 (ix1 o) = ((P.bk o : ℝ) : EReal))
    (hx3 : ∀ d o : Fin 1024, x3 (ix2 d o) = ((P.Wv o d : ℝ) : EReal)) (hx4 : ∀ o : Fin 1024, x4 (ix1 o) = ((P.bv o : ℝ) : EReal))
    (hx5 : ∀ o : Fin 1024, x5 (ix3 (0 : Fin 1) (0 : Fin 1) o) = ((qv P bb o : ℝ) : EReal)) :
    (∀ h : Fin 16, sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 (0 : Fin 1) h)
        = ((mAt P bb h j' : ℝ) : EReal))
    ∧ (∀ h : Fin 16, sout0_A_1 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 (0 : Fin 1) h)
        = ((lAt P bb h j' : ℝ) : EReal))
    ∧ (∀ (h : Fin 16) (d : Fin 64), sout0_A_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 (0 : Fin 1) (colOf h d))
        = ((aAt P bb j' (colOf h d) : ℝ) : EReal)) := by
  obtain rfl : j' = 0 := Fin.ext hj0
  have hK : ∀ r c, k0_pay27 (F := Ideal) x0 x1 x2 (ix2 r c) = ((kv P bb (pos 0 r) c : ℝ) : EReal) :=
    fun r c => keys_real P bb _ x0 x1 x2 r (hx0 r) hx1 hx2 c
  have hV : ∀ r c, k0_pay28 (F := Ideal) x0 x3 x4 (ix2 r c) = ((vv P bb (pos 0 r) c : ℝ) : EReal) :=
    fun r c => values_real P bb _ x0 x3 x4 r (hx0 r) hx3 hx4 c
  have hq : ∀ c, k0_pay29 (F := Ideal) x5 (ix2 (0 : Fin 1) c) = ((qv P bb c : ℝ) : EReal) :=
    fun c => (query_apply x5 c).trans (hx5 c)
  refine ⟨fun h => ?_, fun h => ?_, fun h d => ?_⟩
  · rw [first_max]
    exact Cert.KernelIdeal.HeadReal.first_max (P := P) (bb := bb) (h := h) (hK := _) (hq := _) (hKr := hK) (hqr := hq)
      (hm := (ld_cell11 (Val := Elt Ideal) (e := .f32) (k0_pay23 (F := Ideal)) h.val h.isLt _).trans (fill_max _))
  · rw [first_sum]
    exact Cert.KernelIdeal.HeadReal.first_sum (P := P) (bb := bb) (h := h) (hK := _) (hq := _) (hKr := hK) (hqr := hq)
      (hm := (ld_cell11 (Val := Elt Ideal) (e := .f32) (k0_pay23 (F := Ideal)) h.val h.isLt _).trans (fill_max _))
      (hl := (ld_cell11 (Val := Elt Ideal) (e := .f32) (k0_pay24 (F := Ideal)) h.val h.isLt _).trans (fill_sum _))
  · rw [first_acc]
    exact Cert.KernelIdeal.HeadReal.first_acc (P := P) (bb := bb) (h := h) (hK := _) (hV := _) (hq := _) (hKr := hK) (hVr := hV) (hqr := hq)
      (hm := (ld_cell11 (Val := Elt Ideal) (e := .f32) (k0_pay23 (F := Ideal)) h.val h.isLt _).trans (fill_max _))
      (hacc := fun d => (ld_cell164 (Val := Elt Ideal) (e := .f32) (k0_pay25 (F := Ideal)) (64 * h.val) (by have := h.isLt; omega) _ d).trans (fill_acc _)) (d := d)

end Cert.KernelIdeal.Body

end
-- ==== Proof.BodyLast.lean ====
/-
  The last tile: what the three scratch rows and the output block hold afterwards.

  The running maxima and sums of the sixteen heads are updated exactly as in a middle tile. The accumulator row is
  written twice: first each head's 64 cells receive the head's step of the running softmax, then, head by head, the 64
  cells just written are read back, divided by the head's sum of weights just written, and stored over the same cells.
  A cell of head h therefore lies under none of the later heads' normalised pieces and under head h's own; that piece
  reads head h's accumulator cells through the normalised pieces of the earlier heads and the accumulator pieces of the
  later heads, none of which meets them, and reads the head's sum cell through the later heads' sum pieces. The output
  block is one piece: the whole accumulator row, read back through all thirty-two pieces, against the output weights
  plus the bias; a read of the whole row through the pieces does not depend on the view it is read through.
-/
import proofs.«176754_j53403623358619_2_alg».proof.Proof.BodyLoads
import proofs.«176754_j53403623358619_2_alg».proof.Proof.LibCovReads
import proofs.«176754_j53403623358619_2_alg».proof.Proof.BodyMid

set_option maxRecDepth 16384

noncomputable section

namespace Cert.KernelIdeal.Body

open Idealize.ShloMosaic Idealize.ShloMosaic.TcCoe Idealize.ShloMosaic.Tactic Idealize.SL Idealize.SL.Sem
open Idealize.ShloMosaic.ValueIdx Idealize.ShloMosaic.LibUnitReads Idealize.ShloMosaic.LibCovReads Cert.KernelIdeal Cert.KernelIdeal.Gen Cert.KernelIdeal.HeadStep

variable {F : FTy → Type} [FloatOps F]

open Lean Elab Tactic Meta in
/-- Unfold, in the goal, the named intermediate values of the kernel's evaluation (constants `….sl.<name>`) whose last
    name component begins with the given string; values named inside the unfolded bodies under another prefix stay
    folded. -/
elab "sl_open " s:str : tactic => do
  let g ← getMainGoal
  let pre := s.getString
  let isW (n : Name) : Bool :=
    n.components.any (· == `sl) && (match n with | .str _ last => pre.isPrefixOf last | _ => false)
  let t ← instantiateMVars (← g.getType)
  let t' ← Meta.deltaExpand t isW
  replaceMainGoal [← g.replaceTargetDefEq t']

/-- A covered load of the whole buffer reads what the same writes leave over junk through any other view: both are the
    pieces' own contents, which depend on no view and no earlier contents. -/
theorem readCov_whole_eq_read {sig sig' : RefSig} {κ κ' : Kind} {sp sp' : Space} {S : Shape} {e : EltTy}
    {Val : EltTy → Type} [∀ e, Nonempty (Val e)]
    (v : View sig κ sp S e) (v' : View sig' κ' sp' S e) (L : List (View.Piece Val S e)) {off : Fin S.rank → ℕ}
    (hz : off = fun _ => 0) (inb : ∀ a, off a + S.size a ≤ S.size a) :
    v.readCov L (Rect.unit off S.size inb).toLoadRect = v'.read Val (v'.writes Val v'.junk L) := by
  unfold View.readCov
  rw [readAt_whole v _ hz inb, View.read_writes_junk_eq_canon, View.read_writes_junk_eq_canon]

set_option maxHeartbeats 16000000 in
/-- The running maximum of head `h` after the last tile. -/
theorem last_max (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : ¬cond0_0 i) (hc1 : cond0_1 i)
    (x0 : Vec F S1x256x1024 .f32) (x1 : Vec F S1024x1024 .bf16) (x2 : Vec F S1024 .f32) (x3 : Vec F S1024x1024 .bf16) (x4 : Vec F S1024 .f32) (x5 : Vec F S1x1x1024 .f32) (x6 : Vec F S1024x1024 .bf16) (x7 : Vec F S1024 .f32) (xs0 : Vec F S1x16 .f32) (xs1 : Vec F S1x16 .f32) (xs2 : Vec F S1x1024 .f32) (h : Fin 16) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 (ix2 0 h)
      = cast11 (newMax (scores (64 * h.val) (k0_pay27 x0 x1 x2) (k0_pay29 x5) (slK _ (by have := h.isLt; omega)) (slq _ (by have := h.isLt; omega))) (View.ld xs0 (Rect.unit ![0, h.val] S1x1.size (inb11 _ h.isLt)))) (ix2 0 0) := by
  unfold sout0_C_0 kernelRun0_C
  dsimp only
  fin_cases h <;>
  · repeat rw [View.read_writes_cons_unit_of_not_mem _ _ _ _ _ _ rfl 1 (Or.inl (by decide))]
    rw [View.read_writes_cons_unit_of_mem _ _ _ _ _ _ (ix2 0 0) rfl (by decide)]
    sl_unfold_words
    rw [load_whole arg2 harg2 x0 (by funext a; fin_cases a <;> rfl), load_whole arg3 harg3 x1 (by funext a; fin_cases a <;> rfl),
      load_whole arg4 harg4 x2 (by funext a; fin_cases a <;> rfl), load_whole arg7 harg7 x5 (by funext a; fin_cases a <;> rfl)]
    rw [load_rect arg11 harg11 xs0]
    rfl

set_option maxHeartbeats 16000000 in
/-- The running sum of weights of head `h` after the last tile. -/
theorem last_sum (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : ¬cond0_0 i) (hc1 : cond0_1 i)
    (x0 : Vec F S1x256x1024 .f32) (x1 : Vec F S1024x1024 .bf16) (x2 : Vec F S1024 .f32) (x3 : Vec F S1024x1024 .bf16) (x4 : Vec F S1024 .f32) (x5 : Vec F S1x1x1024 .f32) (x6 : Vec F S1024x1024 .bf16) (x7 : Vec F S1024 .f32) (xs0 : Vec F S1x16 .f32) (xs1 : Vec F S1x16 .f32) (xs2 : Vec F S1x1024 .f32) (h : Fin 16) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 (ix2 0 h)
      = cast11 (newSum (rescale (View.ld xs0 (Rect.unit ![0, h.val] S1x1.size (inb11 _ h.isLt))) (newMax (scores (64 * h.val) (k0_pay27 x0 x1 x2) (k0_pay29 x5) (slK _ (by have := h.isLt; omega)) (slq _ (by have := h.isLt; omega))) (View.ld xs0 (Rect.unit ![0, h.val] S1x1.size (inb11 _ h.isLt))))) (weights (scores (64 * h.val) (k0_pay27 x0 x1 x2) (k0_pay29 x5) (slK _ (by have := h.isLt; omega)) (slq _ (by have := h.isLt; omega))) (newMax (scores (64 * h.val) (k0_pay27 x0 x1 x2) (k0_pay29 x5) (slK _ (by have := h.isLt; omega)) (slq _ (by have := h.isLt; omega))) (View.ld xs0 (Rect.unit ![0, h.val] S1x1.size (inb11 _ h.isLt))))) (View.ld xs1 (Rect.unit ![0, h.val] S1x1.size (inb11 _ h.isLt)))) (ix2 0 0) := by
  unfold sout0_C_1 kernelRun0_C
  dsimp only
  sl_open "HS1_"
  fin_cases h <;>
  · repeat rw [View.read_writes_cons_unit_of_not_mem _ _ _ _ _ _ rfl 1 (Or.inl (by decide))]
    rw [View.read_writes_cons_unit_of_mem _ _ _ _ _ _ (ix2 0 0) rfl (by decide)]
    sl_unfold_words
    rw [load_whole arg2 harg2 x0 (by funext a; fin_cases a <;> rfl), load_whole arg3 harg3 x1 (by funext a; fin_cases a <;> rfl),
      load_whole arg4 harg4 x2 (by funext a; fin_cases a <;> rfl), load_whole arg7 harg7 x5 (by funext a; fin_cases a <;> rfl)]
    rw [load_rect arg11 harg11 xs0, load_rect arg12 harg12 xs1]
    rfl

set_option maxHeartbeats 16000000 in
/-- The accumulator cell of head `h`, lane `d`, after the last tile: the head's new weighted sum of values divided by
    its new sum of weights. -/
theorem last_norm (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : ¬cond0_0 i) (hc1 : cond0_1 i)
    (x0 : Vec F S1x256x1024 .f32) (x1 : Vec F S1024x1024 .bf16) (x2 : Vec F S1024 .f32) (x3 : Vec F S1024x1024 .bf16) (x4 : Vec F S1024 .f32) (x5 : Vec F S1x1x1024 .f32) (x6 : Vec F S1024x1024 .bf16) (x7 : Vec F S1024 .f32) (xs0 : Vec F S1x16 .f32) (xs1 : Vec F S1x16 .f32) (xs2 : Vec F S1x1024 .f32) (h : Fin 16) (d : Fin 64) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 (ix2 0 (colOf h d))
      = cast164 (normalised (cast164 (newAcc (64 * h.val) (k0_pay28 x0 x3 x4) (slK _ (by have := h.isLt; omega)) (rescale (View.ld xs0 (Rect.unit ![0, h.val] S1x1.size (inb11 _ h.isLt))) (newMax (scores (64 * h.val) (k0_pay27 x0 x1 x2) (k0_pay29 x5) (slK _ (by have := h.isLt; omega)) (slq _ (by have := h.isLt; omega))) (View.ld xs0 (Rect.unit ![0, h.val] S1x1.size (inb11 _ h.isLt))))) (weights (scores (64 * h.val) (k0_pay27 x0 x1 x2) (k0_pay29 x5) (slK _ (by have := h.isLt; omega)) (slq _ (by have := h.isLt; omega))) (newMax (scores (64 * h.val) (k0_pay27 x0 x1 x2) (k0_pay29 x5) (slK _ (by have := h.isLt; omega)) (slq _ (by have := h.isLt; omega))) (View.ld xs0 (Rect.unit ![0, h.val] S1x1.size (inb11 _ h.isLt))))) (View.ld xs2 (Rect.unit ![0, 64 * h.val] S1x64.size (inb164 _ (by have := h.isLt; omega)))))) (cast11 (newSum (rescale (View.ld xs0 (Rect.unit ![0, h.val] S1x1.size (inb11 _ h.isLt))) (newMax (scores (64 * h.val) (k0_pay27 x0 x1 x2) (k0_pay29 x5) (slK _ (by have := h.isLt; omega)) (slq _ (by have := h.isLt; omega))) (View.ld xs0 (Rect.unit ![0, h.val] S1x1.size (inb11 _ h.isLt))))) (weights (scores (64 * h.val) (k0_pay27 x0 x1 x2) (k0_pay29 x5) (slK _ (by have := h.isLt; omega)) (slq _ (by have := h.isLt; omega))) (newMax (scores (64 * h.val) (k0_pay27 x0 x1 x2) (k0_pay29 x5) (slK _ (by have := h.isLt; omega)) (slq _ (by have := h.isLt; omega))) (View.ld xs0 (Rect.unit ![0, h.val] S1x1.size (inb11 _ h.isLt))))) (View.ld xs1 (Rect.unit ![0, h.val] S1x1.size (inb11 _ h.isLt)))))) (ix2 0 d) := by
  unfold sout0_C_2 kernelRun0_C
  dsimp only
  sl_open "HS2_"
  fin_cases h <;>
  · repeat rw [View.read_writes_cons_unit_of_not_mem _ _ _ _ _ _ rfl 1 (Or.inl (col_lt _ d _ (by decide)))]
    rw [View.read_writes_cons_unit_of_mem _ _ _ _ _ _ (ix2 0 d) rfl (col_hit _ d _ (by decide))]
    sl_open "r_4"
    sl_open "v"
    sl_open "HS2_"
    repeat rw [readCov_cons_miss _ _ _ _ _ 1 (Or.inr (by decide))]
    repeat rw [readCov_cons_miss _ _ _ _ _ 1 (Or.inl (by decide))]
    rw [readCov_cons_hit]
    sl_open "HS1_"
    repeat rw [readCov_cons_miss _ _ _ _ _ 1 (Or.inl (by decide))]
    rw [readCov_cons_hit]
    sl_unfold_words
    rw [load_whole arg2 harg2 x0 (by funext a; fin_cases a <;> rfl), load_whole arg3 harg3 x1 (by funext a; fin_cases a <;> rfl),
      load_whole arg4 harg4 x2 (by funext a; fin_cases a <;> rfl), load_whole arg5 harg5 x3 (by funext a; fin_cases a <;> rfl),
      load_whole arg6 harg6 x4 (by funext a; fin_cases a <;> rfl), load_whole arg7 harg7 x5 (by funext a; fin_cases a <;> rfl)]
    rw [load_rect arg11 harg11 xs0, load_rect arg12 harg12 xs1, load_rect arg13 harg13 xs2]
    rfl

/-- The output block after the last tile: the whole accumulator row against the output weights, plus the bias. -/
theorem last_out (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : ¬cond0_0 i) (hc1 : cond0_1 i)
    (x0 : Vec F S1x256x1024 .f32) (x1 : Vec F S1024x1024 .bf16) (x2 : Vec F S1024 .f32) (x3 : Vec F S1024x1024 .bf16) (x4 : Vec F S1024 .f32) (x5 : Vec F S1x1x1024 .f32) (x6 : Vec F S1024x1024 .bf16) (x7 : Vec F S1024 .f32) (xs0 : Vec F S1x16 .f32) (xs1 : Vec F S1x16 .f32) (xs2 : Vec F S1x1024 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2
      = k0_pay3 (k0_pay22 (sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2) x6 x7) := by
  unfold out0_C_8 sout0_C_2 kernelRun0_C
  dsimp only
  rw [read_writes_cons_whole _ _ (by funext a; fin_cases a <;> rfl)]
  sl_open "r_49"
  sl_open "v7"
  rw [readCov_whole_eq_read arg13.view VS0_2 _ (by funext a; fin_cases a <;> rfl)]
  rw [load_whole arg8 harg8 x6 (by funext a; fin_cases a <;> rfl), load_whole arg9 harg9 x7 (by funext a; fin_cases a <;> rfl)]

end Cert.KernelIdeal.Body

end
-- ==== Proof.BodyLastReal.lean ====
/-
  The last tile's effect on the output block in terms of the real input arrays.

  After the sixteen heads' steps the accumulator row is divided, head by head, by the head's sum of weights: over the
  reals this is the softmax-weighted sum of the value rows, the attended row.  The output block is that row against the
  (transposed) output weights plus the bias: the output row of the batch row.
-/
import proofs.«176754_j53403623358619_2_alg».proof.Proof.BodyLast
import proofs.«176754_j53403623358619_2_alg».proof.Proof.BodyMidReal

set_option maxRecDepth 16384

noncomputable section

namespace Cert.KernelIdeal.Body

open Idealize.ShloMosaic Idealize.ShloMosaic.TcCoe Idealize.SL Idealize.SL.Sem
open Idealize.ShloMosaic.ValueIdx Cert.KernelIdeal Cert.KernelIdeal.Gen Cert.KernelIdeal.HeadStep
open Cert.Attn Cert.KernelIdeal.TileApply

/-- Every column is a lane of its head. -/
theorem col_split (o : Fin 1024) : o = colOf (hd o) ⟨o.val % 64, Nat.mod_lt _ (by norm_num)⟩ :=
  Fin.ext (by show o.val = 64 * (o.val / 64) + o.val % 64; omega)

/-- After the last tile of a batch row the output block holds the batch row's output row. -/
theorem last_real (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1x1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x1024 .f32) (harg13 : arg13.IsWhole) (hc0 : ¬cond0_0 i) (hc1 : cond0_1 i)
    (x0 : Vec Ideal S1x256x1024 .f32) (x1 : Vec Ideal S1024x1024 .bf16) (x2 : Vec Ideal S1024 .f32) (x3 : Vec Ideal S1024x1024 .bf16) (x4 : Vec Ideal S1024 .f32) (x5 : Vec Ideal S1x1x1024 .f32) (x6 : Vec Ideal S1024x1024 .bf16) (x7 : Vec Ideal S1024 .f32) (xs0 : Vec Ideal S1x16 .f32) (xs1 : Vec Ideal S1x16 .f32) (xs2 : Vec Ideal S1x1024 .f32)
    (P : Params) (bb : Fin 4) (j j' : Fin 8) (hjj : j'.val = j.val + 1) (hj7 : j'.val = 7)
    (hx0 : ∀ (r : Fin 256) (d : Fin 1024), x0 (ix3 (0 : Fin 1) r d) = ((P.x bb (pos j' r) d : ℝ) : EReal))
    (hx1 : ∀ d o : Fin 1024, x1 (ix2 d o) = ((P.Wk o d : ℝ) : EReal)) (hx2 : ∀ o : Fin 1024, x2 (ix1 o) = ((P.bk o : ℝ) : EReal))
    (hx3 : ∀ d o : Fin 1024, x3 (ix2 d o) = ((P.Wv o d : ℝ) : EReal)) (hx4 : ∀ o : Fin 1024, x4 (ix1 o) = ((P.bv o : ℝ) : EReal))
    (hx5 : ∀ o : Fin 1024, x5 (ix3 (0 : Fin 1) (0 : Fin 1) o) = ((qv P bb o : ℝ) : EReal))
    (hx6 : ∀ d o : Fin 1024, x6 (ix2 d o) = ((P.Wo o d : ℝ) : EReal)) (hx7 : ∀ o : Fin 1024, x7 (ix1 o) = ((P.bo o : ℝ) : EReal))
    (hm : ∀ h : Fin 16, xs0 (ix2 (0 : Fin 1) h) = ((mAt P bb h j : ℝ) : EReal))
    (hl : ∀ h : Fin 16, xs1 (ix2 (0 : Fin 1) h) = ((lAt P bb h j : ℝ) : EReal))
    (ha : ∀ (h : Fin 16) (d : Fin 64), xs2 (ix2 (0 : Fin 1) (colOf h d)) = ((aAt P bb j (colOf h d) : ℝ) : EReal)) :
    ∀ p : Fin 1024, out0_C_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 (ix3 (0 : Fin 1) (0 : Fin 1) p)
        = ((out P bb p : ℝ) : EReal) := by
  have hj : j.val + 1 < 8 := by have := j'.isLt; omega
  obtain rfl : j' = ⟨j.val + 1, hj⟩ := Fin.ext hjj
  have e7 : (⟨j.val + 1, hj⟩ : Fin 8) = 7 := Fin.ext hj7
  have hK : ∀ r c, k0_pay27 (F := Ideal) x0 x1 x2 (ix2 r c) = ((kv P bb (pos ⟨j.val + 1, hj⟩ r) c : ℝ) : EReal) :=
    fun r c => keys_real P bb _ x0 x1 x2 r (hx0 r) hx1 hx2 c
  have hV : ∀ r c, k0_pay28 (F := Ideal) x0 x3 x4 (ix2 r c) = ((vv P bb (pos ⟨j.val + 1, hj⟩ r) c : ℝ) : EReal) :=
    fun r c => values_real P bb _ x0 x3 x4 r (hx0 r) hx3 hx4 c
  have hq : ∀ c, k0_pay29 (F := Ideal) x5 (ix2 (0 : Fin 1) c) = ((qv P bb c : ℝ) : EReal) :=
    fun c => (query_apply x5 c).trans (hx5 c)
  have hctx : ∀ o : Fin 1024, sout0_C_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 (ix2 (0 : Fin 1) o)
      = ((ctx P bb o : ℝ) : EReal) := by
    intro o
    rw [col_split o]
    generalize hd o = h
    generalize (⟨o.val % 64, Nat.mod_lt _ (by norm_num)⟩ : Fin 64) = d
    rw [last_norm]
    refine Cert.KernelIdeal.HeadReal.final_norm P bb h _ _ d ?_ ?_
    · exact e7 ▸ Cert.KernelIdeal.HeadReal.next_acc (P := P) (bb := bb) (h := h) (hK := _) (hV := _) (hq := _) (j := j) (hj := hj)
        (hKr := hK) (hVr := hV) (hqr := hq) (hm := (ld_cell11 xs0 h.val h.isLt _).trans (hm h))
        (hacc := fun d => (ld_cell164 xs2 (64 * h.val) (by have := h.isLt; omega) _ d).trans (ha h d)) (d := d)
    · exact e7 ▸ Cert.KernelIdeal.HeadReal.next_sum (P := P) (bb := bb) (h := h) (hK := _) (hq := _) (j := j) (hj := hj)
        (hKr := hK) (hqr := hq) (hm := (ld_cell11 xs0 h.val h.isLt _).trans (hm h))
        (hl := (ld_cell11 xs1 h.val h.isLt _).trans (hl h))
  intro p
  rw [last_out, output_apply]
  exact Cert.StepReal.out_eq P bb _ _ _ hctx hx6 hx7 p

end Cert.KernelIdeal.Body

end
-- ==== Proof.KernelHostArrays.lean ====
/-
  What the region's input windows find. Before the region the host prepares, from the nine argument arrays:
  the three weight matrices Wk, Wv, Wo transposed (and converted to a narrower format, which changes nothing over
  the extended reals), and the query rows  q[b, 0, o] = (Σ_d x[b, 2047, d] · Wq[o, d]) + bq[o]  of the last token,
  as a [4, 1, 1024] array. The other windows stage argument arrays untouched. Each prepared array is read here at an
  index, in terms of the argument buffers as launched.
-/
import proofs.«176754_j53403623358619_2_alg».proof.Proof.Gen.KernelIdeal.Frame.Runs
import Idealize.ShloMosaic.Lib.ValueLayout
import Idealize.ShloMosaic.PureOps.Ideal.Laws

set_option maxRecDepth 16384

noncomputable section

namespace Cert.KernelHost

open Idealize.ShloMosaic Idealize.ShloMosaic.TcCoe Idealize.ShloMosaic.Tactic Idealize.ShloMosaic.ValueIdx
open Cert.KernelIdeal Cert.KernelIdeal.Gen

/-! ## The host's operations, read at an index -/

/-- The query product's dimension numbers: the left operand's axis 1 against the right operand's axis 0. -/
abbrev Dq : DotDims S4x1024 S1024x1024 S4x1024 := dot_S4x1024_S1024x1024_S4x1024_1_0_0_1_n_n

theorem Dq_lhs_0 (i : S4x1024.Idx) (q : Dq.contr.Idx) : (Dq.lhsIdx i q 0).val = (i 0).val := by
  unfold DotDims.lhsIdx
  rw [dif_neg (show ¬(0 : Fin S4x1024.rank) ∈ Dq.lhsBatch by decide), dif_pos (show (0 : Fin S4x1024.rank) ∈ Dq.lhsNonContracting by decide)]
  rfl
theorem Dq_lhs_1 (i : S4x1024.Idx) (q : Dq.contr.Idx) : (Dq.lhsIdx i q 1).val = (q ⟨0, by decide⟩).val :=
  Dq.lhsIdx_val_of_single rfl i q
theorem Dq_rhs_0 (i : S4x1024.Idx) (q : Dq.contr.Idx) : (Dq.rhsIdx i q 0).val = (q ⟨0, by decide⟩).val :=
  Dq.rhsIdx_val_of_single rfl i q
theorem Dq_rhs_1 (i : S4x1024.Idx) (q : Dq.contr.Idx) : (Dq.rhsIdx i q 1).val = (i 1).val := by
  unfold DotDims.rhsIdx
  rw [dif_neg (show ¬(1 : Fin S1024x1024.rank) ∈ Dq.rhsBatch by decide), dif_pos (show (1 : Fin S1024x1024.rank) ∈ Dq.rhsNonContracting by decide)]
  rfl

/-- The product of a [4, 1024] array with a [1024, 1024] one at (b, o): the sum over the shared axis of left (b, d)
    times right (d, o), the left factor first. -/
theorem dotq_apply (l : FVec Ideal S4x1024 .f32) (r : FVec Ideal S1024x1024 .f32) (b : Fin 4) (o : Fin 1024) :
    Host.dotGeneral Dq none l r (ix2 b o) = ∑ d : Fin 1024, l (ix2 b d) * r (ix2 d o) := by
  simp only [Host.dotGeneral]
  rw [Ideal.dotGeneral_apply, ← Equiv.sum_comp (contrEquiv1 Dq 1024 rfl rfl).symm]
  refine Finset.sum_congr rfl fun k _ => ?_
  have hk := contrEquiv1_symm_val Dq 1024 rfl rfl k
  have el : Dq.lhsIdx (ix2 b o) ((contrEquiv1 Dq 1024 rfl rfl).symm k) = ix2 b k := funext fun a => Fin.ext (by
    match a with
    | ⟨0, _⟩ => exact Dq_lhs_0 _ _
    | ⟨1, _⟩ => exact (Dq_lhs_1 _ _).trans hk)
  have er : Dq.rhsIdx (ix2 b o) ((contrEquiv1 Dq 1024 rfl rfl).symm k) = ix2 k o := funext fun a => Fin.ext (by
    match a with
    | ⟨0, _⟩ => exact (Dq_rhs_0 _ _).trans hk
    | ⟨1, _⟩ => exact Dq_rhs_1 _ _)
  rw [el, er]

/-- The last token's rows, cut out of x and flattened to [4, 1024], at (b, d): x at (b, 2047, d). -/
theorem lastrow_apply (x : FVec Ideal S4x2048x1024 .f32) (b : Fin 4) (d : Fin 1024) :
    shapeCast S4x1024 (extractStridedSlice S4x1x1024 ![0, 2047, 0] x slices_S4x2048x1024_S4x1x1024_0_2047_0) shapeCasts_S4x1x1024_S4x1024 (ix2 b d)
      = x (ix3 b (⟨2047, by omega⟩ : Fin 2048) d) := by
  rw [shapeCast_apply _ shapeCasts_S4x1x1024_S4x1024 (ix2 b d) (ix3 b (0 : Fin 1) d) (by
    rw [Shape.rowMajor_val_two, Shape.rowMajor_val_three]
    show (b.val * 1 + 0) * 1024 + d.val = b.val * 1024 + d.val
    omega)]
  exact slice3_axis1_apply 2047 x slices_S4x2048x1024_S4x1x1024_0_2047_0 b (0 : Fin 1) d ⟨2047, by omega⟩ rfl

/-- The bias row broadcast over the four batch rows, at (b, o): the bias at o. -/
theorem biasrows_apply (v : FVec Ideal S1024 .f32) (b : Fin 4) (o : Fin 1024) :
    broadcastInDim S4x1024 ![0, 1] bcast_S1x1024_S4x1024_0_1 (broadcastInDim S1x1024 ![1] bcast_S1024_S1x1024_1 v) (ix2 b o) = v (ix1 o) := by
  rw [broadcastInDim_apply _ bcast_S1x1024_S4x1024_0_1 _ (ix2 b o) (ix2 (0 : Fin 1) o) (fun a => match a with
    | ⟨0, _⟩ => by show (0 : ℕ) = if (1 : Nat) = 1 then 0 else b.val; rw [if_pos rfl]
    | ⟨1, _⟩ => by show o.val = if (1024 : Nat) = 1 then 0 else o.val; rw [if_neg (by decide)])]
  exact broadcastInDim_apply _ bcast_S1024_S1x1024_1 v (ix2 (0 : Fin 1) o) (ix1 o) (fun a => match a with
    | ⟨0, _⟩ => by show o.val = if (1024 : Nat) = 1 then 0 else o.val; rw [if_neg (by decide)])

/-- The query rows as the host computes them from x, Wq and bq. -/
def qrows (x : FVec Ideal S4x2048x1024 .f32) (wq : FVec Ideal S1024x1024 .f32) (bq : FVec Ideal S1024 .f32) : FVec Ideal S4x1x1024 .f32 :=
  shapeCast S4x1x1024
    (addf (Host.dotGeneral Dq none
        (shapeCast S4x1024 (extractStridedSlice S4x1x1024 ![0, 2047, 0] x slices_S4x2048x1024_S4x1x1024_0_2047_0) shapeCasts_S4x1x1024_S4x1024)
        (transpose S1024x1024 [1, 0] wq transposes_S1024x1024_S1024x1024_1_0))
      (broadcastInDim S4x1024 ![0, 1] bcast_S1x1024_S4x1024_0_1 (broadcastInDim S1x1024 ![1] bcast_S1024_S1x1024_1 bq)))
    shapeCasts_S4x1024_S4x1x1024

/-- The query rows at (b, 0, o): the last token's row of x against row o of Wq (the factor from x first), plus bq at o. -/
theorem qrows_apply (x : FVec Ideal S4x2048x1024 .f32) (wq : FVec Ideal S1024x1024 .f32) (bq : FVec Ideal S1024 .f32)
    (b : Fin 4) (u : Fin 1) (o : Fin 1024) :
    qrows x wq bq (ix3 b u o) = (∑ d : Fin 1024, x (ix3 b (⟨2047, by omega⟩ : Fin 2048) d) * wq (ix2 o d)) + bq (ix1 o) := by
  unfold qrows
  have hu : u.val = 0 := by omega
  rw [shapeCast_apply _ shapeCasts_S4x1024_S4x1x1024 (ix3 b u o) (ix2 b o) (by
    rw [Shape.rowMajor_val_two, Shape.rowMajor_val_three]
    show b.val * 1024 + o.val = (b.val * 1 + u.val) * 1024 + o.val
    omega)]
  rw [addf_apply, dotq_apply, biasrows_apply]
  congr 1
  refine Finset.sum_congr rfl fun d _ => ?_
  rw [lastrow_apply, transpose_ix2_apply]

/-! ## The arrays the windows find -/

variable (m : (ℓ : Loc nD τ sig) → Buf (Elt Ideal) ℓ) (c : Dev nD)

/-- The nine argument arrays as launched, each as a function of an index into extended reals:
    x, Wq, bq, Wk, bk, Wv, bv, Wo, bo. -/
abbrev A0 : FVec Ideal S4x2048x1024 .f32 := m ((c : Thread nD τ).loc main_arg0)
abbrev A1 : FVec Ideal S1024x1024 .f32 := m ((c : Thread nD τ).loc main_arg1)
abbrev A2 : FVec Ideal S1024 .f32 := m ((c : Thread nD τ).loc main_arg2)
abbrev A3 : FVec Ideal S1024x1024 .f32 := m ((c : Thread nD τ).loc main_arg3)
abbrev A4 : FVec Ideal S1024 .f32 := m ((c : Thread nD τ).loc main_arg4)
abbrev A5 : FVec Ideal S1024x1024 .f32 := m ((c : Thread nD τ).loc main_arg5)
abbrev A6 : FVec Ideal S1024 .f32 := m ((c : Thread nD τ).loc main_arg6)
abbrev A7 : FVec Ideal S1024x1024 .f32 := m ((c : Thread nD τ).loc main_arg7)
abbrev A8 : FVec Ideal S1024 .f32 := m ((c : Thread nD τ).loc main_arg8)

/-- Wk transposed (the format change is the identity). -/
theorem V_v9_term : @Eq (FVec Ideal S1024x1024 .bf16) (Gen.V m c main_v9)
    (truncf (F := Ideal) .bf16 (transpose S1024x1024 [1, 0] (A3 m c) transposes_S1024x1024_S1024x1024_1_0) bitsLt_bf16_f32) := by
  dsimp only [Gen.V, Gen.V0]
  simp only [Gen.hostOps0, List.flatten_cons, List.flatten_nil, List.append_nil, List.cons_append, List.nil_append]
  after_results
/-- Wv transposed. -/
theorem V_v11_term : @Eq (FVec Ideal S1024x1024 .bf16) (Gen.V m c main_v11)
    (truncf (F := Ideal) .bf16 (transpose S1024x1024 [1, 0] (A5 m c) transposes_S1024x1024_S1024x1024_1_0) bitsLt_bf16_f32) := by
  dsimp only [Gen.V, Gen.V0]
  simp only [Gen.hostOps0, List.flatten_cons, List.flatten_nil, List.append_nil, List.cons_append, List.nil_append]
  after_results
/-- Wo transposed. -/
theorem V_v13_term : @Eq (FVec Ideal S1024x1024 .bf16) (Gen.V m c main_v13)
    (truncf (F := Ideal) .bf16 (transpose S1024x1024 [1, 0] (A7 m c) transposes_S1024x1024_S1024x1024_1_0) bitsLt_bf16_f32) := by
  dsimp only [Gen.V, Gen.V0]
  simp only [Gen.hostOps0, List.flatten_cons, List.flatten_nil, List.append_nil, List.cons_append, List.nil_append]
  after_results
/-- The query rows. -/
theorem V_v7_term : @Eq (FVec Ideal S4x1x1024 .f32) (Gen.V m c main_v7)
    (qrows (A0 m c) (A1 m c) (A2 m c)) := by
  dsimp only [Gen.V, Gen.V0]
  simp only [Gen.hostOps0, List.flatten_cons, List.flatten_nil, List.append_nil, List.cons_append, List.nil_append]
  after_results
  rfl

/-- The window on Wkᵀ finds, at (d, o), Wk at (o, d). -/
theorem V_v9 (d o : Fin 1024) : Gen.V m c main_v9 (ix2 d o) = A3 m c (ix2 o d) := by
  rw [V_v9_term]
  exact transpose_ix2_apply _ _ d o
/-- The window on Wvᵀ finds, at (d, o), Wv at (o, d). -/
theorem V_v11 (d o : Fin 1024) : Gen.V m c main_v11 (ix2 d o) = A5 m c (ix2 o d) := by
  rw [V_v11_term]
  exact transpose_ix2_apply _ _ d o
/-- The window on Woᵀ finds, at (d, o), Wo at (o, d). -/
theorem V_v13 (d o : Fin 1024) : Gen.V m c main_v13 (ix2 d o) = A7 m c (ix2 o d) := by
  rw [V_v13_term]
  exact transpose_ix2_apply _ _ d o
/-- The window on the query rows finds, at (b, 0, o), Σ_d x[b, 2047, d] · Wq[o, d] + bq[o] (x's factor first, as the
    program multiplies). -/
theorem V_v7 (b : Fin 4) (u : Fin 1) (o : Fin 1024) :
    Gen.V m c main_v7 (ix3 b u o)
      = (∑ d : Fin 1024, A0 m c (ix3 b (⟨2047, by omega⟩ : Fin 2048) d) * A1 m c (ix2 o d)) + A2 m c (ix1 o) := by
  rw [V_v7_term]
  exact qrows_apply _ _ _ b u o

/-- The windows on x, bk, bv, bo find the argument arrays as launched. -/
theorem V_arg0 : Gen.V m c main_arg0 = A0 m c := Gen.V_main_arg0 m c
theorem V_arg4 : Gen.V m c main_arg4 = A4 m c := Gen.V_main_arg4 m c
theorem V_arg6 : Gen.V m c main_arg6 = A6 m c := Gen.V_main_arg6 m c
theorem V_arg8 : Gen.V m c main_arg8 = A8 m c := Gen.V_main_arg8 m c

end Cert.KernelHost

end
-- ==== Proof.KernelHostBlocks.lean ====
/-
  The blocks the input windows hand the body at grid point t, read off the arrays the windows find. Point t is
  (batch row, tile) = (t / 8, t % 8). A block's element sits in its array, on each axis, at the block index times the
  block's size plus its own coordinate: the window on x hands rows 256 (t % 8) … 256 (t % 8) + 255 of batch row t / 8,
  the window on the query rows hands row t / 8, and the windows on the weights and biases hand their whole arrays.
-/
import proofs.«176754_j53403623358619_2_alg».proof.Proof.KernelHostArrays

set_option maxRecDepth 16384

noncomputable section

namespace Cert.KernelHost

open Idealize.ShloMosaic Idealize.ShloMosaic.TcCoe Idealize.ShloMosaic.Tactic Idealize.ShloMosaic.ValueIdx
open Cert.KernelIdeal Cert.KernelIdeal.Gen

/-- A grid point is below 32. -/
theorem lt32 (t : Fin cfg0.N) : t.val < 32 := lt_of_lt_of_eq t.isLt N_0

/-- The windows' block indices at every grid point: the window on x is at (t / 8, t % 8, 0), the window on the query
    rows at (t / 8, 0, 0), every other input window at its origin. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val / 8 ∧ win0_5.index t (1 : Fin 3) = 0 ∧ win0_5.index t (2 : Fin 3) = 0
    ∧ win0_6.index t (0 : Fin 2) = 0 ∧ win0_6.index t (1 : Fin 2) = 0
    ∧ win0_7.index t (0 : Fin 1) = 0 :=
  (by decide +kernel : ∀ t : Fin grid0.N, _)

variable (m : (ℓ : Loc nD τ sig) → Buf (Elt Ideal) ℓ) (c : Dev nD)

/-- The block of x at point t, at (0, r, d): x at (t / 8, 256 (t % 8) + r, d). -/
theorem iblk0 (t : Fin cfg0.N) (r : Fin 256) (d : Fin 1024) :
    Gen.iblk m c 0 t (ix3 (0 : Fin 1) r d)
      = Gen.V m c main_arg0 (ix3 (⟨t.val / 8, by have := lt32 t; omega⟩ : Fin 4) (⟨256 * (t.val % 8) + r.val, by have := r.isLt; omega⟩ : Fin 2048) d) := by
  obtain ⟨e0, e1, e2, -⟩ := idx_facts t
  show Gen.V m c main_arg0 (((cfg0.win 0).blk t).view.emb (ix3 (0 : Fin 1) r d)) = _
  refine congrArg _ (funext fun a => Fin.ext ?_)
  match a with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 1024 + 1 * d.val = d.val; omega

/-- The same in terms of the argument x. -/
theorem iblk0_arg (t : Fin cfg0.N) (r : Fin 256) (d : Fin 1024) :
    Gen.iblk m c 0 t (ix3 (0 : Fin 1) r d)
      = A0 m c (ix3 (⟨t.val / 8, by have := lt32 t; omega⟩ : Fin 4) (⟨256 * (t.val % 8) + r.val, by have := r.isLt; omega⟩ : Fin 2048) d) := by
  rw [iblk0, V_arg0]

/-- The block of Wkᵀ at any point is the whole array. -/
theorem iblk1 (t : Fin cfg0.N) (d o : Fin 1024) : Gen.iblk m c 1 t (ix2 d o) = Gen.V m c main_v9 (ix2 d o) := by
  obtain ⟨-, -, -, e0, e1, -⟩ := idx_facts t
  show Gen.V m c main_v9 (((cfg0.win 1).blk t).view.emb (ix2 d o)) = _
  refine congrArg _ (funext fun a => Fin.ext ?_)
  match a with
  | ⟨0, _⟩ => show win0_1.index t (0 : Fin 2) * 1024 + 1 * d.val = d.val; omega
  | ⟨1, _⟩ => show win0_1.index t (1 : Fin 2) * 1024 + 1 * o.val = o.val; omega
/-- At (d, o) it is Wk at (o, d). -/
theorem iblk1_arg (t : Fin cfg0.N) (d o : Fin 1024) : Gen.iblk m c 1 t (ix2 d o) = A3 m c (ix2 o d) := by
  rw [iblk1, V_v9]

/-- The block of bk at any point is the whole array. -/
theorem iblk2 (t : Fin cfg0.N) (o : Fin 1024) : Gen.iblk m c 2 t (ix1 o) = Gen.V m c main_arg4 (ix1 o) := by
  obtain ⟨-, -, -, -, -, e0, -⟩ := idx_facts t
  show Gen.V m c main_arg4 (((cfg0.win 2).blk t).view.emb (ix1 o)) = _
  refine congrArg _ (funext fun a => Fin.ext ?_)
  match a with
  | ⟨0, _⟩ => show win0_2.index t (0 : Fin 1) * 1024 + 1 * o.val = o.val; omega
theorem iblk2_arg (t : Fin cfg0.N) (o : Fin 1024) : Gen.iblk m c 2 t (ix1 o) = A4 m c (ix1 o) := by
  rw [iblk2, V_arg4]

/-- The block of Wvᵀ at any point is the whole array. -/
theorem iblk3 (t : Fin cfg0.N) (d o : Fin 1024) : Gen.iblk m c 3 t (ix2 d o) = Gen.V m c main_v11 (ix2 d o) := by
  obtain ⟨-, -, -, -, -, -, e0, e1, -⟩ := idx_facts t
  show Gen.V m c main_v11 (((cfg0.win 3).blk t).view.emb (ix2 d o)) = _
  refine congrArg _ (funext fun a => Fin.ext ?_)
  match a with
  | ⟨0, _⟩ => show win0_3.index t (0 : Fin 2) * 1024 + 1 * d.val = d.val; omega
  | ⟨1, _⟩ => show win0_3.index t (1 : Fin 2) * 1024 + 1 * o.val = o.val; omega
/-- At (d, o) it is Wv at (o, d). -/
theorem iblk3_arg (t : Fin cfg0.N) (d o : Fin 1024) : Gen.iblk m c 3 t (ix2 d o) = A5 m c (ix2 o d) := by
  rw [iblk3, V_v11]

/-- The block of bv at any point is the whole array. -/
theorem iblk4 (t : Fin cfg0.N) (o : Fin 1024) : Gen.iblk m c 4 t (ix1 o) = Gen.V m c main_arg6 (ix1 o) := by
  obtain ⟨-, -, -, -, -, -, -, -, e0, -⟩ := idx_facts t
  show Gen.V m c main_arg6 (((cfg0.win 4).blk t).view.emb (ix1 o)) = _
  refine congrArg _ (funext fun a => Fin.ext ?_)
  match a with
  | ⟨0, _⟩ => show win0_4.index t (0 : Fin 1) * 1024 + 1 * o.val = o.val; omega
theorem iblk4_arg (t : Fin cfg0.N) (o : Fin 1024) : Gen.iblk m c 4 t (ix1 o) = A6 m c (ix1 o) := by
  rw [iblk4, V_arg6]

/-- The block of the query rows at point t is row t / 8. -/
theorem iblk5 (t : Fin cfg0.N) (o : Fin 1024) :
    Gen.iblk m c 5 t (ix3 (0 : Fin 1) (0 : Fin 1) o)
      = Gen.V m c main_v7 (ix3 (⟨t.val / 8, by have := lt32 t; omega⟩ : Fin 4) (0 : Fin 1) o) := by
  obtain ⟨-, -, -, -, -, -, -, -, -, e0, e1, e2, -⟩ := idx_facts t
  show Gen.V m c main_v7 (((cfg0.win 5).blk t).view.emb (ix3 (0 : Fin 1) (0 : Fin 1) o)) = _
  refine congrArg _ (funext fun a => Fin.ext ?_)
  match a with
  | ⟨0, _⟩ => show win0_5.index t (0 : Fin 3) * 1 + 1 * 0 = t.val / 8; omega
  | ⟨1, _⟩ => show win0_5.index t (1 : Fin 3) * 1 + 1 * 0 = 0; omega
  | ⟨2, _⟩ => show win0_5.index t (2 : Fin 3) * 1024 + 1 * o.val = o.val; omega
/-- At (0, 0, o) it is the last token's query entry o of batch row t / 8. -/
theorem iblk5_arg (t : Fin cfg0.N) (o : Fin 1024) :
    Gen.iblk m c 5 t (ix3 (0 : Fin 1) (0 : Fin 1) o)
      = (∑ d : Fin 1024, A0 m c (ix3 (⟨t.val / 8, by have := lt32 t; omega⟩ : Fin 4) (⟨2047, by omega⟩ : Fin 2048) d) * A1 m c (ix2 o d)) + A2 m c (ix1 o) := by
  rw [iblk5, V_v7]

/-- The block of Woᵀ at any point is the whole array. -/
theorem iblk6 (t : Fin cfg0.N) (d o : Fin 1024) : Gen.iblk m c 6 t (ix2 d o) = Gen.V m c main_v13 (ix2 d o) := by
  obtain ⟨-, -, -, -, -, -, -, -, -, -, -, -, e0, e1, -⟩ := idx_facts t
  show Gen.V m c main_v13 (((cfg0.win 6).blk t).view.emb (ix2 d o)) = _
  refine congrArg _ (funext fun a => Fin.ext ?_)
  match a with
  | ⟨0, _⟩ => show win0_6.index t (0 : Fin 2) * 1024 + 1 * d.val = d.val; omega
  | ⟨1, _⟩ => show win0_6.index t (1 : Fin 2) * 1024 + 1 * o.val = o.val; omega
/-- At (d, o) it is Wo at (o, d). -/
theorem iblk6_arg (t : Fin cfg0.N) (d o : Fin 1024) : Gen.iblk m c 6 t (ix2 d o) = A7 m c (ix2 o d) := by
  rw [iblk6, V_v13]

/-- The block of bo at any point is the whole array. -/
theorem iblk7 (t : Fin cfg0.N) (o : Fin 1024) : Gen.iblk m c 7 t (ix1 o) = Gen.V m c main_arg8 (ix1 o) := by
  obtain ⟨-, -, -, -, -, -, -, -, -, -, -, -, -, -, e0⟩ := idx_facts t
  show Gen.V m c main_arg8 (((cfg0.win 7).blk t).view.emb (ix1 o)) = _
  refine congrArg _ (funext fun a => Fin.ext ?_)
  match a with
  | ⟨0, _⟩ => show win0_7.index t (0 : Fin 1) * 1024 + 1 * o.val = o.val; omega
theorem iblk7_arg (t : Fin cfg0.N) (o : Fin 1024) : Gen.iblk m c 7 t (ix1 o) = A8 m c (ix1 o) := by
  rw [iblk7, V_arg8]

end Cert.KernelHost

end
-- ==== Proof.FiniteArgs.lean ====
/-
  From the precondition to real numbers.

  The precondition says, array by array, that every entry's absolute value is below +∞.  Over the extended reals the
  absolute value of x is max x (−x), which is +∞ exactly at the two infinities, so every entry of every argument array
  is (the inclusion of) a real number: the entry equals the inclusion of its own real part.  The nine arrays, read that
  way, are the parameters of the attention function of AttnSpec.
-/
import proofs.«176754_j53403623358619_2_alg».proof.Defs
import proofs.«176754_j53403623358619_2_alg».proof.Proof.Gen.Pre_finite_inputs
import proofs.«176754_j53403623358619_2_alg».proof.Proof.AttnSpec
import Idealize.ShloMosaic.Lib.ReduceAll
import Idealize.ShloMosaic.Lib.ValueIdx

noncomputable section

namespace Cert.FiniteArgs

open Idealize.ShloMosaic Idealize.SL.Sem

/-- The scalar shape has one index. -/
instance : Subsingleton Cert.Pre_finite_inputs.S_.Idx := ⟨fun a b => funext fun d => d.elim0⟩

/-- The pattern of the positive infinity denotes the top element. -/
theorem top_bits : Ideal.ofBits .f32 0x7F800000#32 = ⊤ := by simp [Ideal.ofBits, Ideal.ieee]

/-- An extended real whose absolute value max x (−x) is below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : x = ((x.toReal : ℝ) : EReal) := by
  have h' : Ideal.cmp .olt (max x (-x)) (Ideal.ofBits .f32 0x7F800000#32) = 1#1 := h
  rw [top_bits] at h'
  unfold Ideal.cmp at h'
  induction x using EReal.rec with
  | bot => simp at h'
  | top => simp at h'
  | coe r => rfl

/-- One array: if the conjunction over all entries of "|x| < +∞" is true, every entry is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr hu ValueIdx.ix0 = 1#1) (i : s.Idx) :
    x i = (((x i).toReal : ℝ) : EReal) :=
  real_of_abs_lt (x i) (Host.reduce_andi_all _ _ hr hu _ e i)

/-- The nine argument arrays of a device, entry by entry, as real numbers. -/
def paramsOf (m : (ℓ : Loc Cert.KernelIdeal.nD Cert.KernelIdeal.τ Cert.KernelIdeal.sig) → Buf (Elt Ideal) ℓ)
    (c : Dev Cert.KernelIdeal.nD) : Cert.Attn.Params where
  x := fun b t d => (m ((c.tc : Thread Cert.KernelIdeal.nD Cert.KernelIdeal.τ).loc Cert.KernelIdeal.main_arg0) (ValueIdx.ix3 b t d)).toReal
  Wq := fun o d => (m ((c.tc : Thread Cert.KernelIdeal.nD Cert.KernelIdeal.τ).loc Cert.KernelIdeal.main_arg1) (ValueIdx.ix2 o d)).toReal
  bq := fun o => (m ((c.tc : Thread Cert.KernelIdeal.nD Cert.KernelIdeal.τ).loc Cert.KernelIdeal.main_arg2) (ValueIdx.ix1 o)).toReal
  Wk := fun o d => (m ((c.tc : Thread Cert.KernelIdeal.nD Cert.KernelIdeal.τ).loc Cert.KernelIdeal.main_arg3) (ValueIdx.ix2 o d)).toReal
  bk := fun o => (m ((c.tc : Thread Cert.KernelIdeal.nD Cert.KernelIdeal.τ).loc Cert.KernelIdeal.main_arg4) (ValueIdx.ix1 o)).toReal
  Wv := fun o d => (m ((c.tc : Thread Cert.KernelIdeal.nD Cert.KernelIdeal.τ).loc Cert.KernelIdeal.main_arg5) (ValueIdx.ix2 o d)).toReal
  bv := fun o => (m ((c.tc : Thread Cert.KernelIdeal.nD Cert.KernelIdeal.τ).loc Cert.KernelIdeal.main_arg6) (ValueIdx.ix1 o)).toReal
  Wo := fun o d => (m ((c.tc : Thread Cert.KernelIdeal.nD Cert.KernelIdeal.τ).loc Cert.KernelIdeal.main_arg7) (ValueIdx.ix2 o d)).toReal
  bo := fun o => (m ((c.tc : Thread Cert.KernelIdeal.nD Cert.KernelIdeal.τ).loc Cert.KernelIdeal.main_arg8) (ValueIdx.ix1 o)).toReal

/-- Under the precondition every entry of every argument array is the inclusion of the corresponding real parameter. -/
theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ b t d, m ((c.tc : Thread Cert.KernelIdeal.nD Cert.KernelIdeal.τ).loc Cert.KernelIdeal.main_arg0) (ValueIdx.ix3 b t d) = (((paramsOf m c).x b t d : ℝ) : EReal))
    ∧ (∀ o d, m ((c.tc : Thread Cert.KernelIdeal.nD Cert.KernelIdeal.τ).loc Cert.KernelIdeal.main_arg1) (ValueIdx.ix2 o d) = (((paramsOf m c).Wq o d : ℝ) : EReal))
    ∧ (∀ o, m ((c.tc : Thread Cert.KernelIdeal.nD Cert.KernelIdeal.τ).loc Cert.KernelIdeal.main_arg2) (ValueIdx.ix1 o) = (((paramsOf m c).bq o : ℝ) : EReal))
    ∧ (∀ o d, m ((c.tc : Thread Cert.KernelIdeal.nD Cert.KernelIdeal.τ).loc Cert.KernelIdeal.main_arg3) (ValueIdx.ix2 o d) = (((paramsOf m c).Wk o d : ℝ) : EReal))
    ∧ (∀ o, m ((c.tc : Thread Cert.KernelIdeal.nD Cert.KernelIdeal.τ).loc Cert.KernelIdeal.main_arg4) (ValueIdx.ix1 o) = (((paramsOf m c).bk o : ℝ) : EReal))
    ∧ (∀ o d, m ((c.tc : Thread Cert.KernelIdeal.nD Cert.KernelIdeal.τ).loc Cert.KernelIdeal.main_arg5) (ValueIdx.ix2 o d) = (((paramsOf m c).Wv o d : ℝ) : EReal))
    ∧ (∀ o, m ((c.tc : Thread Cert.KernelIdeal.nD Cert.KernelIdeal.τ).loc Cert.KernelIdeal.main_arg6) (ValueIdx.ix1 o) = (((paramsOf m c).bv o : ℝ) : EReal))
    ∧ (∀ o d, m ((c.tc : Thread Cert.KernelIdeal.nD Cert.KernelIdeal.τ).loc Cert.KernelIdeal.main_arg7) (ValueIdx.ix2 o d) = (((paramsOf m c).Wo o d : ℝ) : EReal))
    ∧ (∀ o, m ((c.tc : Thread Cert.KernelIdeal.nD Cert.KernelIdeal.τ).loc Cert.KernelIdeal.main_arg8) (ValueIdx.ix1 o) = (((paramsOf m c).bo o : ℝ) : EReal)) := by
  have h0 := congrFun (h c) ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨e0, e1⟩, e2⟩, e3⟩, e4⟩, e5⟩, e6⟩, e7⟩, e8⟩ := h0
  exact ⟨fun b t d => all_real _ _ _ _ e0 (ValueIdx.ix3 b t d),
    fun o d => all_real _ _ _ _ e1 (ValueIdx.ix2 o d),
    fun o => all_real _ _ _ _ e2 (ValueIdx.ix1 o),
    fun o d => all_real _ _ _ _ e3 (ValueIdx.ix2 o d),
    fun o => all_real _ _ _ _ e4 (ValueIdx.ix1 o),
    fun o d => all_real _ _ _ _ e5 (ValueIdx.ix2 o d),
    fun o => all_real _ _ _ _ e6 (ValueIdx.ix1 o),
    fun o d => all_real _ _ _ _ e7 (ValueIdx.ix2 o d),
    fun o => all_real _ _ _ _ e8 (ValueIdx.ix1 o)⟩

end Cert.FiniteArgs

end
-- ==== Proof.GridInputs.lean ====
/-
  What the body finds in its input blocks at grid point t = 8 b + j, in terms of the real input arrays: the tile j of
  batch row b of x, the (transposed) key, value and output weights with their biases, and the last token's query row of
  batch row b.  The precondition makes every entry of the nine argument arrays a real number; the blocks are the
  arrays at the blocks' places.
-/
import proofs.«176754_j53403623358619_2_alg».proof.Proof.KernelHostBlocks
import proofs.«176754_j53403623358619_2_alg».proof.Proof.FiniteArgs
import proofs.«176754_j53403623358619_2_alg».proof.Proof.StepReal

noncomputable section

namespace Cert.GridInputs

open Idealize.ShloMosaic Idealize.ShloMosaic.TcCoe Idealize.SL.Sem Idealize.ShloMosaic.ValueIdx
open Cert.KernelIdeal Cert.KernelIdeal.Gen Cert.KernelHost Cert.Attn

/-- The batch row of grid point `t`. -/
def bOf (t : Fin cfg0.N) : Fin 4 := ⟨t.val / 8, by have := lt32 t; omega⟩

/-- The tile of grid point `t`. -/
def jOf (t : Fin cfg0.N) : Fin 8 := ⟨t.val % 8, by omega⟩

variable (m : (ℓ : Loc nD τ sig) → Buf (Elt Ideal) ℓ)
  (hpre : Cert.Pre_KernelIdeal (hPre_finite_inputs := Cert.Pre_finite_inputs.Gen.facts) m) (c : Dev nD)

/-- The real input arrays. -/
abbrev P : Params := Cert.FiniteArgs.paramsOf m c

include hpre

theorem in_x (t : Fin cfg0.N) (r : Fin 256) (d : Fin 1024) :
    Gen.iblk m c 0 t (ix3 (0 : Fin 1) r d) = (((P m c).x (bOf t) (pos (jOf t) r) d : ℝ) : EReal) :=
  (iblk0_arg m c t r d).trans ((Cert.FiniteArgs.args_real m hpre c).1 _ _ d)

theorem in_Wk (t : Fin cfg0.N) (d o : Fin 1024) :
    Gen.iblk m c 1 t (ix2 d o) = (((P m c).Wk o d : ℝ) : EReal) :=
  (iblk1_arg m c t d o).trans ((Cert.FiniteArgs.args_real m hpre c).2.2.2.1 o d)

theorem in_bk (t : Fin cfg0.N) (o : Fin 1024) :
    Gen.iblk m c 2 t (ix1 o) = (((P m c).bk o : ℝ) : EReal) :=
  (iblk2_arg m c t o).trans ((Cert.FiniteArgs.args_real m hpre c).2.2.2.2.1 o)

theorem in_Wv (t : Fin cfg0.N) (d o : Fin 1024) :
    Gen.iblk m c 3 t (ix2 d o) = (((P m c).Wv o d : ℝ) : EReal) :=
  (iblk3_arg m c t d o).trans ((Cert.FiniteArgs.args_real m hpre c).2.2.2.2.2.1 o d)

theorem in_bv (t : Fin cfg0.N) (o : Fin 1024) :
    Gen.iblk m c 4 t (ix1 o) = (((P m c).bv o : ℝ) : EReal) :=
  (iblk4_arg m c t o).trans ((Cert.FiniteArgs.args_real m hpre c).2.2.2.2.2.2.1 o)

theorem in_Wo (t : Fin cfg0.N) (d o : Fin 1024) :
    Gen.iblk m c 6 t (ix2 d o) = (((P m c).Wo o d : ℝ) : EReal) :=
  (iblk6_arg m c t d o).trans ((Cert.FiniteArgs.args_real m hpre c).2.2.2.2.2.2.2.1 o d)

theorem in_bo (t : Fin cfg0.N) (o : Fin 1024) :
    Gen.iblk m c 7 t (ix1 o) = (((P m c).bo o : ℝ) : EReal) :=
  (iblk7_arg m c t o).trans ((Cert.FiniteArgs.args_real m hpre c).2.2.2.2.2.2.2.2 o)

/-- The query block is the last token's query row of the point's batch row. -/
theorem in_q (t : Fin cfg0.N) (o : Fin 1024) :
    Gen.iblk m c 5 t (ix3 (0 : Fin 1) (0 : Fin 1) o) = ((qv (P m c) (bOf t) o : ℝ) : EReal) :=
  (iblk5_arg m c t o).trans
    (Cert.StepReal.affine_eq (P m c).Wq (P m c).bq ((P m c).x (bOf t) lastPos)
      (fun d => A0 m c (ix3 (bOf t) lastPos d)) (fun d o => A1 m c (ix2 o d)) (fun o => A2 m c (ix1 o))
      (fun d => (Cert.FiniteArgs.args_real m hpre c).1 _ _ d)
      (fun d o => (Cert.FiniteArgs.args_real m hpre c).2.1 o d)
      (fun o => (Cert.FiniteArgs.args_real m hpre c).2.2.1 o) o)

end Cert.GridInputs

end
-- ==== Proof.KernelValue.lean ====
/-
  What the scratch rows and the output block hold after every grid point.

  Grid point t = 8 b + j works on tile j of batch row b.  After it, while j < 7, the three scratch rows hold the running
  maximum, sum of weights and weighted sum of value rows of batch row b over tiles 0 … j; after the last tile (j = 7) the
  output block holds the output row of batch row b.  By induction on t: a first tile starts afresh, a later tile
  continues from what the point before left.
-/
import proofs.«176754_j53403623358619_2_alg».proof.Proof.BodyMidReal
import proofs.«176754_j53403623358619_2_alg».proof.Proof.BodyFirstReal
import proofs.«176754_j53403623358619_2_alg».proof.Proof.BodyLastReal
import proofs.«176754_j53403623358619_2_alg».proof.Proof.GridInputs

set_option maxRecDepth 16384

noncomputable section

namespace Cert.KernelValue

open Idealize.ShloMosaic Idealize.ShloMosaic.TcCoe Idealize.SL Idealize.SL.Sem
open Idealize.ShloMosaic.ValueIdx Cert.KernelIdeal Cert.KernelIdeal.Gen Cert.KernelIdeal.Body
open Cert.Attn Cert.GridInputs Cert.KernelHost

variable (m : (ℓ : Loc nD τ sig) → Buf (Elt Ideal) ℓ)
  (hpre : Cert.Pre_KernelIdeal (hPre_finite_inputs := Cert.Pre_finite_inputs.Gen.facts) m) (c : Dev nD)

/-- The state after grid point `t`. -/
def Holds (t : Fin cfg0.N) : Prop :=
  (t.val % 8 ≠ 7 →
      (∀ h : Fin 16, (outsAt0 (F := Ideal) m c t.val t.isLt).2.1 (ix2 (0 : Fin 1) h)
          = ((mAt (P m c) (bOf t) h (jOf t) : ℝ) : EReal))
    ∧ (∀ h : Fin 16, (outsAt0 (F := Ideal) m c t.val t.isLt).2.2.1 (ix2 (0 : Fin 1) h)
          = ((lAt (P m c) (bOf t) h (jOf t) : ℝ) : EReal))
    ∧ (∀ (h : Fin 16) (d : Fin 64), (outsAt0 (F := Ideal) m c t.val t.isLt).2.2.2 (ix2 (0 : Fin 1) (colOf h d))
          = ((aAt (P m c) (bOf t) (jOf t) (colOf h d) : ℝ) : EReal)))
  ∧ (t.val % 8 = 7 →
      ∀ p : Fin 1024, (outsAt0 (F := Ideal) m c t.val t.isLt).1 (ix3 (0 : Fin 1) (0 : Fin 1) p)
          = ((out (P m c) (bOf t) p : ℝ) : EReal))

include hpre

/-- A first tile. -/
theorem step_first (t : Fin cfg0.N) (h0 : t.val % 8 = 0) : Holds m c t := by
  have h7 : ¬t.val % 8 = 7 := by omega
  refine ⟨fun _ => ?_, fun h => absurd h h7⟩
  rw [outsAt0_A m c t h0 h7]
  dsimp only
  exact first_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _)
    ((hcond0_0 t).mpr h0) (fun h => h7 ((hcond0_1 t).mp h)) (iblk m c 0 t) (iblk m c 1 t) (iblk m c 2 t) (iblk m c 3 t) (iblk m c 4 t) (iblk m c 5 t) (iblk m c 6 t) (iblk m c 7 t)
    (P m c) (bOf t) (jOf t) h0
    (fun r d => in_x m hpre c t r d) (fun d o => in_Wk m hpre c t d o) (fun o => in_bk m hpre c t o)
      (fun d o => in_Wv m hpre c t d o) (fun o => in_bv m hpre c t o) (fun o => in_q m hpre c t o)

/-- A middle tile, from the point before. -/
theorem step_mid (t : Fin cfg0.N) (h0 : ¬t.val % 8 = 0) (h7 : ¬t.val % 8 = 7)
    (prev : Holds m c ⟨t.val - 1, Nat.lt_of_le_of_lt (Nat.sub_le _ _) t.isLt⟩) : Holds m c t := by
  have hN := lt32 t
  have hprev := prev.1 (by show (t.val - 1) % 8 ≠ 7; omega)
  have ebt : bOf (⟨t.val - 1, Nat.lt_of_le_of_lt (Nat.sub_le _ _) t.isLt⟩ : Fin cfg0.N) = bOf t :=
    Fin.ext (by show (t.val - 1) / 8 = t.val / 8; omega)
  rw [ebt] at hprev
  refine ⟨fun _ => ?_, fun h => absurd h h7⟩
  rw [outsAt0_B m c t h0 h7]
  dsimp only
  exact mid_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _)
    (fun h => h0 ((hcond0_0 t).mp h)) (fun h => h7 ((hcond0_1 t).mp h)) (iblk m c 0 t) (iblk m c 1 t) (iblk m c 2 t) (iblk m c 3 t) (iblk m c 4 t) (iblk m c 5 t) (iblk m c 6 t) (iblk m c 7 t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    (P m c) (bOf t) (jOf ⟨t.val - 1, Nat.lt_of_le_of_lt (Nat.sub_le _ _) t.isLt⟩) (jOf t)
    (by show t.val % 8 = (t.val - 1) % 8 + 1; omega)
    (fun r d => in_x m hpre c t r d) (fun d o => in_Wk m hpre c t d o) (fun o => in_bk m hpre c t o)
      (fun d o => in_Wv m hpre c t d o) (fun o => in_bv m hpre c t o) (fun o => in_q m hpre c t o)
    hprev.1 hprev.2.1 hprev.2.2

/-- The last tile, from the point before. -/
theorem step_last (t : Fin cfg0.N) (h7 : t.val % 8 = 7)
    (prev : Holds m c ⟨t.val - 1, Nat.lt_of_le_of_lt (Nat.sub_le _ _) t.isLt⟩) : Holds m c t := by
  have hN := lt32 t
  have h0 : ¬t.val % 8 = 0 := by omega
  have hprev := prev.1 (by show (t.val - 1) % 8 ≠ 7; omega)
  have ebt : bOf (⟨t.val - 1, Nat.lt_of_le_of_lt (Nat.sub_le _ _) t.isLt⟩ : Fin cfg0.N) = bOf t :=
    Fin.ext (by show (t.val - 1) / 8 = t.val / 8; omega)
  rw [ebt] at hprev
  refine ⟨fun h => absurd h7 h, fun _ => ?_⟩
  rw [outsAt0_C m c t h0 h7]
  dsimp only
  exact last_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _)
    (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t)
    (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    (P m c) (bOf t) (jOf ⟨t.val - 1, Nat.lt_of_le_of_lt (Nat.sub_le _ _) t.isLt⟩) (jOf t)
    (by show t.val % 8 = (t.val - 1) % 8 + 1; omega) h7
    (fun r d => in_x m hpre c t r d) (fun d o => in_Wk m hpre c t d o) (fun o => in_bk m hpre c t o)
      (fun d o => in_Wv m hpre c t d o) (fun o => in_bv m hpre c t o) (fun o => in_q m hpre c t o)
    (fun d o => in_Wo m hpre c t d o) (fun o => in_bo m hpre c t o)
    hprev.1 hprev.2.1 hprev.2.2

/-- After every grid point. -/
theorem holds : ∀ (n : ℕ) (hn : n < cfg0.N), Holds m c ⟨n, hn⟩ := by
  intro n
  induction n with
  | zero => intro hn; exact step_first m hpre c ⟨0, hn⟩ rfl
  | succ n ih =>
    intro hn
    by_cases h0 : (n + 1) % 8 = 0
    · exact step_first m hpre c ⟨n + 1, hn⟩ h0
    · by_cases h7 : (n + 1) % 8 = 7
      · exact step_last m hpre c ⟨n + 1, hn⟩ h7 (ih (Nat.lt_of_succ_lt hn))
      · exact step_mid m hpre c ⟨n + 1, hn⟩ h0 h7 (ih (Nat.lt_of_succ_lt hn))

/-- The output row of batch row `b`, as grid point 8 b + 7 leaves it in the output block. -/
theorem out_block (b : Fin 4) (p : Fin 1024) :
    (outsAt0 (F := Ideal) m c (8 * b.val + 7) (lt_of_lt_of_eq (by have := b.isLt; omega) N_0.symm)).1
        (ix3 (0 : Fin 1) (0 : Fin 1) p) = ((out (P m c) b p : ℝ) : EReal) := by
  have hlt : 8 * b.val + 7 < cfg0.N := lt_of_lt_of_eq (by have := b.isLt; omega) N_0.symm
  have h := (holds m hpre c (8 * b.val + 7) hlt).2 (by show (8 * b.val + 7) % 8 = 7; omega) p
  have eb : bOf (⟨8 * b.val + 7, hlt⟩ : Fin cfg0.N) = b := Fin.ext (by show (8 * b.val + 7) / 8 = b.val; omega)
  rw [eb] at h
  exact h

end Cert.KernelValue

end
-- ==== Proof.KernelHost.lean ====
/-
  The host side of the kernel program around its region.
  • What the region's windows find, and the blocks they hand the body at each grid point, in terms of the nine argument
    arrays: the modules imported here.
  • After the region the host reshapes the region's output array [4, 1, 1024] to the program's result [4, 1024]:
    the result at (b, p) is the output array at (b, 0, p).
  • The output window is written back at the last tile of each batch row only (points 8 b + 7), and those four blocks
    are the four rows of the output array, so the output array's row b is what point 8 b + 7 left in its block.
-/
import proofs.«176754_j53403623358619_2_alg».proof.Proof.Gen.KernelIdeal.Frame
import proofs.«176754_j53403623358619_2_alg».proof.Proof.KernelHostBlocks

set_option maxRecDepth 16384

noncomputable section

namespace Cert.KernelHost

open Idealize.ShloMosaic Idealize.ShloMosaic.TcCoe Idealize.ShloMosaic.Tactic Idealize.ShloMosaic.ValueIdx
open Cert.KernelIdeal Cert.KernelIdeal.Gen

variable (m : (ℓ : Loc nD τ sig) → Buf (Elt Ideal) ℓ) (c : Dev nD)

/-! ## The host operation after the region -/

/-- The program's result is the region's output array, reshaped. -/
theorem tail_term : @Eq (FVec Ideal S4x1024 .f32)
    (Pipeline.afterTail₀ cfgs (Gen.dats m) 0 (Gen.V0 m) [Gen.hostOps1] c main_v15)
    (shapeCast S4x1024 ((Gen.dats m 0 c).arrAt 8 cfg0.N) shapeCasts_S4x1x1024_S4x1024) := by
  unfold Pipeline.afterTail₀
  show StableHlo.after hostOps1 _ (Proc.devRef .tc main_v15) = _
  after_results
  exact congrArg (fun X : FVec Ideal S4x1x1024 .f32 => shapeCast S4x1024 X shapeCasts_S4x1x1024_S4x1024)
    (Pipeline.withArrays_arr spec0 launch0.win.arr_inj c (Gen.V0 m c) (fun w => (Gen.dats m 0 c).arrAt w cfg0.N) 8)

/-- The program's result at (b, p) is the output array at (b, 0, p). -/
theorem tail_apply (b : Fin 4) (p : Fin 1024) :
    Pipeline.afterTail₀ cfgs (Gen.dats m) 0 (Gen.V0 m) [Gen.hostOps1] c main_v15 (ix2 b p)
      = (Gen.dats m 0 c).arrAt 8 cfg0.N (ix3 b (0 : Fin 1) p) := by
  rw [tail_term]
  exact shapeCast_apply _ shapeCasts_S4x1x1024_S4x1024 (ix2 b p) (ix3 b (0 : Fin 1) p) (by
    rw [Shape.rowMajor_val_two, Shape.rowMajor_val_three]
    show (b.val * 1 + 0) * 1024 + p.val = b.val * 1024 + p.val
    omega)

/-! ## The output array, row by row -/

/-- The output window's block index at every grid point: (t / 8, 0, 0). -/
theorem idx_facts8 : ∀ t : Fin cfg0.N,
    win0_8.index t (0 : Fin 3) = t.val / 8 ∧ win0_8.index t (1 : Fin 3) = 0 ∧ win0_8.index t (2 : Fin 3) = 0 :=
  (by decide +kernel : ∀ t : Fin grid0.N, _)

/-- An index of the output array is in point t's block iff each coordinate is in the block's range on its axis. -/
theorem mem_blk8 (t : Fin cfg0.N) (i : S4x1x1024.Idx) :
    i ∈ ((cfg0.win 8).blk t).view.set
      ↔ ∀ a : Fin 3, win0_8.index t a * S1x1x1024.size a ≤ (i a).val ∧ (i a).val < win0_8.index t a * S1x1x1024.size a + S1x1x1024.size a := by
  show i ∈ ((View.whole main_v14).slice (win0_8.rect t)).set ↔ _
  rw [View.set_slice_whole, Rect.mem_set_unit]
  exact Iff.rfl

/-- Two different points that write the output back write different rows. -/
theorem disj8 : ∀ t t' : Fin cfg0.N, (cfg0.win 8).flush t = true → (cfg0.win 8).flush t' = true → t ≠ t' →
    Disjoint ((cfg0.win 8).blk t).view.set ((cfg0.win 8).blk t').view.set := by
  intro t t' hf hf' hne
  rw [Finset.disjoint_left]
  intro i hi hi'
  rw [mem_blk8] at hi hi'
  obtain ⟨e0, -⟩ := idx_facts8 t
  obtain ⟨e0', -⟩ := idx_facts8 t'
  have b0 : win0_8.index t (0 : Fin 3) * 1 ≤ (i 0).val ∧ (i 0).val < win0_8.index t (0 : Fin 3) * 1 + 1 := hi 0
  have b0' : win0_8.index t' (0 : Fin 3) * 1 ≤ (i 0).val ∧ (i 0).val < win0_8.index t' (0 : Fin 3) * 1 + 1 := hi' 0
  have h7 := (flush0_8 t).mp hf
  have h7' := (flush0_8 t').mp hf'
  exact hne (Fin.ext (by omega))

/-- Row b of the output array after the run is what point 8 b + 7 left in the output window's block. -/
theorem out_row (b : Fin 4) (p : Fin 1024) :
    (Gen.dats m 0 c).arrAt 8 cfg0.N (ix3 b (0 : Fin 1) p)
      = (Gen.outsAt0 m c (8 * b.val + 7) (lt_of_lt_of_eq (by have := b.isLt; omega) N_0.symm)).1 (ix3 (0 : Fin 1) (0 : Fin 1) p) := by
  have hlt : 8 * b.val + 7 < cfg0.N := lt_of_lt_of_eq (by have := b.isLt; omega) N_0.symm
  have hf : (cfg0.win 8).flush ⟨8 * b.val + 7, hlt⟩ = true := (flush0_8 ⟨8 * b.val + 7, hlt⟩).mpr (by show (8 * b.val + 7) % 8 = 7; omega)
  have h := (Gen.dats m 0 c).arrAt_emb_eq_flushed 8 disj8 ⟨8 * b.val + 7, hlt⟩ hf (ix3 (0 : Fin 1) (0 : Fin 1) p)
  obtain ⟨e0, e1, e2⟩ := idx_facts8 ⟨8 * b.val + 7, hlt⟩
  have he : ((cfg0.win 8).blk ⟨8 * b.val + 7, hlt⟩).view.emb (ix3 (0 : Fin 1) (0 : Fin 1) p) = ix3 b (0 : Fin 1) p :=
    funext fun a => Fin.ext (by
      match a with
      | ⟨0, _⟩ => show win0_8.index ⟨8 * b.val + 7, hlt⟩ (0 : Fin 3) * 1 + 1 * 0 = b.val; rw [e0]; show (8 * b.val + 7) / 8 * 1 + 1 * 0 = b.val; omega
      | ⟨1, _⟩ => show win0_8.index ⟨8 * b.val + 7, hlt⟩ (1 : Fin 3) * 1 + 1 * 0 = 0; omega
      | ⟨2, _⟩ => show win0_8.index ⟨8 * b.val + 7, hlt⟩ (2 : Fin 3) * 1024 + 1 * p.val = p.val; omega)
  rw [he] at h
  rw [h]
  show (Gen.dats m 0 c).after 8 ⟨8 * b.val + 7, hlt⟩ (ix3 (0 : Fin 1) (0 : Fin 1) p) = _
  rw [after0_8]

/-- The program's result at (b, p) is what point 8 b + 7 left in the output window's block, at (0, 0, p). -/
theorem result_apply (b : Fin 4) (p : Fin 1024) :
    Pipeline.afterTail₀ cfgs (Gen.dats m) 0 (Gen.V0 m) [Gen.hostOps1] c main_v15 (ix2 b p)
      = (Gen.outsAt0 m c (8 * b.val + 7) (lt_of_lt_of_eq (by have := b.isLt; omega) N_0.symm)).1 (ix3 (0 : Fin 1) (0 : Fin 1) p) := by
  rw [tail_apply, out_row]

end Cert.KernelHost

end
-- ==== Proof.RefProj.lean ====
/-
  The reference's three projections, read at an index.

  Each of q, k, v is a row of x against the rows of a weight matrix plus a bias, then cut into 16 heads of 64 lanes
  and the head axis moved in front of the sequence axis: at (b, h, t, d) it is the projected row of position t at
  column 64h + d. With every input entry a real number, the value is the coercion of the real `lin W b (x b t) (col h d)`.
-/
import proofs.«176754_j53403623358619_2_alg».proof.Proof.Gen.ReferenceIdeal.Read
import proofs.«176754_j53403623358619_2_alg».proof.Proof.AttnSpec

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo
open Cert.Attn

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of products of coerced reals is the coercion of the real sum of products. -/
theorem sum_mul_coe {ι : Type*} [Fintype ι] (f g : ι → ℝ) :
    (∑ i, ((f i : ℝ) : EReal) * ((g i : ℝ) : EReal)) = ((∑ i, f i * g i : ℝ) : EReal) := by
  rw [coe_sum]
  exact Finset.sum_congr rfl fun i _ => (EReal.coe_mul _ _).symm

section Lin

variable (A0 : (⟨S4x2048x1024, .f32⟩ : BufTy).Contents (Elt Ideal))
  (AW : (⟨S1024x1024, .f32⟩ : BufTy).Contents (Elt Ideal))
  (Ab : (⟨S1024, .f32⟩ : BufTy).Contents (Elt Ideal))
  (x : Fin 4 → Fin 2048 → Fin 1024 → ℝ) (W : Fin 1024 → Fin 1024 → ℝ) (bias : Fin 1024 → ℝ)
  (hA0 : ∀ b t d, A0 (ValueIdx.ix3 b t d) = ((x b t d : ℝ) : EReal))
  (hAW : ∀ o d, AW (ValueIdx.ix2 o d) = ((W o d : ℝ) : EReal))
  (hAb : ∀ o, Ab (ValueIdx.ix1 o) = ((bias o : ℝ) : EReal))

include hA0 hAW hAb

/-- A projected row, before the cut into heads: position t, column o. -/
theorem proj_apply (b : Fin 4) (t : Fin 2048) (o : Fin 1024) :
    val_main_v3 (F := Ideal) A0 AW Ab (ValueIdx.ix3 b t o) = ((lin W bias (x b t) o : ℝ) : EReal) := by
  have el : ∀ k : Fin 1024, lidx_main_v0 (ValueIdx.ix3 b t o) k = ValueIdx.ix3 b t k := fun k =>
    funext fun a => Fin.ext (by match a with | ⟨0, _⟩ => rfl | ⟨1, _⟩ => rfl | ⟨2, _⟩ => rfl)
  have er : ∀ k : Fin 1024, ridx_main_v0 (ValueIdx.ix3 b t o) k = ValueIdx.ix2 o k := fun k =>
    funext fun a => Fin.ext (by match a with | ⟨0, _⟩ => rfl | ⟨1, _⟩ => rfl)
  have eb : idx_main_v1 (idx_main_v2 (ValueIdx.ix3 b t o)) = ValueIdx.ix1 o :=
    funext fun a => Fin.ext (by match a with | ⟨0, _⟩ => rfl)
  rw [val_main_v3_apply, val_main_v0_apply, val_main_v2_apply, val_main_v1_apply, eb, hAb]
  simp only [el, er, hA0, hAW, Ideal.addf_def]
  rw [sum_mul_coe, ← EReal.coe_add]
  rfl

/-- A projection cut into heads with the head axis in front: at (b, h, t, d) the projected row of position t at
    column 64h + d. -/
theorem heads_apply (b : Fin 4) (h : Fin 16) (t : Fin 2048) (d : Fin 64) :
    val_main_v5 (F := Ideal) A0 AW Ab (ValueIdx.ix4 b h t d) = ((lin W bias (x b t) (col h d) : ℝ) : EReal) := by
  have e : idx_main_v4 (idx_main_v5 (ValueIdx.ix4 b h t d)) = ValueIdx.ix3 b t (col h d) :=
    funext fun a => Fin.ext (by
      have hb := b.isLt; have hh := h.isLt; have ht := t.isLt; have hd := d.isLt
      match a with
      | ⟨0, _⟩ => show (((b.val * 2048 + t.val) * 16 + h.val) * 64 + d.val) / 2097152 = b.val; omega
      | ⟨1, _⟩ => show (((b.val * 2048 + t.val) * 16 + h.val) * 64 + d.val) / 1024 % 2048 = t.val; omega
      | ⟨2, _⟩ => show (((b.val * 2048 + t.val) * 16 + h.val) * 64 + d.val) % 1024 = 64 * h.val + d.val; omega)
  rw [val_main_v5_apply, val_main_v4_apply, e]
  exact proj_apply A0 AW Ab x W bias hA0 hAW hAb b t (col h d)

end Lin

end Cert.RefValue

end
-- ==== Proof.RefSoftmax.lean ====
/-
  The reference's softmax over the sequence, read at the last position.

  With the nine argument buffers the coercions of the nine real arrays, at (b, h, 2047, s): the scaled score of position s
  in head h is the coercion of `score`, the row's maximum that of `smax`, the exponential of the difference that of `wt`,
  and the row's sum of those that of `den`.
-/
import proofs.«176754_j53403623358619_2_alg».proof.Proof.RefProj

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo
open Cert.Attn

/-- The nine argument buffers hold the coercions of the nine real arrays. -/
structure Holds (P : Params)
    (A0 : (⟨S4x2048x1024, .f32⟩ : BufTy).Contents (Elt Ideal))
    (A1 : (⟨S1024x1024, .f32⟩ : BufTy).Contents (Elt Ideal)) (A2 : (⟨S1024, .f32⟩ : BufTy).Contents (Elt Ideal))
    (A3 : (⟨S1024x1024, .f32⟩ : BufTy).Contents (Elt Ideal)) (A4 : (⟨S1024, .f32⟩ : BufTy).Contents (Elt Ideal))
    (A5 : (⟨S1024x1024, .f32⟩ : BufTy).Contents (Elt Ideal)) (A6 : (⟨S1024, .f32⟩ : BufTy).Contents (Elt Ideal))
    (A7 : (⟨S1024x1024, .f32⟩ : BufTy).Contents (Elt Ideal)) (A8 : (⟨S1024, .f32⟩ : BufTy).Contents (Elt Ideal)) : Prop where
  x : ∀ b t d, A0 (ValueIdx.ix3 b t d) = ((P.x b t d : ℝ) : EReal)
  Wq : ∀ o d, A1 (ValueIdx.ix2 o d) = ((P.Wq o d : ℝ) : EReal)
  bq : ∀ o, A2 (ValueIdx.ix1 o) = ((P.bq o : ℝ) : EReal)
  Wk : ∀ o d, A3 (ValueIdx.ix2 o d) = ((P.Wk o d : ℝ) : EReal)
  bk : ∀ o, A4 (ValueIdx.ix1 o) = ((P.bk o : ℝ) : EReal)
  Wv : ∀ o d, A5 (ValueIdx.ix2 o d) = ((P.Wv o d : ℝ) : EReal)
  bv : ∀ o, A6 (ValueIdx.ix1 o) = ((P.bv o : ℝ) : EReal)
  Wo : ∀ o d, A7 (ValueIdx.ix2 o d) = ((P.Wo o d : ℝ) : EReal)
  bo : ∀ o, A8 (ValueIdx.ix1 o) = ((P.bo o : ℝ) : EReal)

/-- The square root of the word that denotes 64 is 8. -/
theorem sqrt_sixtyfour : Ideal.sqrt (Ideal.ofBits .f32 0x42800000#32) = ((8 : ℝ) : EReal) := by
  have h64 : Ideal.ofBits .f32 0x42800000#32 = ((64 : ℝ) : EReal) := by
    simp [Ideal.ofBits, Ideal.ieee, -EReal.coe_mul]; norm_num
  rw [h64, Ideal.sqrt_coe, if_neg (by norm_num)]
  congr 1
  rw [show (64 : ℝ) = 8 ^ 2 by norm_num, Real.sqrt_sq (by norm_num)]

/-- The word of minus infinity is the bottom element. -/
theorem ofBits_neg_inf : Ideal.ofBits .f32 0xFF800000#32 = (⊥ : EReal) := by
  simp [Ideal.ofBits, Ideal.ieee]

/-- The zero word is zero. -/
theorem ofBits_zero : Ideal.ofBits .f32 0x00000000#32 = (0 : EReal) := by
  simp [Ideal.ofBits, Ideal.ieee]

/-- The maximum from the bottom element over a nonempty finite family of coerced reals is the coercion of the reals' maximum. -/
theorem fold_max_bot_coe {ι : Type*} [Fintype ι] [Nonempty ι] (f : ι → ℝ) :
    (Finset.univ : Finset ι).fold max (⊥ : EReal) (fun k => ((f k : ℝ) : EReal))
      = ((Finset.univ.sup' Finset.univ_nonempty f : ℝ) : EReal) := by
  have h1 : (Finset.univ : Finset ι).fold max (⊥ : EReal) (fun k => ((f k : ℝ) : EReal))
      = Finset.univ.sup (fun k => ((f k : ℝ) : EReal)) := rfl
  rw [h1, ← Finset.sup'_eq_sup Finset.univ_nonempty]
  exact (Finset.comp_sup'_eq_sup'_comp Finset.univ_nonempty (fun r : ℝ => (r : EReal))
    (fun a b => EReal.coe_strictMono.monotone.map_max)).symm

section Stages

variable {P : Params}
  {A0 : (⟨S4x2048x1024, .f32⟩ : BufTy).Contents (Elt Ideal)}
  {A1 : (⟨S1024x1024, .f32⟩ : BufTy).Contents (Elt Ideal)} {A2 : (⟨S1024, .f32⟩ : BufTy).Contents (Elt Ideal)}
  {A3 : (⟨S1024x1024, .f32⟩ : BufTy).Contents (Elt Ideal)} {A4 : (⟨S1024, .f32⟩ : BufTy).Contents (Elt Ideal)}
  {A5 : (⟨S1024x1024, .f32⟩ : BufTy).Contents (Elt Ideal)} {A6 : (⟨S1024, .f32⟩ : BufTy).Contents (Elt Ideal)}
  {A7 : (⟨S1024x1024, .f32⟩ : BufTy).Contents (Elt Ideal)} {A8 : (⟨S1024, .f32⟩ : BufTy).Contents (Elt Ideal)}
  (H : Holds P A0 A1 A2 A3 A4 A5 A6 A7 A8)

include H

/-- The query in heads at the last position. -/
theorem q_apply (b : Fin 4) (h : Fin 16) (d : Fin 64) :
    val_main_v5 (F := Ideal) A0 A1 A2 (ValueIdx.ix4 b h lastPos d) = ((qv P b (col h d) : ℝ) : EReal) :=
  heads_apply A0 A1 A2 P.x P.Wq P.bq H.x H.Wq H.bq b h lastPos d

/-- The keys in heads. -/
theorem k_apply (b : Fin 4) (h : Fin 16) (s : Fin 2048) (d : Fin 64) :
    val_main_v11 (F := Ideal) A0 A3 A4 (ValueIdx.ix4 b h s d) = ((kv P b s (col h d) : ℝ) : EReal) :=
  heads_apply A0 A3 A4 P.x P.Wk P.bk H.x H.Wk H.bk b h s d

/-- The values in heads. -/
theorem v_apply (b : Fin 4) (h : Fin 16) (s : Fin 2048) (d : Fin 64) :
    val_main_v17 (F := Ideal) A0 A5 A6 (ValueIdx.ix4 b h s d) = ((vv P b s (col h d) : ℝ) : EReal) :=
  heads_apply A0 A5 A6 P.x P.Wv P.bv H.x H.Wv H.bv b h s d

/-- The scaled scores of the last position. -/
theorem score_apply (b : Fin 4) (h : Fin 16) (s : Fin 2048) :
    val_main_v21 (F := Ideal) A0 A1 A2 A3 A4 (ValueIdx.ix4 b h lastPos s) = ((score P b h s : ℝ) : EReal) := by
  have el : ∀ k : Fin 64, lidx_main_v18 (ValueIdx.ix4 b h lastPos s) k = ValueIdx.ix4 b h lastPos k := fun k =>
    funext fun a => Fin.ext (by match a with | ⟨0, _⟩ => rfl | ⟨1, _⟩ => rfl | ⟨2, _⟩ => rfl | ⟨3, _⟩ => rfl)
  have er : ∀ k : Fin 64, ridx_main_v18 (ValueIdx.ix4 b h lastPos s) k = ValueIdx.ix4 b h s k := fun k =>
    funext fun a => Fin.ext (by match a with | ⟨0, _⟩ => rfl | ⟨1, _⟩ => rfl | ⟨2, _⟩ => rfl | ⟨3, _⟩ => rfl)
  rw [val_main_v21_apply, val_main_v18_apply, val_main_v20_apply, val_main_v19_apply, val_main_cst_apply]
  simp only [el, er, q_apply H, k_apply H, Ideal.hostDivf_def, Ideal.hostUnary_sqrt_def, Ideal.ofBits_def]
  rw [sum_mul_coe, sqrt_sixtyfour, Ideal.div_coe (by norm_num), ← EReal.coe_mul]
  congr 1
  unfold score
  ring

/-- The row's maximum at the last position. -/
theorem max_apply (b : Fin 4) (h : Fin 16) :
    val_main_v24 (F := Ideal) A0 A1 A2 A3 A4 (ValueIdx.ix3 b h lastPos) = ((smax P b h : ℝ) : EReal) := by
  have hr : S4x16x2048x2048.Reduces [3] S4x16x2048 := by decide
  have e22 : val_main_v22 (F := Ideal) A0 A1 A2 A3 A4 (ValueIdx.ix3 b h lastPos) = ((smax P b h : ℝ) : EReal) := by
    unfold val_main_v22
    rw [Host.reduce_eq_fold_single FloatOps.maximumf _ _ reducesTo_S4x16x2048x2048_S4x16x2048_d3 hr h_S_]
    have ef : (val_main_v21 (F := Ideal) A0 A1 A2 A3 A4 ∘ hr.lift (ValueIdx.ix3 b h lastPos))
        = fun k : Fin 2048 => ((score P b h k : ℝ) : EReal) := by
      funext k
      have ek : hr.lift (ValueIdx.ix3 b h lastPos) k = ValueIdx.ix4 b h lastPos k :=
        funext fun a => Fin.ext (by match a with | ⟨0, _⟩ => rfl | ⟨1, _⟩ => rfl | ⟨2, _⟩ => rfl | ⟨3, _⟩ => rfl)
      exact (congrArg (val_main_v21 (F := Ideal) A0 A1 A2 A3 A4) ek).trans (score_apply H b h k)
    rw [ef, val_main_cst_0_apply, Ideal.ofBits_def, ofBits_neg_inf]
    exact fold_max_bot_coe (score P b h)
  rw [val_main_v24_apply, e22, val_main_v23_apply, val_main_cst_1_apply, Ideal.ofBits_def, ofBits_neg_inf, Ideal.maximumf_def]
  exact max_eq_right bot_le

/-- The weights of the last position: the exponential of the score less the row's maximum. -/
theorem wt_apply (b : Fin 4) (h : Fin 16) (s : Fin 2048) :
    val_main_v28 (F := Ideal) A0 A1 A2 A3 A4 (ValueIdx.ix4 b h lastPos s) = ((wt P b h s : ℝ) : EReal) := by
  have e : idx_main_v25 (idx_main_v26 (ValueIdx.ix4 b h lastPos s)) = ValueIdx.ix3 b h lastPos :=
    funext fun a => Fin.ext (by match a with | ⟨0, _⟩ => rfl | ⟨1, _⟩ => rfl | ⟨2, _⟩ => rfl)
  rw [val_main_v28_apply, val_main_v27_apply, val_main_v26_apply, val_main_v25_apply, e, max_apply H, score_apply H,
    Ideal.hostUnary_exp_def, Ideal.subf_def, ← EReal.coe_sub, Ideal.exp_coe]
  rfl

/-- The sum of the weights of the last position. -/
theorem den_apply (b : Fin 4) (h : Fin 16) :
    val_main_v29 (F := Ideal) A0 A1 A2 A3 A4 (ValueIdx.ix3 b h lastPos) = ((den P b h : ℝ) : EReal) := by
  have e : ∀ k : Fin 2048, idx_main_v29 (ValueIdx.ix3 b h lastPos) k = ValueIdx.ix4 b h lastPos k := fun k =>
    funext fun a => Fin.ext (by match a with | ⟨0, _⟩ => rfl | ⟨1, _⟩ => rfl | ⟨2, _⟩ => rfl | ⟨3, _⟩ => rfl)
  rw [val_main_v29_apply, val_main_cst_2_apply, Ideal.ofBits_def, ofBits_zero, zero_add]
  simp only [e, wt_apply H]
  rw [← coe_sum]
  rfl

end Stages

/-- The sum of the weights is positive. -/
theorem den_pos (P : Params) (b : Fin 4) (h : Fin 16) : 0 < den P b h :=
  Finset.sum_pos (fun s _ => Real.exp_pos _) Finset.univ_nonempty

end Cert.RefValue

end
-- ==== Proof.RefValue.lean ====
/-
  What the reference computes: at (b, p) the coercion of `Cert.Attn.out P b p`.

  The normalised weights against the values give the attended row head by head; moving the head axis back and joining
  heads and lanes gives the row of width 1024 (column o belongs to head o / 64, lane o % 64); the output projection and
  the slice at the last position finish.
-/
import proofs.«176754_j53403623358619_2_alg».proof.Proof.RefSoftmax

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo
open Cert.Attn

section Stages

variable {P : Params}
  {A0 : (⟨S4x2048x1024, .f32⟩ : BufTy).Contents (Elt Ideal)}
  {A1 : (⟨S1024x1024, .f32⟩ : BufTy).Contents (Elt Ideal)} {A2 : (⟨S1024, .f32⟩ : BufTy).Contents (Elt Ideal)}
  {A3 : (⟨S1024x1024, .f32⟩ : BufTy).Contents (Elt Ideal)} {A4 : (⟨S1024, .f32⟩ : BufTy).Contents (Elt Ideal)}
  {A5 : (⟨S1024x1024, .f32⟩ : BufTy).Contents (Elt Ideal)} {A6 : (⟨S1024, .f32⟩ : BufTy).Contents (Elt Ideal)}
  {A7 : (⟨S1024x1024, .f32⟩ : BufTy).Contents (Elt Ideal)} {A8 : (⟨S1024, .f32⟩ : BufTy).Contents (Elt Ideal)}
  (H : Holds P A0 A1 A2 A3 A4 A5 A6 A7 A8)

include H

/-- The normalised weights of the last position. -/
theorem attn_apply (b : Fin 4) (h : Fin 16) (s : Fin 2048) :
    val_main_v32 (F := Ideal) A0 A1 A2 A3 A4 (ValueIdx.ix4 b h lastPos s) = ((wt P b h s / den P b h : ℝ) : EReal) := by
  have e : idx_main_v30 (idx_main_v31 (ValueIdx.ix4 b h lastPos s)) = ValueIdx.ix3 b h lastPos :=
    funext fun a => Fin.ext (by match a with | ⟨0, _⟩ => rfl | ⟨1, _⟩ => rfl | ⟨2, _⟩ => rfl)
  rw [val_main_v32_apply, val_main_v31_apply, val_main_v30_apply, e, den_apply H, wt_apply H, Ideal.hostDivf_def,
    Ideal.div_coe (den_pos P b h).ne', ← EReal.coe_mul, mul_one_div]

/-- The attended row of the last position, head by head. -/
theorem ctxHeads_apply (b : Fin 4) (h : Fin 16) (d : Fin 64) :
    val_main_v33 (F := Ideal) A0 A1 A2 A3 A4 A5 A6 (ValueIdx.ix4 b h lastPos d)
      = ((∑ s, wt P b h s / den P b h * vv P b s (col h d) : ℝ) : EReal) := by
  have el : ∀ k : Fin 2048, lidx_main_v33 (ValueIdx.ix4 b h lastPos d) k = ValueIdx.ix4 b h lastPos k := fun k =>
    funext fun a => Fin.ext (by match a with | ⟨0, _⟩ => rfl | ⟨1, _⟩ => rfl | ⟨2, _⟩ => rfl | ⟨3, _⟩ => rfl)
  have er : ∀ k : Fin 2048, ridx_main_v33 (ValueIdx.ix4 b h lastPos d) k = ValueIdx.ix4 b h k d := fun k =>
    funext fun a => Fin.ext (by match a with | ⟨0, _⟩ => rfl | ⟨1, _⟩ => rfl | ⟨2, _⟩ => rfl | ⟨3, _⟩ => rfl)
  rw [val_main_v33_apply]
  simp only [el, er, attn_apply H, v_apply H]
  rw [sum_mul_coe]

/-- The attended row of the last position, heads and lanes joined: column o. -/
theorem ctx_apply (b : Fin 4) (o : Fin 1024) :
    val_main_v35 (F := Ideal) A0 A1 A2 A3 A4 A5 A6 (ValueIdx.ix3 b lastPos o) = ((ctx P b o : ℝ) : EReal) := by
  have ho := o.isLt
  have hb := b.isLt
  have e : idx_main_v34 (idx_main_v35 (ValueIdx.ix3 b lastPos o))
      = ValueIdx.ix4 b (hd o) lastPos (⟨o.val % 64, Nat.mod_lt _ (by norm_num)⟩ : Fin 64) :=
    funext fun a => Fin.ext (by
      match a with
      | ⟨0, _⟩ => show ((b.val * 2048 + 2047) * 1024 + o.val) / 2097152 = b.val; omega
      | ⟨1, _⟩ => show ((b.val * 2048 + 2047) * 1024 + o.val) / 64 % 16 = o.val / 64; omega
      | ⟨2, _⟩ => show ((b.val * 2048 + 2047) * 1024 + o.val) / 1024 % 2048 = 2047; omega
      | ⟨3, _⟩ => show ((b.val * 2048 + 2047) * 1024 + o.val) % 64 = o.val % 64; omega)
  have ec : col (hd o) (⟨o.val % 64, Nat.mod_lt _ (by norm_num)⟩ : Fin 64) = o :=
    Fin.ext (by show 64 * (o.val / 64) + o.val % 64 = o.val; omega)
  rw [val_main_v35_apply, val_main_v34_apply, e, ctxHeads_apply H, ec]
  rfl

/-- The output projection of the attended row of the last position. -/
theorem outRow_apply (b : Fin 4) (p : Fin 1024) :
    val_main_v39 (F := Ideal) A0 A1 A2 A3 A4 A5 A6 A7 A8 (ValueIdx.ix3 b lastPos p) = ((out P b p : ℝ) : EReal) := by
  have el : ∀ k : Fin 1024, lidx_main_v36 (ValueIdx.ix3 b lastPos p) k = ValueIdx.ix3 b lastPos k := fun k =>
    funext fun a => Fin.ext (by match a with | ⟨0, _⟩ => rfl | ⟨1, _⟩ => rfl | ⟨2, _⟩ => rfl)
  have er : ∀ k : Fin 1024, ridx_main_v36 (ValueIdx.ix3 b lastPos p) k = ValueIdx.ix2 p k := fun k =>
    funext fun a => Fin.ext (by match a with | ⟨0, _⟩ => rfl | ⟨1, _⟩ => rfl)
  have eb : idx_main_v37 (idx_main_v38 (ValueIdx.ix3 b lastPos p)) = ValueIdx.ix1 p :=
    funext fun a => Fin.ext (by match a with | ⟨0, _⟩ => rfl)
  rw [val_main_v39_apply, val_main_v36_apply, val_main_v38_apply, val_main_v37_apply, eb, H.bo]
  simp only [el, er, ctx_apply H, H.Wo, Ideal.addf_def]
  rw [sum_mul_coe, ← EReal.coe_add]
  rfl

/-- The reference's result at (b, p). -/
theorem result_apply (b : Fin 4) (p : Fin 1024) :
    val_main_v41 (F := Ideal) A0 A1 A2 A3 A4 A5 A6 A7 A8 (ValueIdx.ix2 b p) = ((out P b p : ℝ) : EReal) := by
  have hb := b.isLt
  have hp := p.isLt
  have e : idx_main_v40 (idx_main_v41 (ValueIdx.ix2 b p)) = ValueIdx.ix3 b lastPos p :=
    funext fun a => Fin.ext (by
      match a with
      | ⟨0, _⟩ => show (b.val * 1024 + p.val) / 1024 = b.val; omega
      | ⟨1, _⟩ => rfl
      | ⟨2, _⟩ => show (b.val * 1024 + p.val) % 1024 = p.val; omega)
  rw [val_main_v41_apply, val_main_v40_apply, e, outRow_apply H]

end Stages

/-- The array the reference returns, as a function of the index: the coercion of `Cert.Attn.out`. -/
def outBuf (P : Params) : (⟨S4x1024, .f32⟩ : BufTy).Contents (Elt Ideal) :=
  fun i => ((out P (i 0) (i 1) : ℝ) : EReal)

theorem outBuf_apply (P : Params) (b : Fin 4) (p : Fin 1024) :
    outBuf P (ValueIdx.ix2 b p) = ((out P b p : ℝ) : EReal) := rfl

section Final

variable (P : Params)
  {A0 : (⟨S4x2048x1024, .f32⟩ : BufTy).Contents (Elt Ideal)}
  {A1 : (⟨S1024x1024, .f32⟩ : BufTy).Contents (Elt Ideal)} {A2 : (⟨S1024, .f32⟩ : BufTy).Contents (Elt Ideal)}
  {A3 : (⟨S1024x1024, .f32⟩ : BufTy).Contents (Elt Ideal)} {A4 : (⟨S1024, .f32⟩ : BufTy).Contents (Elt Ideal)}
  {A5 : (⟨S1024x1024, .f32⟩ : BufTy).Contents (Elt Ideal)} {A6 : (⟨S1024, .f32⟩ : BufTy).Contents (Elt Ideal)}
  {A7 : (⟨S1024x1024, .f32⟩ : BufTy).Contents (Elt Ideal)} {A8 : (⟨S1024, .f32⟩ : BufTy).Contents (Elt Ideal)}
  (h0 : ∀ b t d, A0 (ValueIdx.ix3 b t d) = ((P.x b t d : ℝ) : EReal))
  (h1 : ∀ o d, A1 (ValueIdx.ix2 o d) = ((P.Wq o d : ℝ) : EReal))
  (h2 : ∀ o, A2 (ValueIdx.ix1 o) = ((P.bq o : ℝ) : EReal))
  (h3 : ∀ o d, A3 (ValueIdx.ix2 o d) = ((P.Wk o d : ℝ) : EReal))
  (h4 : ∀ o, A4 (ValueIdx.ix1 o) = ((P.bk o : ℝ) : EReal))
  (h5 : ∀ o d, A5 (ValueIdx.ix2 o d) = ((P.Wv o d : ℝ) : EReal))
  (h6 : ∀ o, A6 (ValueIdx.ix1 o) = ((P.bv o : ℝ) : EReal))
  (h7 : ∀ o d, A7 (ValueIdx.ix2 o d) = ((P.Wo o d : ℝ) : EReal))
  (h8 : ∀ o, A8 (ValueIdx.ix1 o) = ((P.bo o : ℝ) : EReal))

include h0 h1 h2 h3 h4 h5 h6 h7 h8

/-- With the nine argument buffers the coercions of the nine real arrays, the reference's result at (b, p) is the
    coercion of `Cert.Attn.out P b p`. -/
theorem reference_apply (bb : Fin 4) (p : Fin 1024) :
    val_main_v41 (F := Ideal) A0 A1 A2 A3 A4 A5 A6 A7 A8 (ValueIdx.ix2 bb p) = ((Cert.Attn.out P bb p : ℝ) : EReal) :=
  result_apply ⟨h0, h1, h2, h3, h4, h5, h6, h7, h8⟩ bb p

/-- The same as an equation of whole buffers. -/
theorem reference_eq : val_main_v41 (F := Ideal) A0 A1 A2 A3 A4 A5 A6 A7 A8 = outBuf P :=
  funext fun i => by
    rw [ValueIdx.eq_ix2 i]
    exact reference_apply P h0 h1 h2 h3 h4 h5 h6 h7 h8 (i 0) (i 1)

end Final

end Cert.RefValue

end
-- ==== Proof.RefRun.lean ====
/-
  The reference's run from a memory whose nine argument buffers are the coercions of the nine real arrays: the result
  buffer's term is the coercion of `Cert.Attn.out`, so every execution ends with the result buffer at that array.
-/
import proofs.«176754_j53403623358619_2_alg».proof.Proof.RefValue

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo
open Cert.Attn

/-- The result term of the reference's run, from a memory whose argument buffers hold the nine real arrays. -/
theorem res_eq (P : Params) (m : (ℓ : Loc nD τ sig) → Buf (Elt Ideal) ℓ) (c : Dev nD)
    (h0 : ∀ b t d, (m ((c.tc : Thread nD τ).loc main_arg0) : (⟨S4x2048x1024, .f32⟩ : BufTy).Contents (Elt Ideal)) (ValueIdx.ix3 b t d) = ((P.x b t d : ℝ) : EReal))
    (h1 : ∀ o d, (m ((c.tc : Thread nD τ).loc main_arg1) : (⟨S1024x1024, .f32⟩ : BufTy).Contents (Elt Ideal)) (ValueIdx.ix2 o d) = ((P.Wq o d : ℝ) : EReal))
    (h2 : ∀ o, (m ((c.tc : Thread nD τ).loc main_arg2) : (⟨S1024, .f32⟩ : BufTy).Contents (Elt Ideal)) (ValueIdx.ix1 o) = ((P.bq o : ℝ) : EReal))
    (h3 : ∀ o d, (m ((c.tc : Thread nD τ).loc main_arg3) : (⟨S1024x1024, .f32⟩ : BufTy).Contents (Elt Ideal)) (ValueIdx.ix2 o d) = ((P.Wk o d : ℝ) : EReal))
    (h4 : ∀ o, (m ((c.tc : Thread nD τ).loc main_arg4) : (⟨S1024, .f32⟩ : BufTy).Contents (Elt Ideal)) (ValueIdx.ix1 o) = ((P.bk o : ℝ) : EReal))
    (h5 : ∀ o d, (m ((c.tc : Thread nD τ).loc main_arg5) : (⟨S1024x1024, .f32⟩ : BufTy).Contents (Elt Ideal)) (ValueIdx.ix2 o d) = ((P.Wv o d : ℝ) : EReal))
    (h6 : ∀ o, (m ((c.tc : Thread nD τ).loc main_arg6) : (⟨S1024, .f32⟩ : BufTy).Contents (Elt Ideal)) (ValueIdx.ix1 o) = ((P.bv o : ℝ) : EReal))
    (h7 : ∀ o d, (m ((c.tc : Thread nD τ).loc main_arg7) : (⟨S1024x1024, .f32⟩ : BufTy).Contents (Elt Ideal)) (ValueIdx.ix2 o d) = ((P.Wo o d : ℝ) : EReal))
    (h8 : ∀ o, (m ((c.tc : Thread nD τ).loc main_arg8) : (⟨S1024, .f32⟩ : BufTy).Contents (Elt Ideal)) (ValueIdx.ix1 o) = ((P.bo o : ℝ) : EReal)) :
    Cert.ReferenceIdeal.Value.res_main_v41 (F := Ideal) m c = outBuf P := by
  rw [val_main_v41_eq]
  exact reference_eq P h0 h1 h2 h3 h4 h5 h6 h7 h8

/-- The run of the reference from such a memory: every execution ends with the result buffer at `outBuf P`. -/
theorem run_outBuf (P : Params) (m : (ℓ : Loc nD τ sig) → Buf (Elt Ideal) ℓ) (ρ : Dev nD → PrngReg)
    (hm : ∀ c : Dev nD,
      (∀ b t d, (m ((c.tc : Thread nD τ).loc main_arg0) : (⟨S4x2048x1024, .f32⟩ : BufTy).Contents (Elt Ideal)) (ValueIdx.ix3 b t d) = ((P.x b t d : ℝ) : EReal))
      ∧ (∀ o d, (m ((c.tc : Thread nD τ).loc main_arg1) : (⟨S1024x1024, .f32⟩ : BufTy).Contents (Elt Ideal)) (ValueIdx.ix2 o d) = ((P.Wq o d : ℝ) : EReal))
      ∧ (∀ o, (m ((c.tc : Thread nD τ).loc main_arg2) : (⟨S1024, .f32⟩ : BufTy).Contents (Elt Ideal)) (ValueIdx.ix1 o) = ((P.bq o : ℝ) : EReal))
      ∧ (∀ o d, (m ((c.tc : Thread nD τ).loc main_arg3) : (⟨S1024x1024, .f32⟩ : BufTy).Contents (Elt Ideal)) (ValueIdx.ix2 o d) = ((P.Wk o d : ℝ) : EReal))
      ∧ (∀ o, (m ((c.tc : Thread nD τ).loc main_arg4) : (⟨S1024, .f32⟩ : BufTy).Contents (Elt Ideal)) (ValueIdx.ix1 o) = ((P.bk o : ℝ) : EReal))
      ∧ (∀ o d, (m ((c.tc : Thread nD τ).loc main_arg5) : (⟨S1024x1024, .f32⟩ : BufTy).Contents (Elt Ideal)) (ValueIdx.ix2 o d) = ((P.Wv o d : ℝ) : EReal))
      ∧ (∀ o, (m ((c.tc : Thread nD τ).loc main_arg6) : (⟨S1024, .f32⟩ : BufTy).Contents (Elt Ideal)) (ValueIdx.ix1 o) = ((P.bv o : ℝ) : EReal))
      ∧ (∀ o d, (m ((c.tc : Thread nD τ).loc main_arg7) : (⟨S1024x1024, .f32⟩ : BufTy).Contents (Elt Ideal)) (ValueIdx.ix2 o d) = ((P.Wo o d : ℝ) : EReal))
      ∧ (∀ o, (m ((c.tc : Thread nD τ).loc main_arg8) : (⟨S1024, .f32⟩ : BufTy).Contents (Elt Ideal)) (ValueIdx.ix1 o) = ((P.bo o : ℝ) : EReal))) :
    θ_run Cert.ReferenceIdeal.defs (onTc (τ := τ) (main (F := Ideal))) ⟨m, fun _ => 0, ρ⟩ fun r => ∀ c : Dev nD,
      r.2.mem ((c.tc : Thread nD τ).loc main_v41) = outBuf P :=
  (θ_run Cert.ReferenceIdeal.defs _ _).mono (fun _ h c => by
      obtain ⟨h0, h1, h2, h3, h4, h5, h6, h7, h8⟩ := hm c
      rw [(h c).1, res_eq P m c h0 h1 h2 h3 h4 h5 h6 h7 h8])
    (Cert.ReferenceIdeal.Value.run (F := Ideal) m ρ)

end Cert.RefValue

end
-- ==== Proof.KernelRun.lean ====
/-
  The idealized kernel's run with its result named.

  Every weakly fair execution ends with the nine argument arrays unchanged (the generated frame) and with the result
  buffer — the region's output array [4, 1, 1024] after the one host reshape to [4, 1024] — holding, at (b, p), what grid
  point 8 b + 7 left in the output block at p: the output row of batch row b.
-/
import proofs.«176754_j53403623358619_2_alg».proof.Proof.KernelValue
import proofs.«176754_j53403623358619_2_alg».proof.Proof.KernelHost
import proofs.«176754_j53403623358619_2_alg».proof.Proof.RefRun

set_option maxRecDepth 16384

noncomputable section

namespace Cert.KernelRun

open Idealize.ShloMosaic Idealize.ShloMosaic.TcCoe Idealize.SL Idealize.SL.Sem
open Idealize.ShloMosaic.ValueIdx Cert.KernelIdeal Cert.KernelIdeal.Gen Cert.GridInputs

variable (m : (ℓ : Loc nD τ sig) → Buf (Elt Ideal) ℓ)
  (hpre : Cert.Pre_KernelIdeal (hPre_finite_inputs := Cert.Pre_finite_inputs.Gen.facts) m) (ρ : Dev nD → PrngReg)

include hpre

/-- The result buffer after the host reshape is the attention output of the real input arrays. -/
theorem result_eq (c : Dev nD) :
    @Eq (FVec Ideal S4x1024 .f32)
      (Pipeline.afterTail₀ cfgs (Gen.dats m) 0 (Gen.V0 m) [Gen.hostOps1] c main_v15)
      (Cert.RefValue.outBuf (P m c)) := by
  funext i
  obtain ⟨b, p, rfl⟩ : ∃ (b : Fin 4) (p : Fin 1024), i = ix2 b p := ⟨i 0, i 1, eq_ix2 i⟩
  exact (Cert.KernelHost.result_apply m c b p).trans (Cert.KernelValue.out_block m hpre c b p)

/-- The run: the result buffer at the attention output, the arguments unchanged. -/
theorem kernel_run :
    θ_run defs (onTc (τ := τ) (main (F := Ideal))) ⟨m, fun _ => 0, ρ⟩ (fun r => ∀ c : Dev nD,
      r.2.mem ((c.tc : Thread nD τ).loc main_v15) = Cert.RefValue.outBuf (P m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v15 (Pipeline.mem_restRefs_of main_v15 (by decide) (by decide))).trans (result_eq m hpre c),
      ((h c).1 0).trans (((Gen.dats m 0 c).arrAt_in 0 rfl _).trans ((A_eq m c 0).trans (V_main_arg0 m c))),
      (((h c).2 main_arg1 (Pipeline.mem_restRefs_of main_arg1 (by decide) (by decide))).trans (W_main_arg1 m (Gen.dats m) c)),
      (((h c).2 main_arg2 (Pipeline.mem_restRefs_of main_arg2 (by decide) (by decide))).trans (W_main_arg2 m (Gen.dats m) c)),
      (((h c).2 main_arg3 (Pipeline.mem_restRefs_of main_arg3 (by decide) (by decide))).trans (W_main_arg3 m (Gen.dats m) c)),
      ((h c).1 2).trans (((Gen.dats m 0 c).arrAt_in 2 rfl _).trans ((A_eq m c 2).trans (V_main_arg4 m c))),
      (((h c).2 main_arg5 (Pipeline.mem_restRefs_of main_arg5 (by decide) (by decide))).trans (W_main_arg5 m (Gen.dats m) c)),
      ((h c).1 4).trans (((Gen.dats m 0 c).arrAt_in 4 rfl _).trans ((A_eq m c 4).trans (V_main_arg6 m c))),
      (((h c).2 main_arg7 (Pipeline.mem_restRefs_of main_arg7 (by decide) (by decide))).trans (W_main_arg7 m (Gen.dats m) c)),
      ((h c).1 7).trans (((Gen.dats m 0 c).arrAt_in 7 rfl _).trans ((A_eq m c 7).trans (V_main_arg8 m c)))⟩)
    (Gen.run_main (F := Ideal) m ρ)

end Cert.KernelRun

end
-- ==== Proof.lean ====
/-
  Last-token multi-head attention: a tile-by-tile kernel against the plain reference.

  The kernel reads the sequence in eight tiles of 256 positions and carries, per head, a running maximum of the scaled
  scores, a running sum of the weights exp (score − maximum) and a running weighted sum of the value rows; each tile
  re-bases the old sum and weighted sum on the new maximum by the factor exp (old maximum − new maximum).  After the last
  tile the weighted sum is divided by the sum and multiplied into the output weights.  The reference computes all scores
  of all positions, takes the softmax row by row, multiplies it into the values, projects, and keeps the last token's row.

  Under the precondition every input entry is a real number, so every intermediate value is one, and over the reals the
  running quantities after the last tile are the maximum, the sum of weights and the weighted sum over the whole sequence:
  the two programs compute the same real-valued function of the nine input arrays (Cert.Attn.out), entry by entry.  The
  scale one eighth of the kernel is the reference's division by the square root of 64.

  The three frame claims are the generated frames (the reference's from its generated run); the idealized kernel is the
  kernel's own text read over the extended reals, so the idealization claim is trivial.
-/
import proofs.«176754_j53403623358619_2_alg».proof.Defs
import proofs.«176754_j53403623358619_2_alg».proof.Proof.Frames
import proofs.«176754_j53403623358619_2_alg».proof.Proof.KernelRun
import proofs.«176754_j53403623358619_2_alg».proof.Proof.RefRun
import proofs.«176754_j53403623358619_2_alg».proof.Proof.FiniteArgs

noncomputable section

namespace Cert.Proof

open Idealize.ShloMosaic Idealize.SL.Sem Cert.GridInputs

/-- Both idealized programs end with the attention output of the real input arrays in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.RefValue.outBuf (P m c), Cert.KernelRun.kernel_run m hpre ρ, ?_⟩
  refine (θ_run Cert.ReferenceIdeal.defs _ _).mono (fun _ h c => ⟨?_, (h c).2⟩)
    (Cert.ReferenceIdeal.Value.run (F := Ideal) m' ρ')
  obtain ⟨hx, hWq, hbq, hWk, hbk, hWv, hbv, hWo, hbo⟩ := Cert.FiniteArgs.args_real m hpre c
  obtain ⟨e0, e1, e2, e3, e4, e5, e6, e7, e8⟩ := hagree c
  rw [(h c).1]
  exact Cert.RefValue.res_eq (P m c) m' c
    (fun b t d => by rw [e0]; exact hx b t d) (fun o d => by rw [e1]; exact hWq o d) (fun o => by rw [e2]; exact hbq o)
    (fun o d => by rw [e3]; exact hWk o d) (fun o => by rw [e4]; exact hbk o)
    (fun o d => by rw [e5]; exact hWv o d) (fun o => by rw [e6]; exact hbv o)
    (fun o d => by rw [e7]; exact hWo o d) (fun o => by rw [e8]; exact hbo o)

theorem claim : Cert.Claim :=
  ⟨Cert.Kernel.Gen.facts, Cert.KernelIdeal.Gen.facts, Cert.ReferenceIdeal.Gen.facts, Cert.Pre_finite_inputs.Gen.facts,
    Cert.Proof.Frames.frame_kernel, Cert.Proof.Frames.frame_kernelIdeal, Cert.Proof.Frames.frame_referenceIdeal,
    Cert.Proof.Frames.preserves, algebraic⟩

end Cert.Proof

end
